-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x2 .f32) (main_arg8 : FVec F S128x2 .f32) (main_arg9 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg7
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S64x128 .f32) (main_arg3 : FVec F S64x128 .f32) (main_arg4 : FVec F S128 .f32) (main_arg5 : FVec F S128 .f32) (main_arg6 : FVec F S128 .f32) (main_arg7 : FVec F S128x2 .f32) (main_arg8 : FVec F S128x2 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S100000x128 : Shape := ⟨2, ![100000, 128]⟩
abbrev S10000x64 : Shape := ⟨2, ![10000, 64]⟩
abbrev S10000x1 : Shape := ⟨2, ![10000, 1]⟩
abbrev S10000x128 : Shape := ⟨2, ![10000, 128]⟩
abbrev S1x128 : Shape := ⟨2, ![1, 128]⟩
abbrev S1000000x128 : Shape := ⟨2, ![1000000, 128]⟩
abbrev S100000x2 : Shape := ⟨2, ![100000, 2]⟩
abbrev S10000x2 : Shape := ⟨2, ![10000, 2]⟩
abbrev S1x2 : Shape := ⟨2, ![1, 2]⟩

abbrev nBuf : Space → Nat
  | .hbm => 63
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x2, .f32⟩
  | .hbm, ⟨8, _⟩ => ⟨S128x2, .f32⟩
  | .hbm, ⟨9, _⟩ => ⟨S2, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S100000x1, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S_, .f32⟩
  | .hbm, ⟨31, _⟩ => ⟨S100000x64, .f32⟩
  | .hbm, ⟨32, _⟩ => ⟨S1000000x1, .i32⟩
  | .hbm, ⟨33, _⟩ => ⟨S100000x64, .f32⟩
  | .hbm, ⟨34, _⟩ => ⟨S100000x128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S100000x128, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x128, .f32⟩
  | .hbm, ⟨58, _⟩ => ⟨S_, .f32⟩
  | .hbm, ⟨59, _⟩ => ⟨S100000x128, .f32⟩
  | .hbm, ⟨60, _⟩ => ⟨S1000000x1, .i32⟩
  | .hbm, ⟨61, _⟩ => ⟨S100000x128, .f32⟩
  | .hbm, ⟨62, _⟩ => ⟨S100000x2, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x128, .f32⟩
  | .local _ .vmem, ⟨7, _⟩ => ⟨S64x128, .f32⟩
  | .local _ .vmem, ⟨8, _⟩ => ⟨S128, .f32⟩
  | .local _ .vmem, ⟨9, _⟩ => ⟨S10000x128, .f32⟩
  | .local _ .vmem, ⟨10, _⟩ => ⟨S10000x128, .f32⟩
  | .local _ .vmem, ⟨11, _⟩ => ⟨S128, .f32⟩
  | .local _ .vmem, ⟨12, _⟩ => ⟨S128, .f32⟩
  | .local _ .vmem, ⟨13, _⟩ => ⟨S10000x128, .f32⟩
  | .local _ .vmem, ⟨14, _⟩ => ⟨S10000x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S128x2, .f32⟩
  | .local _ .vmem, ⟨28, _⟩ => ⟨S128x2, .f32⟩
  | .local _ .vmem, ⟨29, _⟩ => ⟨S2, .f32⟩
  | .local _ .vmem, ⟨30, _⟩ => ⟨S10000x2, .f32⟩
  | .local _ .vmem, ⟨31, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S100000x64 : S_.BroadcastsInDim S100000x64 (![] : Fin 0 → Fin S100000x64.rank)
  inb_S128_S128_0 : ∀ a, (![0] : Fin 1 → Nat) a + S128.size a ≤ S128.size a
  h_S128 : 0 < S128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S128_S128 : S128.ShapeCasts S128
  reduces_S10000x128_S128 : S10000x128.Reduces [0] S128
  bcast_S_S128 : S_.BroadcastsInDim S128 (![] : Fin 0 → Fin S128.rank)
  shapeCasts_S10000x128_S10000x128 : S10000x128.ShapeCasts S10000x128
  bcast_S_S100000x128 : S_.BroadcastsInDim S100000x128 (![] : Fin 0 → Fin S100000x128.rank)
  broadcasts_S10000x1_S10000x128 : S10000x1.Broadcasts S10000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x128_S10000x128_1_0_0_1_n_n_wf : DotDims.WF S10000x64 S64x128 S10000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S10000x128_S128x2_S10000x2_1_0_0_1_n_n_wf : DotDims.WF S10000x128 S128x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .f32 = 32 ∨ (Rect.block (s := S128x2) S128x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2.size a ≤ S2.size a
  hwx2_5 : ∀ i : grid2.Coords, EltTy.bits .f32 = 32 ∨ (Rect.block (s := S2) S2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x2.size a ≤ S100000x2.size a
  hwx2_6 : ∀ i : grid2.Coords, EltTy.bits .f32 = 32 ∨ (Rect.block (s := S100000x2) S10000x2.size (cc2_transform_6 i) (hinb2_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

abbrev win0_0 : Pipeline.Window sig grid0 :=
  Pipeline.Window.ofSpec (Memref.whole main_v18) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S10000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19_2) S128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v19_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S10000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1000000x128 : Shape := ⟨2, ![1000000, 128]⟩
abbrev S100000x2 : Shape := ⟨2, ![100000, 2]⟩
abbrev S1x2 : Shape := ⟨2, ![1, 2]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x2, .f32⟩
  | .hbm, ⟨8, _⟩ => ⟨S128x2, .f32⟩
  | .hbm, ⟨9, _⟩ => ⟨S2, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S100000, .f32⟩
  | .hbm, ⟨31, _⟩ => ⟨S1000000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1000000, .i32⟩
  | .hbm, ⟨94, _⟩ => ⟨S1000000, .i1⟩
  | .hbm, ⟨95, _⟩ => ⟨S_, .i32⟩
  | .hbm, ⟨96, _⟩ => ⟨S1000000, .i32⟩
  | .hbm, ⟨97, _⟩ => ⟨S1000000, .i32⟩
  | .hbm, ⟨98, _⟩ => ⟨S1000000, .i32⟩
  | .hbm, ⟨99, _⟩ => ⟨S1000000x1, .i32⟩
  | .hbm, ⟨100, _⟩ => ⟨S1000000x128, .f32⟩
  | .hbm, ⟨101, _⟩ => ⟨S_, .f32⟩
  | .hbm, ⟨102, _⟩ => ⟨S100000x128, .f32⟩
  | .hbm, ⟨103, _⟩ => ⟨S1000000x1, .i32⟩
  | .hbm, ⟨104, _⟩ => ⟨S100000x128, .f32⟩
  | .hbm, ⟨105, _⟩ => ⟨S_, .f32⟩
  | .hbm, ⟨106, _⟩ => ⟨S1000000, .f32⟩
  | .hbm, ⟨107, _⟩ => ⟨S_, .f32⟩
  | .hbm, ⟨108, _⟩ => ⟨S100000, .f32⟩
  | .hbm, ⟨109, _⟩ => ⟨S1000000x1, .i32⟩
  | .hbm, ⟨110, _⟩ => ⟨S100000, .f32⟩
  | .hbm, ⟨111, _⟩ => ⟨S_, .f32⟩
  | .hbm, ⟨112, _⟩ => ⟨S100000, .f32⟩
  | .hbm, ⟨113, _⟩ => ⟨S100000, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S100000x2, .f32⟩
  | .hbm, ⟨118, _⟩ => ⟨S100000x2, .f32⟩
  | .hbm, ⟨119, _⟩ => ⟨S100000x2, .f32⟩
  | .hbm, ⟨120, _⟩ => ⟨S1x2, .f32⟩
  | .hbm, ⟨121, _⟩ => ⟨S100000x2, .f32⟩
  | .hbm, ⟨122, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_7 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_call1_cst : Ref sig .tc := ⟨.hbm, 89, rfl⟩
abbrev main_call1_v0 : Ref sig .tc := ⟨.hbm, 90, rfl⟩
abbrev main_v48 : Ref sig .tc := ⟨.hbm, 91, rfl⟩
abbrev main_c_8 : Ref sig .tc := ⟨.hbm, 92, rfl⟩
abbrev main_v49 : Ref sig .tc := ⟨.hbm, 93, rfl⟩
abbrev main_v50 : Ref sig .tc := ⟨.hbm, 94, rfl⟩
abbrev main_c_9 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_10 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_11 : Ref sig .tc := ⟨.hbm, 105, rfl⟩
abbrev main_v59 : Ref sig .tc := ⟨.hbm, 106, rfl⟩
abbrev main_cst_12 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_13 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x2_S100000x2_1_0_0_1_n_n_wf : DotDims.WF S100000x128 S128x2 S100000x2 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KReg0a.lean ====
/-
  The first region's body, case by case. At the first grid point the body zeroes the two running vectors and then adds
  the block's column sums onto them; at every later point it adds onto what the point before left. In both cases the
  block of the first layer's result is stored whole. Each output buffer after the body is therefore one named function
  of the point's input blocks (and, for the running vectors at a later point, of their previous contents).
-/
import proofs.«152036_j35828617183789_1_alg».proof.Proof.Gen.KernelIdeal.Frame
import Idealize.ShloMosaic.Lib.Pipeline.Value

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- A whole-buffer rectangle starts at the origin. -/
theorem hz1 : (![0] : Fin 1 → Nat) = fun _ => 0 := funext fun a => by fin_cases a; rfl
theorem hz2 : (![0, 0] : Fin 2 → Nat) = fun _ => 0 := funext fun a => by fin_cases a <;> rfl

theorem out0_A_6_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S10000x128 .f32) (harg7 : arg7.IsWhole) (arg8 : Memref sig .tc .vmem S128 .f32) (harg8 : arg8.IsWhole) (arg9 : Memref sig .tc .vmem S128 .f32) (harg9 : arg9.IsWhole) (hc0 : cond0_0 i) (x0 : Vec F S10000x64 .f32) (x1 : Vec F S10000x1 .f32) (x2 : Vec F S10000x64 .f32) (x3 : Vec F S64x128 .f32) (x4 : Vec F S64x128 .f32) (x5 : Vec F S128 .f32) :
    out0_A_6 c i arg1 harg1 arg2 harg2 arg3 harg3 arg4 harg4 arg5 harg5 arg6 harg6 arg7 harg7 arg8 harg8 arg9 harg9 hc0 x0 x1 x2 x3 x4 x5 = k0_pay4 x1 x0 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S10000x1) hz2, View.ld_unit_zero (S := S10000x64) hz2, View.ld_unit_zero (S := S64x128) hz2, View.ld_unit_zero (S := S128) hz1, View.readCov_unit_zero (S := S128) arg8.view hz1, View.readCov_unit_zero (S := S128) arg9.view hz1]

theorem out0_A_7_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S10000x128 .f32) (harg7 : arg7.IsWhole) (arg8 : Memref sig .tc .vmem S128 .f32) (harg8 : arg8.IsWhole) (arg9 : Memref sig .tc .vmem S128 .f32) (harg9 : arg9.IsWhole) (hc0 : cond0_0 i) (x0 : Vec F S10000x64 .f32) (x1 : Vec F S10000x1 .f32) (x2 : Vec F S10000x64 .f32) (x3 : Vec F S64x128 .f32) (x4 : Vec F S64x128 .f32) (x5 : Vec F S128 .f32) :
    out0_A_7 c i arg1 harg1 arg2 harg2 arg3 harg3 arg4 harg4 arg5 harg5 arg6 harg6 arg7 harg7 arg8 harg8 arg9 harg9 hc0 x0 x1 x2 x3 x4 x5 = k0_pay5 x1 x0 x2 x3 x4 x5 k0_pay2 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero hz1]
  simp only [View.readAt_eq_ld, harg1.read_unread, harg2.read_unread, harg3.read_unread, harg4.read_unread, harg5.read_unread, harg6.read_unread, harg8.read_unread, harg9.read_unread,
    View.ld_unit_zero (S := S10000x1) hz2, View.ld_unit_zero (S := S10000x64) hz2, View.ld_unit_zero (S := S64x128) hz2, View.ld_unit_zero (S := S128) hz1, View.readCov_unit_zero (S := S128) arg8.view hz1, View.readCov_unit_zero (S := S128) arg9.view hz1]

theorem out0_A_8_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S10000x128 .f32) (harg7 : arg7.IsWhole) (arg8 : Memref sig .tc .vmem S128 .f32) (harg8 : arg8.IsWhole) (arg9 : Memref sig .tc .vmem S128 .f32) (harg9 : arg9.IsWhole) (hc0 : cond0_0 i) (x0 : Vec F S10000x64 .f32) (x1 : Vec F S10000x1 .f32) (x2 : Vec F S10000x64 .f32) (x3 : Vec F S64x128 .f32) (x4 : Vec F S64x128 .f32) (x5 : Vec F S128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay6 k0_pay3) (k0_pay7 x1 x0 x2 x3 x4 x5) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero hz1]
  simp only [View.readAt_eq_ld, harg1.read_unread, harg2.read_unread, harg3.read_unread, harg4.read_unread, harg5.read_unread, harg6.read_unread, harg8.read_unread, harg9.read_unread,
    View.ld_unit_zero (S := S10000x1) hz2, View.ld_unit_zero (S := S10000x64) hz2, View.ld_unit_zero (S := S64x128) hz2, View.ld_unit_zero (S := S128) hz1, View.readCov_unit_zero (S := S128) arg8.view hz1, View.readCov_unit_zero (S := S128) arg9.view hz1]

theorem out0_B_6_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S10000x128 .f32) (harg7 : arg7.IsWhole) (arg8 : Memref sig .tc .vmem S128 .f32) (harg8 : arg8.IsWhole) (arg9 : Memref sig .tc .vmem S128 .f32) (harg9 : arg9.IsWhole) (hc0 : ¬cond0_0 i) (x0 : Vec F S10000x64 .f32) (x1 : Vec F S10000x1 .f32) (x2 : Vec F S10000x64 .f32) (x3 : Vec F S64x128 .f32) (x4 : Vec F S64x128 .f32) (x5 : Vec F S128 .f32) (xo7 xo8 : Vec F S128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x1 x0 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread,
    View.ld_unit_zero (S := S10000x1) hz2, View.ld_unit_zero (S := S10000x64) hz2, View.ld_unit_zero (S := S64x128) hz2, View.ld_unit_zero (S := S128) hz1, View.readCov_unit_zero (S := S128) arg8.view hz1, View.readCov_unit_zero (S := S128) arg9.view hz1]

theorem out0_B_7_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S10000x128 .f32) (harg7 : arg7.IsWhole) (arg8 : Memref sig .tc .vmem S128 .f32) (harg8 : arg8.IsWhole) (arg9 : Memref sig .tc .vmem S128 .f32) (harg9 : arg9.IsWhole) (hc0 : ¬cond0_0 i) (x0 : Vec F S10000x64 .f32) (x1 : Vec F S10000x1 .f32) (x2 : Vec F S10000x64 .f32) (x3 : Vec F S64x128 .f32) (x4 : Vec F S64x128 .f32) (x5 : Vec F S128 .f32) (xo7 xo8 : Vec F S128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x1 x0 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz1]
  simp only [View.readAt_eq_ld, harg1.read_unread, harg2.read_unread, harg3.read_unread, harg4.read_unread, harg5.read_unread, harg6.read_unread, harg8.read_unread, harg9.read_unread,
    View.ld_unit_zero (S := S10000x1) hz2, View.ld_unit_zero (S := S10000x64) hz2, View.ld_unit_zero (S := S64x128) hz2, View.ld_unit_zero (S := S128) hz1, View.readCov_unit_zero (S := S128) arg8.view hz1, View.readCov_unit_zero (S := S128) arg9.view hz1]

theorem out0_B_8_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S128 .f32) (harg6 : arg6.IsWhole) (arg7 : Memref sig .tc .vmem S10000x128 .f32) (harg7 : arg7.IsWhole) (arg8 : Memref sig .tc .vmem S128 .f32) (harg8 : arg8.IsWhole) (arg9 : Memref sig .tc .vmem S128 .f32) (harg9 : arg9.IsWhole) (hc0 : ¬cond0_0 i) (x0 : Vec F S10000x64 .f32) (x1 : Vec F S10000x1 .f32) (x2 : Vec F S10000x64 .f32) (x3 : Vec F S64x128 .f32) (x4 : Vec F S64x128 .f32) (x5 : Vec F S128 .f32) (xo7 xo8 : Vec F S128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay6 xo8) (k0_pay7 x1 x0 x2 x3 x4 x5) := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz1]
  simp only [View.readAt_eq_ld, harg1.read_unread, harg2.read_unread, harg3.read_unread, harg4.read_unread, harg5.read_unread, harg6.read_unread, harg8.read_unread, harg9.read_unread,
    View.ld_unit_zero (S := S10000x1) hz2, View.ld_unit_zero (S := S10000x64) hz2, View.ld_unit_zero (S := S64x128) hz2, View.ld_unit_zero (S := S128) hz1, View.readCov_unit_zero (S := S128) arg8.view hz1, View.readCov_unit_zero (S := S128) arg9.view hz1]

end Cert.KernelIdeal.KValue

end
-- ==== Proof.KReg0b.lean ====
/-
  What the first region's three outputs hold after each grid point, over the named functions of the point's blocks:
  at the first point the block of the layer's result, and the two running vectors started from zero; at a later point
  the block, and the two running vectors continued from what the point before left.
-/
import proofs.«152036_j35828617183789_1_alg».proof.Proof.KReg0a

set_option maxRecDepth 16384

noncomputable section

namespace Cert.KernelIdeal.KValue

open Idealize.ShloMosaic Idealize.ShloMosaic.TcCoe
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b)) (c : Dev nD)

set_option maxHeartbeats 1000000 in
/-- After the first point. -/
theorem outs_first (t : Fin cfg0.N) (h0 : t.val % 10 = 0) :
    outsAt0 V c t.val t.isLt
      = (k0_pay4 (iblk0 V c 1 t) (iblk0 V c 0 t) (iblk0 V c 2 t) (iblk0 V c 3 t) (iblk0 V c 4 t) (iblk0 V c 5 t),
         k0_pay5 (iblk0 V c 1 t) (iblk0 V c 0 t) (iblk0 V c 2 t) (iblk0 V c 3 t) (iblk0 V c 4 t) (iblk0 V c 5 t) k0_pay2,
         k0_pay1 (k0_pay6 k0_pay3) (k0_pay7 (iblk0 V c 1 t) (iblk0 V c 0 t) (iblk0 V c 2 t) (iblk0 V c 3 t) (iblk0 V c 4 t) (iblk0 V c 5 t))) := by
  rw [outsAt0_A V c t h0, out0_A_6_eq, out0_A_7_eq, out0_A_8_eq]

set_option maxHeartbeats 1000000 in
/-- After a later point. -/
theorem outs_later (t : Fin cfg0.N) (h0 : ¬t.val % 10 = 0) :
    outsAt0 V c t.val t.isLt
      = (k0_pay4 (iblk0 V c 1 t) (iblk0 V c 0 t) (iblk0 V c 2 t) (iblk0 V c 3 t) (iblk0 V c 4 t) (iblk0 V c 5 t),
         k0_pay5 (iblk0 V c 1 t) (iblk0 V c 0 t) (iblk0 V c 2 t) (iblk0 V c 3 t) (iblk0 V c 4 t) (iblk0 V c 5 t) (outsAt0 V c (t.val - 1) (Nat.lt_of_le_of_lt (Nat.sub_le _ _) t.isLt)).2.1,
         k0_pay1 (k0_pay6 (outsAt0 V c (t.val - 1) (Nat.lt_of_le_of_lt (Nat.sub_le _ _) t.isLt)).2.2) (k0_pay7 (iblk0 V c 1 t) (iblk0 V c 0 t) (iblk0 V c 2 t) (iblk0 V c 3 t) (iblk0 V c 4 t) (iblk0 V c 5 t))) := by
  rw [outsAt0_B V c t h0, out0_B_6_eq, out0_B_7_eq, out0_B_8_eq]

end Cert.KernelIdeal.KValue

end
-- ==== Proof.Spec.lean ====
/-
  The mathematics both programs compute, as ONE family of functions on the extended reals over plain coordinates
  (node i, feature k, edge e): a two-layer GraphSAGE with a batch normalisation and a ReLU between the layers.

  An edge e carries a source word and a destination word. A source word is wrapped when negative and clamped into the
  node range (what indexing a table by it reads); a destination word, read signed, names the node whose segment the
  edge's message is added into (an out-of-range destination adds nowhere). For a table X,
      agg X (p, k) = sum over the edges e with destination p of X (source row of e, k),
      cnt p        = the number of such edges (a sum of ones).
  One layer is  (agg / max(cnt, 1)) · Wl + X · Wr + b, entry by entry a pair of finite sums over the feature axis.
  Between the layers every column j of the first layer's result H is normalised by its mean  mu_j = (sum_i H(i,j)) / n
  and a variance, scaled and shifted, and clamped below at 0. The two programs differ in ONE place: the variance is
      varK_j = max( (sum_i H(i,j)^2) / n - mu_j^2 , 0 )          (one pass: mean of squares minus squared mean), or
      varR_j = (sum_i (H(i,j) - mu_j)^2) / n                      (two passes: mean squared deviation).
  Over real entries these are one number, since n is the number of rows; with an infinite entry they need not be.
-/
import Mathlib
import Idealize.ShloMosaic.PureOps.Ideal
import Idealize.ShloMosaic.PureOps.Vector
import Idealize.ShloMosaic.Lib.ValueIdx

noncomputable section

namespace Cert.Sage

open Idealize.ShloMosaic Idealize.ShloMosaic.ValueIdx

/-- The number of nodes and the number of edges. -/
abbrev NN : ℕ := 100000
abbrev NE : ℕ := 1000000

/-- The float words the programs spell: 1.0 (the floor of a count), 1e-5 rounded (the variance's guard), 100000.0 (the
    number of rows as a float). -/
def oneW : EReal := Ideal.ofBits .f32 0x3F800000#32
def epsW : EReal := Ideal.ofBits .f32 0x3727C5AC#32
def nW : EReal := Ideal.ofBits .f32 0x47C35000#32

theorem oneW_eq : oneW = 1 := by
  unfold oneW; simp [Ideal.ofBits, Ideal.ieee, -EReal.coe_mul]; norm_num

theorem nW_eq : nW = ((100000 : ℝ) : EReal) := by
  unfold nW; simp [Ideal.ofBits, Ideal.ieee, -EReal.coe_mul]; norm_num

/-- A negative source word is shifted up by the number of nodes (an index counted from the end). -/
def wrap (s : BitVec 32) : BitVec 32 := Scalar.select (IntOp.cmpi .slt s 0#32) (IntOp.addi s 100000#32) s

/-- The row a source word reads: wrapped, read signed, clamped into the table. -/
def srcRow (s : BitVec 32) : Fin NN := ⟨min (wrap s).toInt.toNat (NN - 1), by unfold NN; omega⟩

/-- The segment sum of per-edge rows U into the nodes: entry (p, k) collects the edges whose destination is p. -/
def seg {D : ℕ} (dst : Fin NE → BitVec 32) (U : Fin NE → Fin D → EReal) (p : Fin NN) (k : Fin D) : EReal :=
  ∑ e : Fin NE, if (dst e).toInt = (p.val : Int) then U e k else 0

/-- The neighbour sum of a table: each edge brings its source row to its destination. -/
def agg {D : ℕ} (src dst : Fin NE → BitVec 32) (X : Fin NN → Fin D → EReal) : Fin NN → Fin D → EReal :=
  seg dst fun e k => X (srcRow (src e)) k

/-- The number of edges into a node, as a sum of ones. -/
def cnt (dst : Fin NE → BitVec 32) (p : Fin NN) : EReal :=
  ∑ e : Fin NE, if (dst e).toInt = (p.val : Int) then oneW else 0

/-- One layer: the neighbour mean through Wl, the node itself through Wr, the bias. -/
def layer {D M : ℕ} (A : Fin NN → Fin D → EReal) (C : Fin NN → EReal) (X : Fin NN → Fin D → EReal)
    (Wl Wr : Fin D → Fin M → EReal) (b : Fin M → EReal) (i : Fin NN) (j : Fin M) : EReal :=
  (∑ k : Fin D, Ideal.div (A i k) (max (C i) oneW) * Wl k j) + (∑ k : Fin D, X i k * Wr k j) + b j

/-- A column's sum, its sum of squares, and its mean. -/
def colSum {M : ℕ} (H : Fin NN → Fin M → EReal) (j : Fin M) : EReal := ∑ i : Fin NN, H i j
def colSumSq {M : ℕ} (H : Fin NN → Fin M → EReal) (j : Fin M) : EReal := ∑ i : Fin NN, H i j * H i j
def colMean {M : ℕ} (H : Fin NN → Fin M → EReal) (j : Fin M) : EReal := Ideal.div (colSum H j) nW

/-- The variance in one pass, clamped at zero. -/
def varK {M : ℕ} (H : Fin NN → Fin M → EReal) (j : Fin M) : EReal :=
  max (Ideal.div (colSumSq H j) nW - colMean H j * colMean H j) 0

/-- The variance in two passes. -/
def varR {M : ℕ} (H : Fin NN → Fin M → EReal) (j : Fin M) : EReal :=
  Ideal.div (∑ i : Fin NN, (H i j - colMean H j) * (H i j - colMean H j)) nW

/-- Normalise by the column mean and a given variance, scale, shift, clamp below at zero. -/
def bnRelu {M : ℕ} (H : Fin NN → Fin M → EReal) (v γ β : Fin M → EReal) (i : Fin NN) (j : Fin M) : EReal :=
  max ((H i j - colMean H j) * Ideal.rsqrt (v j + epsW) * γ j + β j) 0

/-- The first layer's result. -/
def hidden (src dst : Fin NE → BitVec 32) (X : Fin NN → Fin 64 → EReal) (W1l W1r : Fin 64 → Fin 128 → EReal)
    (b1 : Fin 128 → EReal) : Fin NN → Fin 128 → EReal :=
  layer (agg src dst X) (cnt dst) X W1l W1r b1

/-- The whole network from a given normalised hidden table. -/
def outOf (src dst : Fin NE → BitVec 32) (Hn : Fin NN → Fin 128 → EReal) (W2l W2r : Fin 128 → Fin 2 → EReal)
    (b2 : Fin 2 → EReal) : Fin NN → Fin 2 → EReal :=
  layer (agg src dst Hn) (cnt dst) Hn W2l W2r b2

/-- The result with the one-pass variance. -/
def outK (src dst : Fin NE → BitVec 32) (X : Fin NN → Fin 64 → EReal) (W1l W1r : Fin 64 → Fin 128 → EReal)
    (b1 γ β : Fin 128 → EReal) (W2l W2r : Fin 128 → Fin 2 → EReal) (b2 : Fin 2 → EReal) : Fin NN → Fin 2 → EReal :=
  outOf src dst (bnRelu (hidden src dst X W1l W1r b1) (varK (hidden src dst X W1l W1r b1)) γ β) W2l W2r b2

/-- The result with the two-pass variance. -/
def outR (src dst : Fin NE → BitVec 32) (X : Fin NN → Fin 64 → EReal) (W1l W1r : Fin 64 → Fin 128 → EReal)
    (b1 γ β : Fin 128 → EReal) (W2l W2r : Fin 128 → Fin 2 → EReal) (b2 : Fin 2 → EReal) : Fin NN → Fin 2 → EReal :=
  outOf src dst (bnRelu (hidden src dst X W1l W1r b1) (varR (hidden src dst X W1l W1r b1)) γ β) W2l W2r b2

/-! ## The same over whole arrays: a table is read at its coordinates, the result laid out by its coordinates -/

/-- A two-axis array as a function of its two coordinates, a one-axis array of its one, and back. -/
def mat {a b : ℕ} {α : Type} (x : (⟨2, ![a, b]⟩ : Shape).Idx → α) : Fin a → Fin b → α := fun i k => x (ix2 i k)
def vec {a : ℕ} {α : Type} (x : (⟨1, ![a]⟩ : Shape).Idx → α) : Fin a → α := fun i => x (ix1 i)
def toArr {a b : ℕ} {α : Type} (f : Fin a → Fin b → α) : (⟨2, ![a, b]⟩ : Shape).Idx → α := fun y => f (y 0) (y 1)

theorem toArr_ix2 {a b : ℕ} {α : Type} (f : Fin a → Fin b → α) (i : Fin a) (k : Fin b) : toArr f (ix2 i k) = f i k := rfl

/-- An array is the layout of its own reading. -/
theorem toArr_mat {a b : ℕ} {α : Type} (x : (⟨2, ![a, b]⟩ : Shape).Idx → α) : toArr (mat x) = x := by
  funext y; exact congrArg x (eq_ix2 y).symm

/-- Two arrays that agree at every pair of coordinates are equal. -/
theorem arr_ext {a b : ℕ} {α : Type} (x : (⟨2, ![a, b]⟩ : Shape).Idx → α) (f : Fin a → Fin b → α)
    (h : ∀ i k, x (ix2 i k) = f i k) : x = toArr f := by
  funext y; rw [eq_ix2 y]; exact h _ _

/-- The edge table's two rows: the source words and the destination words. -/
def srcOf (ei : (⟨2, ![2, NE]⟩ : Shape).Idx → BitVec 32) : Fin NE → BitVec 32 := fun e => ei (ix2 (0 : Fin 2) e)
def dstOf (ei : (⟨2, ![2, NE]⟩ : Shape).Idx → BitVec 32) : Fin NE → BitVec 32 := fun e => ei (ix2 (1 : Fin 2) e)

/-- The network's result array from the ten argument arrays, with the one-pass variance. -/
def netK (x : (⟨2, ![NN, 64]⟩ : Shape).Idx → EReal) (ei : (⟨2, ![2, NE]⟩ : Shape).Idx → BitVec 32)
    (w1l w1r : (⟨2, ![64, 128]⟩ : Shape).Idx → EReal) (b1 g be : (⟨1, ![128]⟩ : Shape).Idx → EReal)
    (w2l w2r : (⟨2, ![128, 2]⟩ : Shape).Idx → EReal) (b2 : (⟨1, ![2]⟩ : Shape).Idx → EReal) :
    (⟨2, ![NN, 2]⟩ : Shape).Idx → EReal :=
  toArr (outK (srcOf ei) (dstOf ei) (mat x) (mat w1l) (mat w1r) (vec b1) (vec g) (vec be) (mat w2l) (mat w2r) (vec b2))

/-- The same with the two-pass variance. -/
def netR (x : (⟨2, ![NN, 64]⟩ : Shape).Idx → EReal) (ei : (⟨2, ![2, NE]⟩ : Shape).Idx → BitVec 32)
    (w1l w1r : (⟨2, ![64, 128]⟩ : Shape).Idx → EReal) (b1 g be : (⟨1, ![128]⟩ : Shape).Idx → EReal)
    (w2l w2r : (⟨2, ![128, 2]⟩ : Shape).Idx → EReal) (b2 : (⟨1, ![2]⟩ : Shape).Idx → EReal) :
    (⟨2, ![NN, 2]⟩ : Shape).Idx → EReal :=
  toArr (outR (srcOf ei) (dstOf ei) (mat x) (mat w1l) (mat w1r) (vec b1) (vec g) (vec be) (mat w2l) (mat w2r) (vec b2))

end Cert.Sage

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColSum.lean ====
/-
  A sum along the FIRST axis of a matrix read at a column.

  A sublane reduction `multi_reduction <add>` of a [K, b] array along its first axis, from the zero word, read at
  column j over the extended reals, is the sum over k of the entries (k, j).
-/
import proofs.«152036_j35828617183789_1_alg».proof.Proof.LibRowSum

namespace Idealize.ShloMosaic.ValueIdx

open Idealize.ShloMosaic

/-- A sum along the first axis of a [K, b] array, from the zero word, read at column `j`: `∑ k, src (k, j)`. The shape
    fact, the format fact and the accumulator's neutrality are whatever proofs the printed operation carries. -/
theorem multiReduction_add_cols_apply {K b : ℕ} (src : FVec Ideal ⟨2, ![K, b]⟩ .f32)
    (hr : (⟨2, ![K, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 hr hφ hacc (ix1 j) = ∑ k : Fin K, src (ix2 k j) :=
  (Ideal.multiReduction_add_single src _ hr hφ hacc (ix1 j)).trans
    (Finset.sum_congr rfl fun k _ => congrArg src (idx2_ext _ k j rfl rfl))

end Idealize.ShloMosaic.ValueIdx
-- ==== Proof.KPay.lean ====
/-
  What each kernel body computes, entry by entry, on the extended reals.
  A block of one layer holds rows r of the node table: entry (r, j) of the body's result is
      sum_k (A(r,k) / max(c(r), 1)) · Wl(k,j)  +  sum_k X(r,k) · Wr(k,j)  +  b(j),
  the two matrix products read as finite sums over the feature axis (a change of float format is the identity here, so
  the operands enter the products as they are), the count's floor and the bias laid along rows by broadcasts.
  The first body also adds the block's column sums, and the column sums of the squares, onto two running vectors.
  The normalising body is pointwise in (r, j) with the four per-column vectors laid along rows.
-/
import proofs.«152036_j35828617183789_1_alg».proof.Proof.Gen.KernelIdeal.Skeleton
import proofs.«152036_j35828617183789_1_alg».proof.Proof.Spec
import proofs.«152036_j35828617183789_1_alg».proof.Proof.LibDot
import proofs.«152036_j35828617183789_1_alg».proof.Proof.LibColumn
import proofs.«152036_j35828617183789_1_alg».proof.Proof.LibColSum
import Idealize.ShloMosaic.Lib.ValueLayout
import Idealize.ShloMosaic.PureOps.Ideal.Laws

noncomputable section

namespace Cert.KernelIdeal.KValue

open Idealize.ShloMosaic Idealize.ShloMosaic.ValueIdx
open Cert.KernelIdeal Cert.KernelIdeal.Gen Cert.Sage

/-- The first layer's product record is a plain rows-by-columns product contracting the 64 features. -/
theorem plain0 : Cert.LibDot.Plain dot_S10000x64_S64x128_S10000x128_1_0_0_1_n_n where
  hrank := rfl
  hs := rfl
  hl0 := fun _ _ => rfl
  hl1 := fun _ _ => rfl
  hr0 := fun _ _ => rfl
  hr1 := fun _ _ => rfl

/-- The second layer's product record is a plain rows-by-columns product contracting the 128 features. -/
theorem plain2 : Cert.LibDot.Plain dot_S10000x128_S128x2_S10000x2_1_0_0_1_n_n where
  hrank := rfl
  hs := rfl
  hl0 := fun _ _ => rfl
  hl1 := fun _ _ => rfl
  hr0 := fun _ _ => rfl
  hr1 := fun _ _ => rfl

/-- The first layer's block at (r, j). -/
theorem pay4_apply (c1 : Vec Ideal S10000x1 .f32) (a x : Vec Ideal S10000x64 .f32) (wl wr : Vec Ideal S64x128 .f32)
    (b : Vec Ideal S128 .f32) (r : Fin 10000) (j : Fin 128) :
    k0_pay4 (F := Ideal) c1 a x wl wr b (ix2 r j)
      = (∑ k : Fin 64, Ideal.div (a (ix2 r k)) (max (c1 (ix2 r (0 : Fin 1))) oneW) * wl (ix2 k j))
        + (∑ k : Fin 64, x (ix2 r k) * wr (ix2 k j)) + b (ix1 j) := by
  unfold k0_pay4
  rw [addf_apply, addf_apply, Cert.LibDot.matmul_ix2 plain0, Cert.LibDot.matmul_ix2 plain0,
    broadcastTo_1b_ab_apply, shapeCast_a_1a_apply]
  refine congrArg₂ (· + ·) (congrArg₂ (· + ·) (Finset.sum_congr rfl fun k _ => ?_) (Finset.sum_congr rfl fun k _ => rfl)) rfl
  rw [truncf_apply, truncf_apply, divf_apply, broadcastTo_a1_ab_apply, maximumf_apply,
    shapeCast_self, shapeCast_self]
  rfl

/-- The squared block is the block times itself. -/
theorem pay7_eq (c1 : Vec Ideal S10000x1 .f32) (a x : Vec Ideal S10000x64 .f32) (wl wr : Vec Ideal S64x128 .f32)
    (b : Vec Ideal S128 .f32) (r : Fin 10000) (j : Fin 128) :
    k0_pay7 (F := Ideal) c1 a x wl wr b (ix2 r j)
      = k0_pay4 (F := Ideal) c1 a x wl wr b (ix2 r j) * k0_pay4 (F := Ideal) c1 a x wl wr b (ix2 r j) := rfl

/-- The running column sum after a block: what it held plus the block's column sum. -/
theorem pay5_apply (c1 : Vec Ideal S10000x1 .f32) (a x : Vec Ideal S10000x64 .f32) (wl wr : Vec Ideal S64x128 .f32)
    (b prev : Vec Ideal S128 .f32) (j : Fin 128) :
    k0_pay5 (F := Ideal) c1 a x wl wr b prev (ix1 j)
      = prev (ix1 j) + ∑ r : Fin 10000, k0_pay4 (F := Ideal) c1 a x wl wr b (ix2 r j) := by
  unfold k0_pay5
  rw [addf_apply, shapeCast_self]
  exact congrArg (prev (ix1 j) + ·) (multiReduction_add_cols_apply _ _ _ _ j)

/-- The running sum of squares after a block: what it held plus the column sum of the given squares. -/
theorem pay1_apply (prev : FVec Ideal S128 .f32) (sq : FVec Ideal S10000x128 .f32) (j : Fin 128) :
    k0_pay1 (F := Ideal) prev sq (ix1 j) = prev (ix1 j) + ∑ r : Fin 10000, sq (ix2 r j) := by
  unfold k0_pay1
  rw [addf_apply]
  exact congrArg (prev (ix1 j) + ·) (multiReduction_add_cols_apply _ _ _ _ j)

/-- A same-shape cast of the running vector is the vector. -/
theorem pay6_eq (v : Vec Ideal S128 .f32) : k0_pay6 (F := Ideal) v = v := by
  unfold k0_pay6
  exact shapeCast_self _ _

/-- The two vectors the first point starts from are zero. -/
theorem pay2_apply (j : S128.Idx) : k0_pay2 (F := Ideal) j = 0 := Ideal.ofBits_zero_f32
theorem pay3_apply (j : S128.Idx) : k0_pay3 (F := Ideal) j = 0 := Ideal.ofBits_zero_f32

end Cert.KernelIdeal.KValue

end
-- ==== Proof.KReg0c.lean ====
/-
  The first region over whole arrays. The region finds six arrays: the neighbour sums A, the count column C, the node
  table X (100000 rows each), the two weight matrices and the bias. Grid point t handles rows t·10000 … t·10000+9999:
  its block of A, C, X is those rows, and its block of the weights and the bias is all of them. So the block of the
  layer's result computed at point t is rows t·10000 … of  H = layer A C X Wl Wr b, and after point n the two running
  vectors hold, per column, the sums over the points up to n of the block's column sum and of its squares' column sum.
-/
import proofs.«152036_j35828617183789_1_alg».proof.Proof.KReg0b
import proofs.«152036_j35828617183789_1_alg».proof.Proof.KPay

set_option maxRecDepth 16384

noncomputable section

namespace Cert.KernelIdeal.KValue

open Idealize.ShloMosaic Idealize.ShloMosaic.TcCoe Idealize.ShloMosaic.ValueIdx
open Idealize.ShloMosaic.Pipeline (Dat Cfg Window)
open Cert.KernelIdeal Cert.KernelIdeal.Gen Cert.Sage

variable (V : (c : Dev nD) → (b : Ref sig .tc) → Buf (Elt Ideal) ((c : Thread nD τ).loc b)) (c : Dev nD)

/-- The six arrays the region finds, read at coordinates. -/
def A0 : Fin NN → Fin 64 → EReal := mat (a := NN) (b := 64) (V c (Pipeline.arrRef spec0 0))
def C0 : Fin NN → EReal := fun p => V c (Pipeline.arrRef spec0 1) (ix2 p (0 : Fin 1))
def X0 : Fin NN → Fin 64 → EReal := mat (a := NN) (b := 64) (V c (Pipeline.arrRef spec0 2))
def Wl0 : Fin 64 → Fin 128 → EReal := mat (a := 64) (b := 128) (V c (Pipeline.arrRef spec0 3))
def Wr0 : Fin 64 → Fin 128 → EReal := mat (a := 64) (b := 128) (V c (Pipeline.arrRef spec0 4))
def b0 : Fin 128 → EReal := vec (a := 128) (V c (Pipeline.arrRef spec0 5))

/-- The first layer's result over the arrays the region finds. -/
def H0 : Fin NN → Fin 128 → EReal := layer (A0 V c) (C0 V c) (X0 V c) (Wl0 V c) (Wr0 V c) (b0 V c)

/-- The printed index maps over the grid: the row-tiled windows move with the point, the others stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 1) = 0 ∧ win0_8.index t (0 : Fin 1) = 0 :=
  (by decide +kernel : ∀ t : Fin grid0.N, _)

theorem pt_lt (t : Fin cfg0.N) : t.val < 10 := lt_of_lt_of_eq t.isLt (show cfg0.N = 10 from N_0)

/-- Row r of point t's block is row t·10000 + r of the array. -/
def rowOf (t : Fin cfg0.N) (r : Fin 10000) : Fin NN :=
  ⟨t.val * 10000 + r.val, by have := pt_lt t; have := r.isLt; unfold NN; omega⟩

theorem blk0_0 (t : Fin cfg0.N) (r : Fin 10000) (k : Fin 64) : iblk0 V c 0 t (ix2 r k) = A0 V c (rowOf t r) k := by
  show V c (Pipeline.arrRef spec0 0) (((cfg0.win 0).blk t).view.emb (ix2 r k)) = V c (Pipeline.arrRef spec0 0) (ix2 (rowOf t r) k)
  refine congrArg (V c (Pipeline.arrRef spec0 0)) ?_
  obtain ⟨e0, e1, -⟩ := idx0 t
  funext a; apply Fin.ext
  match a with
  | ⟨0, _⟩ => show win0_0.index t (0 : Fin 2) * 10000 + 1 * r.val = t.val * 10000 + r.val; omega
  | ⟨1, _⟩ => show win0_0.index t (1 : Fin 2) * 64 + 1 * k.val = k.val; omega

theorem blk0_1 (t : Fin cfg0.N) (r : Fin 10000) : iblk0 V c 1 t (ix2 r (0 : Fin 1)) = C0 V c (rowOf t r) := by
  show V c (Pipeline.arrRef spec0 1) (((cfg0.win 1).blk t).view.emb (ix2 r (0 : Fin 1))) = V c (Pipeline.arrRef spec0 1) (ix2 (rowOf t r) (0 : Fin 1))
  refine congrArg (V c (Pipeline.arrRef spec0 1)) ?_
  obtain ⟨-, -, e0, e1, -⟩ := idx0 t
  funext a; apply Fin.ext
  match a with
  | ⟨0, _⟩ => show win0_1.index t (0 : Fin 2) * 10000 + 1 * r.val = t.val * 10000 + r.val; omega
  | ⟨1, _⟩ => show win0_1.index t (1 : Fin 2) * 1 + 1 * 0 = 0; omega

theorem blk0_2 (t : Fin cfg0.N) (r : Fin 10000) (k : Fin 64) : iblk0 V c 2 t (ix2 r k) = X0 V c (rowOf t r) k := by
  show V c (Pipeline.arrRef spec0 2) (((cfg0.win 2).blk t).view.emb (ix2 r k)) = V c (Pipeline.arrRef spec0 2) (ix2 (rowOf t r) k)
  refine congrArg (V c (Pipeline.arrRef spec0 2)) ?_
  obtain ⟨-, -, -, -, e0, e1, -⟩ := idx0 t
  funext a; apply Fin.ext
  match a with
  | ⟨0, _⟩ => show win0_2.index t (0 : Fin 2) * 10000 + 1 * r.val = t.val * 10000 + r.val; omega
  | ⟨1, _⟩ => show win0_2.index t (1 : Fin 2) * 64 + 1 * k.val = k.val; omega

theorem blk0_3 (t : Fin cfg0.N) (k : Fin 64) (j : Fin 128) : iblk0 V c 3 t (ix2 k j) = Wl0 V c k j := by
  show V c (Pipeline.arrRef spec0 3) (((cfg0.win 3).blk t).view.emb (ix2 k j)) = V c (Pipeline.arrRef spec0 3) (ix2 k j)
  refine congrArg (V c (Pipeline.arrRef spec0 3)) ?_
  obtain ⟨-, -, -, -, -, -, e0, e1, -⟩ := idx0 t
  funext a; apply Fin.ext
  match a with
  | ⟨0, _⟩ => show win0_3.index t (0 : Fin 2) * 64 + 1 * k.val = k.val; omega
  | ⟨1, _⟩ => show win0_3.index t (1 : Fin 2) * 128 + 1 * j.val = j.val; omega

theorem blk0_4 (t : Fin cfg0.N) (k : Fin 64) (j : Fin 128) : iblk0 V c 4 t (ix2 k j) = Wr0 V c k j := by
  show V c (Pipeline.arrRef spec0 4) (((cfg0.win 4).blk t).view.emb (ix2 k j)) = V c (Pipeline.arrRef spec0 4) (ix2 k j)
  refine congrArg (V c (Pipeline.arrRef spec0 4)) ?_
  obtain ⟨-, -, -, -, -, -, -, -, e0, e1, -⟩ := idx0 t
  funext a; apply Fin.ext
  match a with
  | ⟨0, _⟩ => show win0_4.index t (0 : Fin 2) * 64 + 1 * k.val = k.val; omega
  | ⟨1, _⟩ => show win0_4.index t (1 : Fin 2) * 128 + 1 * j.val = j.val; omega

theorem blk0_5 (t : Fin cfg0.N) (j : Fin 128) : iblk0 V c 5 t (ix1 j) = b0 V c j := by
  show V c (Pipeline.arrRef spec0 5) (((cfg0.win 5).blk t).view.emb (ix1 j)) = V c (Pipeline.arrRef spec0 5) (ix1 j)
  refine congrArg (V c (Pipeline.arrRef spec0 5)) ?_
  obtain ⟨-, -, -, -, -, -, -, -, -, -, e0, -⟩ := idx0 t
  funext a; apply Fin.ext
  match a with
  | ⟨0, _⟩ => show win0_5.index t (0 : Fin 1) * 128 + 1 * j.val = j.val; omega

/-- The block of the layer's result that point t computes. -/
def hblk (t : Fin cfg0.N) : Vec Ideal S10000x128 .f32 := k0_pay4 (F := Ideal) (iblk0 V c 1 t) (iblk0 V c 0 t) (iblk0 V c 2 t) (iblk0 V c 3 t) (iblk0 V c 4 t) (iblk0 V c 5 t)

/-- It is rows t·10000 … of H. -/
theorem hblk_apply (t : Fin cfg0.N) (r : Fin 10000) (j : Fin 128) : hblk V c t (ix2 r j) = H0 V c (rowOf t r) j := by
  unfold hblk
  refine (pay4_apply (iblk0 V c 1 t) (iblk0 V c 0 t) (iblk0 V c 2 t) (iblk0 V c 3 t) (iblk0 V c 4 t) (iblk0 V c 5 t) r j).trans ?_
  unfold H0 layer
  simp only [blk0_0 V c t r, blk0_1 V c t r, blk0_2 V c t r, blk0_3 V c t, blk0_4 V c t, blk0_5 V c t]

/-- The running column sum after a point, over the block. -/
theorem pay5_hblk (t : Fin cfg0.N) (prev : Vec Ideal S128 .f32) (j : Fin 128) :
    k0_pay5 (F := Ideal) (iblk0 V c 1 t) (iblk0 V c 0 t) (iblk0 V c 2 t) (iblk0 V c 3 t) (iblk0 V c 4 t) (iblk0 V c 5 t) prev (ix1 j) = prev (ix1 j) + ∑ r : Fin 10000, hblk V c t (ix2 r j) :=
  pay5_apply (iblk0 V c 1 t) (iblk0 V c 0 t) (iblk0 V c 2 t) (iblk0 V c 3 t) (iblk0 V c 4 t) (iblk0 V c 5 t) prev j

/-- The running sum of squares after a point, over the block. -/
theorem pay1_hblk (t : Fin cfg0.N) (prev : Vec Ideal S128 .f32) (j : Fin 128) :
    k0_pay1 (F := Ideal) (k0_pay6 prev) (k0_pay7 (iblk0 V c 1 t) (iblk0 V c 0 t) (iblk0 V c 2 t) (iblk0 V c 3 t) (iblk0 V c 4 t) (iblk0 V c 5 t)) (ix1 j)
      = prev (ix1 j) + ∑ r : Fin 10000, hblk V c t (ix2 r j) * hblk V c t (ix2 r j) := by
  refine (pay1_apply (k0_pay6 prev) (k0_pay7 (iblk0 V c 1 t) (iblk0 V c 0 t) (iblk0 V c 2 t) (iblk0 V c 3 t) (iblk0 V c 4 t) (iblk0 V c 5 t)) j).trans ?_
  rw [pay6_eq]
  rfl

/-- One point's share of a column's sum, and of its sum of squares (nothing past the grid). -/
def colPart (j : Fin 128) (n : ℕ) : EReal :=
  if h : n < cfg0.N then ∑ r : Fin 10000, hblk V c ⟨n, h⟩ (ix2 r j) else 0
def sqPart (j : Fin 128) (n : ℕ) : EReal :=
  if h : n < cfg0.N then ∑ r : Fin 10000, hblk V c ⟨n, h⟩ (ix2 r j) * hblk V c ⟨n, h⟩ (ix2 r j) else 0

/-- After point n: the block of H, and the two running vectors at the shares summed up to n. -/
theorem outs_inv : ∀ (n : ℕ) (hn : n < cfg0.N),
    (outsAt0 V c n hn).1 = hblk V c ⟨n, hn⟩
    ∧ (∀ j : Fin 128, (outsAt0 V c n hn).2.1 (ix1 j) = ∑ s ∈ Finset.range (n + 1), colPart V c j s)
    ∧ (∀ j : Fin 128, (outsAt0 V c n hn).2.2 (ix1 j) = ∑ s ∈ Finset.range (n + 1), sqPart V c j s)
  | 0, hn => by
    have e : outsAt0 V c 0 hn = _ := outs_first V c ⟨0, hn⟩ (Nat.zero_mod 10)
    rw [e]
    refine ⟨rfl, fun j => ?_, fun j => ?_⟩
    · refine (pay5_hblk V c ⟨0, hn⟩ _ j).trans ?_
      rw [pay2_apply, zero_add, Finset.sum_range_one]
      unfold colPart
      rw [dif_pos hn]
    · refine (pay1_hblk V c ⟨0, hn⟩ _ j).trans ?_
      rw [pay3_apply, zero_add, Finset.sum_range_one]
      unfold sqPart
      rw [dif_pos hn]
  | n + 1, hn => by
    have hN : n + 1 < 10 := lt_of_lt_of_eq hn (show cfg0.N = 10 from N_0)
    have e : outsAt0 V c (n + 1) hn = _ := outs_later V c ⟨n + 1, hn⟩ (by show ¬(n + 1) % 10 = 0; omega)
    obtain ⟨-, ih2, ih3⟩ := outs_inv n (Nat.lt_of_succ_lt hn)
    rw [e]
    refine ⟨rfl, fun j => ?_, fun j => ?_⟩
    · refine (pay5_hblk V c ⟨n + 1, hn⟩ _ j).trans ?_
      rw [Finset.sum_range_succ _ (n + 1)]
      refine congrArg₂ (· + ·) (ih2 j) ?_
      unfold colPart
      rw [dif_pos hn]
    · refine (pay1_hblk V c ⟨n + 1, hn⟩ _ j).trans ?_
      rw [Finset.sum_range_succ _ (n + 1)]
      refine congrArg₂ (· + ·) (ih3 j) ?_
      unfold sqPart
      rw [dif_pos hn]

end Cert.KernelIdeal.KValue

end
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.KReg0d.lean ====
/-
  What the first region leaves in its three result arrays. The layer's result is written back block by block, and the
  blocks tile the rows, so the array ends as H. The two running vectors are written back once, after the last point,
  when they hold the sums over all ten points of each block's column sums: a column's sum over all 100000 rows, taken
  ten thousand rows at a time.
-/
import proofs.«152036_j35828617183789_1_alg».proof.Proof.KReg0c
import proofs.«152036_j35828617183789_1_alg».proof.Proof.LibSumBlocks

set_option maxRecDepth 16384

noncomputable section

namespace Cert.Sage
open Idealize.ShloMosaic
/-- A one-axis array laid out from a function of its coordinate. -/
def toVec {a : ℕ} {α : Type} (f : Fin a → α) : (⟨1, ![a]⟩ : Shape).Idx → α := fun y => f (y 0)
end Cert.Sage

namespace Cert.KernelIdeal.KValue

open Idealize.ShloMosaic Idealize.ShloMosaic.TcCoe Idealize.ShloMosaic.ValueIdx
open Idealize.ShloMosaic.Pipeline (Dat Cfg Window)
open Cert.KernelIdeal Cert.KernelIdeal.Gen Cert.Sage

variable (V : (c : Dev nD) → (b : Ref sig .tc) → Buf (Elt Ideal) ((c : Thread nD τ).loc b)) (c : Dev nD)

/-! ## The layer's result -/

theorem flushed0_6 (t : Fin cfg0.N) :
    (dat0 (F := Ideal) V c).flushed 6 t = ((cfg0.win 6).blk t).view.read (Elt Ideal) (toArr (H0 V c)) := by
  obtain ⟨-, -, -, -, -, -, -, -, -, -, -, e0, e1, -⟩ := idx0 t
  show (cfg0.win 6).cut (grid0.coords t) ((dat0 V c).after 6 t) = _
  rw [after0_6, (outs_inv V c t.val t.isLt).1]
  funext y
  obtain ⟨r, j, rfl⟩ : ∃ (r : Fin 10000) (j : Fin 128), y = ix2 r j := ⟨y 0, y 1, eq_ix2 y⟩
  show hblk V c t (ix2 r j) = toArr (H0 V c) (((cfg0.win 6).blk t).view.emb (ix2 r j))
  have hemb : ((cfg0.win 6).blk t).view.emb (ix2 r j) = ix2 (rowOf t r) j := by
    funext a; apply Fin.ext
    match a with
    | ⟨0, _⟩ => show win0_6.index t (0 : Fin 2) * 10000 + 1 * r.val = t.val * 10000 + r.val; omega
    | ⟨1, _⟩ => show win0_6.index t (1 : Fin 2) * 128 + 1 * j.val = j.val; omega
  rw [hemb, hblk_apply]
  rfl

theorem mem_blk0_6 (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v19_0).slice (win0_6.rect t)).set ↔ _
  rw [View.set_slice_whole, Rect.mem_set_unit]
  exact Iff.rfl

theorem cover0_6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, lt_of_lt_of_eq (by omega : (i 0).val / 10000 < 10) N_0.symm⟩, rfl⟩
  refine ⟨t, flush0_6 t, ?_⟩
  rw [mem_blk0_6]
  obtain ⟨-, -, -, -, -, -, -, -, -, -, -, e0, e1, -⟩ := idx0 t
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 128 ≤ (i 1).val ∧ (i 1).val < win0_6.index t (1 : Fin 2) * 128 + 128
    rw [e1]; omega

/-- The layer's result after the region. -/
theorem final0_6 : (dat0 (F := Ideal) V c).arrAt 6 cfg0.N = toArr (H0 V c) :=
  (dat0 V c).arrAt_eq_of_cover 6 (toArr (H0 V c)) (fun t _ => flushed0_6 V c t) (cover0_6)

/-! ## The two column statistics -/

/-- The last grid point, the one after which the running vectors are written back. -/
abbrev lastPt : Fin cfg0.N := ⟨9, lt_of_lt_of_eq (by decide : 9 < 10) N_0.symm⟩

/-- Ten points' shares of a column's sum are the column's sum. -/
theorem colPart_whole (j : Fin 128) : ∑ s ∈ Finset.range (9 + 1), colPart V c j s = colSum (H0 V c) j := by
  unfold colSum
  rw [Cert.LibSumBlocks.sum_blocks 10 10000 NN rfl (fun i => H0 V c i j), Finset.sum_range]
  refine Finset.sum_congr rfl fun s _ => ?_
  have hs : s.val < cfg0.N := lt_of_lt_of_eq s.isLt N_0.symm
  unfold colPart
  rw [dif_pos hs]
  refine Finset.sum_congr rfl fun r _ => ?_
  rw [hblk_apply]
  rfl

/-- The same for the squares. -/
theorem sqPart_whole (j : Fin 128) : ∑ s ∈ Finset.range (9 + 1), sqPart V c j s = colSumSq (H0 V c) j := by
  unfold colSumSq
  rw [Cert.LibSumBlocks.sum_blocks 10 10000 NN rfl (fun i => H0 V c i j * H0 V c i j), Finset.sum_range]
  refine Finset.sum_congr rfl fun s _ => ?_
  have hs : s.val < cfg0.N := lt_of_lt_of_eq s.isLt N_0.symm
  unfold sqPart
  rw [dif_pos hs]
  refine Finset.sum_congr rfl fun r _ => ?_
  rw [hblk_apply]
  rfl

theorem flushed0_7 (t : Fin cfg0.N) (hf : (cfg0.win 7).flush t = true) :
    (dat0 (F := Ideal) V c).flushed 7 t = ((cfg0.win 7).blk t).view.read (Elt Ideal) (toVec (colSum (H0 V c))) := by
  have h9 : t.val % 10 = 9 := (flush0_7 t).mp hf
  have ht : t.val = 9 := by have := pt_lt t; omega
  obtain rfl : t = lastPt := Fin.ext ht
  show (cfg0.win 7).cut (grid0.coords _) ((dat0 V c).after 7 _) = _
  rw [after0_7]
  have hinv := (outs_inv V c 9 lastPt.isLt).2.1
  generalize (outsAt0 V c _ _).2.1 = S at hinv ⊢
  have hS : S = toVec (colSum (H0 V c)) := by
    funext y
    obtain ⟨j, rfl⟩ : ∃ j : Fin 128, y = ix1 j := ⟨y 0, eq_ix1 y⟩
    rw [hinv j]
    exact colPart_whole V c j
  rw [hS]
  have hz' : (fun a => win0_7.index lastPt a * main_v19_1.ty.shape.size a) = fun _ => 0 :=
    funext fun a => by fin_cases a; decide +kernel
  exact (Memref.read_access_unit_zero (Elt Ideal) main_v19_1 hz' (fun a => by rw [congrFun hz' a]; simp) (toVec (colSum (H0 V c)))).symm

theorem mem_blk0_7 (t : Fin cfg0.N) (i : S128.Idx) :
    i ∈ ((cfg0.win 7).blk t).view.set ↔ ∀ a : Fin 1, win0_7.index t a * S128.size a ≤ (i a).val
      ∧ (i a).val < win0_7.index t a * S128.size a + S128.size a := by
  show i ∈ ((View.whole main_v19_1).slice (win0_7.rect t)).set ↔ _
  rw [View.set_slice_whole, Rect.mem_set_unit]
  exact Iff.rfl

theorem cover0_7 (i : S128.Idx) : ∃ t : Fin cfg0.N, (cfg0.win 7).flush t = true ∧ i ∈ ((cfg0.win 7).blk t).view.set := by
  have hi0 : (i 0).val < 128 := (i 0).isLt
  obtain ⟨t, ht⟩ : ∃ t : Fin cfg0.N, t.val = 9 := ⟨⟨9, lt_of_lt_of_eq (by omega : 9 < 10) N_0.symm⟩, rfl⟩
  refine ⟨t, (flush0_7 t).mpr (by rw [ht]), ?_⟩
  rw [mem_blk0_7]
  obtain ⟨-, -, -, -, -, -, -, -, -, -, -, -, -, e7, e8⟩ := idx0 t
  intro a
  match a with
  | ⟨0, _⟩ =>
    show win0_7.index t (0 : Fin 1) * 128 ≤ (i 0).val ∧ (i 0).val < win0_7.index t (0 : Fin 1) * 128 + 128
    omega

/-- The column sums after the region. -/
theorem final0_7 : (dat0 (F := Ideal) V c).arrAt 7 cfg0.N = toVec (colSum (H0 V c)) :=
  (dat0 V c).arrAt_eq_of_cover 7 (toVec (colSum (H0 V c))) (fun t hf => flushed0_7 V c t hf) (cover0_7)

theorem flushed0_8 (t : Fin cfg0.N) (hf : (cfg0.win 8).flush t = true) :
    (dat0 (F := Ideal) V c).flushed 8 t = ((cfg0.win 8).blk t).view.read (Elt Ideal) (toVec (colSumSq (H0 V c))) := by
  have h9 : t.val % 10 = 9 := (flush0_8 t).mp hf
  have ht : t.val = 9 := by have := pt_lt t; omega
  obtain rfl : t = lastPt := Fin.ext ht
  show (cfg0.win 8).cut (grid0.coords _) ((dat0 V c).after 8 _) = _
  rw [after0_8]
  have hinv := (outs_inv V c 9 lastPt.isLt).2.2
  generalize (outsAt0 V c _ _).2.2 = S at hinv ⊢
  have hS : S = toVec (colSumSq (H0 V c)) := by
    funext y
    obtain ⟨j, rfl⟩ : ∃ j : Fin 128, y = ix1 j := ⟨y 0, eq_ix1 y⟩
    rw [hinv j]
    exact sqPart_whole V c j
  rw [hS]
  have hz' : (fun a => win0_8.index lastPt a * main_v19_2.ty.shape.size a) = fun _ => 0 :=
    funext fun a => by fin_cases a; decide +kernel
  exact (Memref.read_access_unit_zero (Elt Ideal) main_v19_2 hz' (fun a => by rw [congrFun hz' a]; simp) (toVec (colSumSq (H0 V c)))).symm

theorem mem_blk0_8 (t : Fin cfg0.N) (i : S128.Idx) :
    i ∈ ((cfg0.win 8).blk t).view.set ↔ ∀ a : Fin 1, win0_8.index t a * S128.size a ≤ (i a).val
      ∧ (i a).val < win0_8.index t a * S128.size a + S128.size a := by
  show i ∈ ((View.whole main_v19_2).slice (win0_8.rect t)).set ↔ _
  rw [View.set_slice_whole, Rect.mem_set_unit]
  exact Iff.rfl

theorem cover0_8 (i : S128.Idx) : ∃ t : Fin cfg0.N, (cfg0.win 8).flush t = true ∧ i ∈ ((cfg0.win 8).blk t).view.set := by
  have hi0 : (i 0).val < 128 := (i 0).isLt
  obtain ⟨t, ht⟩ : ∃ t : Fin cfg0.N, t.val = 9 := ⟨⟨9, lt_of_lt_of_eq (by omega : 9 < 10) N_0.symm⟩, rfl⟩
  refine ⟨t, (flush0_8 t).mpr (by rw [ht]), ?_⟩
  rw [mem_blk0_8]
  obtain ⟨-, -, -, -, -, -, -, -, -, -, -, -, -, e7, e8⟩ := idx0 t
  intro a
  match a with
  | ⟨0, _⟩ =>
    show win0_8.index t (0 : Fin 1) * 128 ≤ (i 0).val ∧ (i 0).val < win0_8.index t (0 : Fin 1) * 128 + 128
    omega

/-- The column sums of squares after the region. -/
theorem final0_8 : (dat0 (F := Ideal) V c).arrAt 8 cfg0.N = toVec (colSumSq (H0 V c)) :=
  (dat0 V c).arrAt_eq_of_cover 8 (toVec (colSumSq (H0 V c))) (fun t hf => flushed0_8 V c t hf) (cover0_8)

end Cert.KernelIdeal.KValue

end
-- ==== Proof.KStage.lean ====
/-
  The host operations between the kernel regions, as named functions of the buffers they read.
  Before the first region: the edge table's two rows as vectors (source words, destination words); the count column
  (a segment sum of ones by destination, laid as a column); the neighbour sum of the node table (the source rows,
  wrapped and clamped, gathered and summed into their destinations). Between the first two regions: the column mean
  and the one-pass variance from the two running sums. Before the last region: the neighbour sum of the normalised table.
  Every other buffer passes through a stretch unchanged.
-/
import proofs.«152036_j35828617183789_1_alg».proof.Proof.Gen.KernelIdeal.Frame
import Idealize.ShloMosaic.Lib.StableHlo.Run

set_option maxRecDepth 16384

noncomputable section

namespace Cert.KernelIdeal.KValue

open Idealize.ShloMosaic Idealize.ShloMosaic.TcCoe
open Cert.KernelIdeal Cert.KernelIdeal.Gen

variable {F : FTy → Type} [FloatOps F]

/-- The edge table's first row as a vector: the source words. -/
def kSrc (ei : (⟨S2x1000000, .i32⟩ : BufTy).Contents (Elt F)) : (⟨S1000000, .i32⟩ : BufTy).Contents (Elt F) :=
  shapeCast S1000000 (extractStridedSlice S1x1000000 ![0, 0] ei slices_S2x1000000_S1x1000000_0_0) shapeCasts_S1x1000000_S1000000

/-- The edge table's second row as a vector: the destination words. -/
def kDst (ei : (⟨S2x1000000, .i32⟩ : BufTy).Contents (Elt F)) : (⟨S1000000, .i32⟩ : BufTy).Contents (Elt F) :=
  shapeCast S1000000 (extractStridedSlice S1x1000000 ![1, 0] ei slices_S2x1000000_S1x1000000_1_0) shapeCasts_S1x1000000_S1000000

/-- The count column: ones summed into their destinations, laid as a column. -/
def kCnt (dst : (⟨S1000000, .i32⟩ : BufTy).Contents (Elt F)) : (⟨S100000x1, .f32⟩ : BufTy).Contents (Elt F) :=
  shapeCast S100000x1
    (Host.scatterAdd scatter_S100000_S1000000x1_S1000000_n_0_0_1
      (broadcastInDim S100000 ![] bcast_S_S100000 (constant S_ .f32 0x00000000#32))
      (broadcastInDim S1000000x1 ![0] bcast_S1000000_S1000000x1_0 dst)
      (broadcastInDim S1000000 ![] bcast_S_S1000000 (constant S_ .f32 0x3F800000#32)))
    shapeCasts_S100000_S100000x1

/-- The source words wrapped when negative, laid as an index column. -/
def kWrapCol (src : (⟨S1000000, .i32⟩ : BufTy).Contents (Elt F)) : (⟨S1000000x1, .i32⟩ : BufTy).Contents (Elt F) :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- The neighbour sum of a 64-column table. -/
def kAgg64 (x : (⟨S100000x64, .f32⟩ : BufTy).Contents (Elt F)) (src dst : (⟨S1000000, .i32⟩ : BufTy).Contents (Elt F)) : (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S100000x64_S1000000x1_S1000000x64_1_0_n_n_0_1_164 x (kWrapCol src))

/-- The neighbour sum of a 128-column table. -/
def kAgg128 (x : (⟨S100000x128, .f32⟩ : BufTy).Contents (Elt F)) (src dst : (⟨S1000000, .i32⟩ : BufTy).Contents (Elt F)) : (⟨S100000x128, .f32⟩ : BufTy).Contents (Elt F) :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 dst)
    (Host.gather gather_S100000x128_S1000000x1_S1000000x128_1_0_n_n_0_1_1128 x (kWrapCol src))

/-- A running sum divided by the number of rows. -/
def kMean (s : (⟨S128, .f32⟩ : BufTy).Contents (Elt F)) : (⟨S128, .f32⟩ : BufTy).Contents (Elt F) :=
  Host.divf s (broadcastInDim S128 ![] bcast_S_S128 (constant S_ .f32 0x47C35000#32))

/-- The one-pass variance from the two running sums, clamped below at zero. -/
def kVar (s q : (⟨S128, .f32⟩ : BufTy).Contents (Elt F)) : (⟨S128, .f32⟩ : BufTy).Contents (Elt F) :=
  maximumf (subf (kMean q) (mulf (kMean s) (kMean s))) (broadcastInDim S128 ![] bcast_S_S128 (constant S_ .f32 0x00000000#32))

/-! ## Before the first region -/

theorem host0_main_v1 (W : Valuation τ sig (Elt F)) :
    StableHlo.after (hostOps0 (F := F)) W (Proc.devRef .tc main_v1) = kSrc (W (Proc.devRef .tc main_arg1)) := by
  after_results; rfl

theorem host0_main_v3 (W : Valuation τ sig (Elt F)) :
    StableHlo.after (hostOps0 (F := F)) W (Proc.devRef .tc main_v3) = kDst (W (Proc.devRef .tc main_arg1)) := by
  after_results; rfl

theorem host0_main_v8 (W : Valuation τ sig (Elt F)) :
    StableHlo.after (hostOps0 (F := F)) W (Proc.devRef .tc main_v8) = kCnt (kDst (W (Proc.devRef .tc main_arg1))) := by
  after_results; rfl

set_option maxHeartbeats 2000000 in
theorem host0_main_v18 (W : Valuation τ sig (Elt F)) :
    StableHlo.after (hostOps0 (F := F)) W (Proc.devRef .tc main_v18)
      = kAgg64 (W (Proc.devRef .tc main_arg0)) (kSrc (W (Proc.devRef .tc main_arg1))) (kDst (W (Proc.devRef .tc main_arg1))) := by
  after_results; rfl

theorem host0_main_arg0 (W : Valuation τ sig (Elt F)) : StableHlo.after (hostOps0 (F := F)) W (Proc.devRef .tc main_arg0) = W (Proc.devRef .tc main_arg0) := by after_results
theorem host0_main_arg2 (W : Valuation τ sig (Elt F)) : StableHlo.after (hostOps0 (F := F)) W (Proc.devRef .tc main_arg2) = W (Proc.devRef .tc main_arg2) := by after_results
theorem host0_main_arg3 (W : Valuation τ sig (Elt F)) : StableHlo.after (hostOps0 (F := F)) W (Proc.devRef .tc main_arg3) = W (Proc.devRef .tc main_arg3) := by after_results
theorem host0_main_arg4 (W : Valuation τ sig (Elt F)) : StableHlo.after (hostOps0 (F := F)) W (Proc.devRef .tc main_arg4) = W (Proc.devRef .tc main_arg4) := by after_results
theorem host0_main_arg5 (W : Valuation τ sig (Elt F)) : StableHlo.after (hostOps0 (F := F)) W (Proc.devRef .tc main_arg5) = W (Proc.devRef .tc main_arg5) := by after_results
theorem host0_main_arg6 (W : Valuation τ sig (Elt F)) : StableHlo.after (hostOps0 (F := F)) W (Proc.devRef .tc main_arg6) = W (Proc.devRef .tc main_arg6) := by after_results

/-! ## Between the first two regions -/

theorem host1_main_v21 (W : Valuation τ sig (Elt F)) :
    StableHlo.after (hostOps1 (F := F)) W (Proc.devRef .tc main_v21) = kMean (W (Proc.devRef .tc main_v19_1)) := by
  after_results; rfl

theorem host1_main_v27 (W : Valuation τ sig (Elt F)) :
    StableHlo.after (hostOps1 (F := F)) W (Proc.devRef .tc main_v27)
      = kVar (W (Proc.devRef .tc main_v19_1)) (W (Proc.devRef .tc main_v19_2)) := by
  after_results; rfl

theorem host1_main_v19_0 (W : Valuation τ sig (Elt F)) : StableHlo.after (hostOps1 (F := F)) W (Proc.devRef .tc main_v19_0) = W (Proc.devRef .tc main_v19_0) := by after_results
theorem host1_main_v8 (W : Valuation τ sig (Elt F)) : StableHlo.after (hostOps1 (F := F)) W (Proc.devRef .tc main_v8) = W (Proc.devRef .tc main_v8) := by after_results
theorem host1_main_v1 (W : Valuation τ sig (Elt F)) : StableHlo.after (hostOps1 (F := F)) W (Proc.devRef .tc main_v1) = W (Proc.devRef .tc main_v1) := by after_results
theorem host1_main_v3 (W : Valuation τ sig (Elt F)) : StableHlo.after (hostOps1 (F := F)) W (Proc.devRef .tc main_v3) = W (Proc.devRef .tc main_v3) := by after_results
theorem host1_main_arg5 (W : Valuation τ sig (Elt F)) : StableHlo.after (hostOps1 (F := F)) W (Proc.devRef .tc main_arg5) = W (Proc.devRef .tc main_arg5) := by after_results
theorem host1_main_arg6 (W : Valuation τ sig (Elt F)) : StableHlo.after (hostOps1 (F := F)) W (Proc.devRef .tc main_arg6) = W (Proc.devRef .tc main_arg6) := by after_results

/-! ## Before the last region -/

theorem host2_main_v38 (W : Valuation τ sig (Elt F)) :
    StableHlo.after (hostOps2 (F := F)) W (Proc.devRef .tc main_v38)
      = kAgg128 (W (Proc.devRef .tc main_v28)) (W (Proc.devRef .tc main_v1)) (W (Proc.devRef .tc main_v3)) := by
  after_results; rfl

theorem host2_main_v8 (W : Valuation τ sig (Elt F)) : StableHlo.after (hostOps2 (F := F)) W (Proc.devRef .tc main_v8) = W (Proc.devRef .tc main_v8) := by after_results
theorem host2_main_v28 (W : Valuation τ sig (Elt F)) : StableHlo.after (hostOps2 (F := F)) W (Proc.devRef .tc main_v28) = W (Proc.devRef .tc main_v28) := by after_results

end Cert.KernelIdeal.KValue

end
-- ==== Proof.LibGatherRows.lean ====
/-
  Taking rows of a table by an index column, read at an entry. The operand is a table [N, C] (or a vector [N]), the
  start indices a column [E, 1], and the dimension numbers are those of `table[idx]`: the row axis collapsed and named by
  the one start-index component, the column axis (if any) the one offset axis. Entry (e, c) of the result is the
  table's entry (r, c) with r the start index idx[e, 0] read as a signed integer and clamped into [0, N - 1]; for a
  vector, entry e is the vector's entry r. The row r is the SAME function of idx and e in both, so taking rows
  commutes with any operation that acts row by row. Stated for any record with those dimension numbers.
-/
import Idealize.ShloMosaic.Lib.ValueIdx
import Idealize.ShloMosaic.PureOps.ShapeOps

namespace Cert.LibGatherRows

open Idealize.ShloMosaic Idealize.ShloMosaic.ValueIdx

/-- The row that start index `idx[e, 0]` names in a table of `N` rows: read signed, clamped into `[0, N - 1]`. -/
def row {N E w : Nat} (hN : 0 < N) (idx : IVec ⟨2, ![E, 1]⟩ w) (e : Fin E) : Fin N :=
  ⟨min (idx (ix2 e (0 : Fin 1))).toInt.toNat (N - 1), by omega⟩

/-- Rows of a table: result entry `(e, c)` reads the operand at `(row idx e, c)`. -/
theorem rows_operandIdx {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (row hN idx e) c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

/-- Entries of a vector: result entry `e` reads the operand at `row idx e`. -/
theorem elems_operandIdx {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (row hN idx e) := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl

/-- The table's rows taken, at entry `(e, c)`. -/
theorem gather_rows_apply {α : Type} {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (c : Fin C) :
    Host.gather d x idx (ix2 e c) = x (ix2 (row hN idx e) c) := by
  unfold Host.gather
  rw [rows_operandIdx hN d h1 h2 h3 h4 h5 h6 h7 idx e c]

/-- The vector's entries taken, at entry `e`. -/
theorem gather_elems_apply {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (row hN idx e)) := by
  unfold Host.gather
  rw [elems_operandIdx hN d h1 h2 h3 h4 h5 h6 h7 idx e]

end Cert.LibGatherRows
-- ==== Proof.LibScatterAddRows.lean ====
/-
  A scatter-add of rows into a table, read at an entry. The operand is a table [N, C] (or a vector [N]), the scatter
  indices a column [E, 1], the updates [E, C] (or [E]), and the dimension numbers are those of a segment sum: the row
  axis is the one inserted window axis and the one the start index names, the column axis (if any) the one window axis.
  Update row e lands on operand row p exactly when its start index idx[e, 0], read as a signed integer and NOT clamped,
  equals p; it is dropped otherwise. So on the extended reals entry (p, k) of the result is the operand's entry plus
  the sum over the update rows e with idx[e, 0] = p of the update's entry (e, k). Stated for any record with those
  dimension numbers, whatever the number of updates.
-/
import Idealize.ShloMosaic.Lib.ValueIdx
import Idealize.ShloMosaic.PureOps.Ideal

noncomputable section

open scoped BigOperators

namespace Cert.LibScatterAddRows

open Idealize.ShloMosaic Idealize.ShloMosaic.ValueIdx

/-- The start index of update row `e` on the row axis: the scatter index `idx[e, 0]` read signed. -/
theorem rows_start0 {N C E w : Nat} (d : ScatterDims ⟨2, ![N, C]⟩ ⟨2, ![E, 1]⟩ ⟨2, ![E, C]⟩)
    (h1 : d.updateWindowDims = [1]) (h3 : d.scatterDimsToOperandDims = [0]) (h4 : d.indexVectorDim = 1)
    (idx : IVec ⟨2, ![E, 1]⟩ w) (e : Fin E) (c : Fin C) :
    d.start (ix2 e c) idx 0 = (idx (ix2 e (0 : Fin 1))).toInt := by
  obtain ⟨uw, iw, sd, iv, wf⟩ := d
  dsimp only at h1 h3 h4
  subst h1 h3 h4
  unfold ScatterDims.start
  rw [dif_pos (List.mem_singleton.mpr rfl)]
  refine congrArg (fun z : (⟨2, ![E, 1]⟩ : Shape).Idx => (idx z).toInt) ?_
  funext b; refine Fin.ext ?_
  match b with
  | ⟨0, _⟩ => rfl
  | ⟨1, _⟩ => rfl

/-- The column axis is not named by the start index: the window starts at column 0. -/
theorem rows_start1 {N C E w : Nat} (d : ScatterDims ⟨2, ![N, C]⟩ ⟨2, ![E, 1]⟩ ⟨2, ![E, C]⟩)
    (h3 : d.scatterDimsToOperandDims = [0]) (idx : IVec ⟨2, ![E, 1]⟩ w) (j : (⟨2, ![E, C]⟩ : Shape).Idx) :
    d.start j idx 1 = 0 := by
  obtain ⟨uw, iw, sd, iv, wf⟩ := d
  dsimp only at h3
  subst h3
  unfold ScatterDims.start
  rw [dif_neg (show ¬ ((1 : Fin 2) ∈ ([0] : List (Fin 2))) by decide)]

/-- The row axis is inserted: the window has no extent along it. -/
theorem rows_window0 {N C E : Nat} (d : ScatterDims ⟨2, ![N, C]⟩ ⟨2, ![E, 1]⟩ ⟨2, ![E, C]⟩)
    (h2 : d.insertedWindowDims = [0]) (j : (⟨2, ![E, C]⟩ : Shape).Idx) :
    d.window j 0 = 0 := by
  obtain ⟨uw, iw, sd, iv, wf⟩ := d
  dsimp only at h2
  subst h2
  unfold ScatterDims.window
  rw [dif_neg (by simp [ScatterDims.sKept, Shape.kept])]

/-- Along the column axis the window coordinate is the update's column. -/
theorem rows_window1 {N C E : Nat} (d : ScatterDims ⟨2, ![N, C]⟩ ⟨2, ![E, 1]⟩ ⟨2, ![E, C]⟩)
    (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by simp [ScatterDims.sKept, Shape.kept])]
  rfl

/-- Update entry `(e, c)` of a row scatter lands on operand entry `(p, k)` exactly when the start index of row `e`
    is `p` and the columns agree. -/
theorem rows_resultIdx {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (p : Fin N) (k : Fin C) :
    d.resultIdx? (ix2 e c) idx = some (ix2 p k) ↔ (idx (ix2 e (0 : Fin 1))).toInt = (p.val : Int) ∧ c = k := by
  have hs0 := rows_start0 d h1 h3 h4 idx e c
  have hs1 := rows_start1 d h3 idx (ix2 e c)
  have hw0 := rows_window0 d h2 (ix2 e c)
  have hw1 := rows_window1 d h1 h2 e c
  constructor
  · intro h
    unfold ScatterDims.resultIdx? at h
    split at h
    · next hall =>
      have hv := Option.some.inj h
      have v0 : (d.start (ix2 e c) idx 0 + d.window (ix2 e c) 0).toNat = p.val := congrArg Fin.val (congrFun hv 0)
      have v1 : (d.start (ix2 e c) idx 1 + d.window (ix2 e c) 1).toNat = k.val := congrArg Fin.val (congrFun hv 1)
      have h0 := (hall 0).1
      rw [hs0, hw0] at v0 h0
      rw [hs1, hw1] at v1
      exact ⟨by omega, Fin.ext (by omega)⟩
    · exact absurd h (by simp)
  · rintro ⟨ht, rfl⟩
    unfold ScatterDims.resultIdx?
    have hall : ∀ a, 0 ≤ d.start (ix2 e c) idx a + d.window (ix2 e c) a ∧
        d.start (ix2 e c) idx a + d.window (ix2 e c) a < (⟨2, ![N, C]⟩ : Shape).size a := by
      intro a
      match a with
      | ⟨0, _⟩ =>
        have := p.isLt
        show 0 ≤ d.start (ix2 e c) idx 0 + d.window (ix2 e c) 0 ∧ d.start (ix2 e c) idx 0 + d.window (ix2 e c) 0 < (N : Int)
        rw [hs0, hw0, ht]; omega
      | ⟨1, _⟩ =>
        have := c.isLt
        show 0 ≤ d.start (ix2 e c) idx 1 + d.window (ix2 e c) 1 ∧ d.start (ix2 e c) idx 1 + d.window (ix2 e c) 1 < (C : Int)
        rw [hs1, hw1]; omega
    rw [dif_pos hall]
    congr 1; funext a; refine Fin.ext ?_
    match a with
    | ⟨0, _⟩ =>
      show (d.start (ix2 e c) idx 0 + d.window (ix2 e c) 0).toNat = p.val
      rw [hs0, hw0, ht]; omega
    | ⟨1, _⟩ =>
      show (d.start (ix2 e c) idx 1 + d.window (ix2 e c) 1).toNat = c.val
      rw [hs1, hw1]; omega

/-- A row scatter-add at entry `(p, k)`: the operand's entry plus the update entries `(e, k)` of the rows `e` whose
    start index is `p`. -/
theorem scatterAdd_rows_apply {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec ⟨2, ![E, 1]⟩ w)
    (upd : (⟨2, ![E, C]⟩ : Shape).Idx → EReal) (p : Fin N) (k : Fin C) :
    Ideal.hostScatterAdd d x idx upd (ix2 p k)
      = x (ix2 p k) + ∑ e : Fin E, if (idx (ix2 e (0 : Fin 1))).toInt = (p.val : Int) then upd (ix2 e k) else 0 := by
  unfold Ideal.hostScatterAdd
  congr 1
  rw [Finset.sum_filter, sum_idx2]
  refine Finset.sum_congr rfl fun e _ => ?_
  by_cases ht : (idx (ix2 e (0 : Fin 1))).toInt = (p.val : Int)
  · rw [if_pos ht, Finset.sum_eq_single k]
    · rw [if_pos ((rows_resultIdx d h1 h2 h3 h4 idx e k p k).mpr ⟨ht, rfl⟩)]
    · intro c _ hc
      rw [if_neg (fun h => hc ((rows_resultIdx d h1 h2 h3 h4 idx e c p k).mp h).2)]
    · intro h; exact absurd (Finset.mem_univ k) h
  · rw [if_neg ht]
    refine Finset.sum_eq_zero fun c _ => ?_
    rw [if_neg (fun h => ht ((rows_resultIdx d h1 h2 h3 h4 idx e c p k).mp h).1)]

/-! ## The same for a vector: operand [N], scatter indices [E, 1], updates [E] -/

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Update entry `e` of a vector scatter lands on operand entry `p` exactly when its start index is `p`. -/
theorem elems_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (p : Fin N) :
    d.resultIdx? (ix1 e) idx = some (ix1 p) ↔ (idx (ix2 e (0 : Fin 1))).toInt = (p.val : Int) := by
  have hs0 : d.start (ix1 e) idx 0 = (idx (ix2 e (0 : Fin 1))).toInt := by
    obtain ⟨uw, iw, sd, iv, wf⟩ := d
    dsimp only at h1 h2 h3 h4
    subst h1 h2 h3 h4
    unfold ScatterDims.start
    rw [dif_pos (List.mem_singleton.mpr rfl)]
    refine congrArg (fun z : (⟨2, ![E, 1]⟩ : Shape).Idx => (idx z).toInt) ?_
    funext b; refine Fin.ext ?_
    match b with
    | ⟨0, _⟩ => rfl
    | ⟨1, _⟩ => rfl
  have hw0 : d.window (ix1 e) 0 = 0 := by
    obtain ⟨uw, iw, sd, iv, wf⟩ := d
    dsimp only at h1 h2 h3 h4
    subst h1 h2 h3 h4
    unfold ScatterDims.window
    rw [dif_neg (by simp [ScatterDims.sKept, Shape.kept])]
  constructor
  · intro h
    unfold ScatterDims.resultIdx? at h
    split at h
    · next hall =>
      have hv := Option.some.inj h
      have v0 : (d.start (ix1 e) idx 0 + d.window (ix1 e) 0).toNat = p.val := congrArg Fin.val (congrFun hv 0)
      have h0 := (hall 0).1
      rw [hs0, hw0] at v0 h0
      omega
    · exact absurd h (by simp)
  · intro ht
    unfold ScatterDims.resultIdx?
    have hall : ∀ a, 0 ≤ d.start (ix1 e) idx a + d.window (ix1 e) a ∧
        d.start (ix1 e) idx a + d.window (ix1 e) a < (⟨1, ![N]⟩ : Shape).size a := by
      intro a
      match a with
      | ⟨0, _⟩ =>
        have := p.isLt
        show 0 ≤ d.start (ix1 e) idx 0 + d.window (ix1 e) 0 ∧ d.start (ix1 e) idx 0 + d.window (ix1 e) 0 < (N : Int)
        rw [hs0, hw0, ht]; omega
    rw [dif_pos hall]
    congr 1; funext a; refine Fin.ext ?_
    match a with
    | ⟨0, _⟩ =>
      show (d.start (ix1 e) idx 0 + d.window (ix1 e) 0).toNat = p.val
      rw [hs0, hw0, ht]; omega

/-- A vector scatter-add at entry `p`: the operand's entry plus the update entries `e` whose start index is `p`. -/
theorem scatterAdd_elems_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![E, 1]⟩ w)
    (upd : (⟨1, ![E]⟩ : Shape).Idx → EReal) (p : Fin N) :
    Ideal.hostScatterAdd d x idx upd (ix1 p)
      = x (ix1 p) + ∑ e : Fin E, if (idx (ix2 e (0 : Fin 1))).toInt = (p.val : Int) then upd (ix1 e) else 0 := by
  unfold Ideal.hostScatterAdd
  congr 1
  rw [Finset.sum_filter, sum_idx1]
  refine Finset.sum_congr rfl fun e _ => ?_
  by_cases ht : (idx (ix2 e (0 : Fin 1))).toInt = (p.val : Int)
  · rw [if_pos ht, if_pos ((elems_resultIdx d h1 h2 h3 h4 idx e p).mpr ht)]
  · rw [if_neg ht, if_neg (fun h => ht ((elems_resultIdx d h1 h2 h3 h4 idx e p).mp h))]

end Cert.LibScatterAddRows

end
-- ==== Proof.KStageRead.lean ====
/-
  The host operations between the kernel regions, read at an entry, are the network's own functions: the two rows of the
  edge table are the source and destination words; the scatter of ones by destination is the count; the scatter by
  destination of the rows gathered at the wrapped, clamped source words is the neighbour sum; a running sum divided by
  the number of rows is the mean; and the mean of squares minus the squared mean, clamped at zero, is the one-pass
  variance.
-/
import proofs.«152036_j35828617183789_1_alg».proof.Proof.KStage
import proofs.«152036_j35828617183789_1_alg».proof.Proof.Spec
import proofs.«152036_j35828617183789_1_alg».proof.Proof.LibGatherRows
import proofs.«152036_j35828617183789_1_alg».proof.Proof.LibScatterAddRows
import proofs.«152036_j35828617183789_1_alg».proof.Proof.LibColumn
import Idealize.ShloMosaic.Lib.Pipeline.Value
import Idealize.ShloMosaic.PureOps.Ideal.Laws

set_option maxRecDepth 16384

noncomputable section

open scoped BigOperators
open Idealize.ShloMosaic Idealize.ShloMosaic.ValueIdx Idealize.ShloMosaic.TcCoe

namespace Cert.KernelIdeal.KValue

open Cert.KernelIdeal Cert.KernelIdeal.Gen Cert.Sage

/-! ## Layout operations read at an entry -/

/-- A scalar broadcast to any shape reads the scalar. -/
theorem hst_bcast_scalar {α : Type} {t : Shape} (hb : S_.BroadcastsInDim t (![] : Fin 0 → Fin t.rank)) (x : S_.Idx → α)
    (j : t.Idx) : broadcastInDim t ![] hb x j = x ix0 :=
  congrArg x (funext fun a => a.elim0)

/-- A vector over the edges laid as a one-column table reads the vector. -/
theorem hst_edgeCol {α : Type} (m : S1000000.Idx → α) (e : Fin 1000000) (c0 : Fin 1) :
    broadcastInDim S1000000x1 ![0] bcast_S1000000_S1000000x1_0 m (ix2 e c0) = m (ix1 e) := by
  refine broadcastInDim_apply _ _ _ (ix2 e c0) (ix1 e) fun c => ?_
  match c with
  | ⟨0, _⟩ => rfl

/-- A scatter-add on the extended reals is the exact sum. -/
theorem hst_scat_eq {s si su : Shape} {w : Nat} (d : ScatterDims s si su) (x : FVec Ideal s .f32) (idx : IVec si w)
    (u : FVec Ideal su .f32) : Host.scatterAdd d x idx u = Ideal.hostScatterAdd d x idx u := rfl

/-! ## The edge table's rows -/

/-- The first row of the edge table, entry by entry: the source words. -/
theorem kSrc_apply (ei : (⟨S2x1000000, .i32⟩ : BufTy).Contents (Elt Ideal)) (e : Fin 1000000) :
    kSrc (F := Ideal) ei (ix1 e) = srcOf ei e := by
  unfold kSrc srcOf
  refine (shapeCast_apply _ _ (ix1 e) (ix2 (0 : Fin 1) e) ?_).trans ?_
  · rw [Shape.rowMajor_val_two, Shape.rowMajor_val_one]; show 0 * 1000000 + e.val = e.val; omega
  · refine extractStridedSlice_apply _ _ _ (ix2 (0 : Fin 1) e) (ix2 (0 : Fin 2) e) fun a => ?_
    match a with
    | ⟨0, _⟩ => rfl
    | ⟨1, _⟩ => show e.val = 0 + e.val; omega

/-- The second row of the edge table, entry by entry: the destination words. -/
theorem kDst_apply (ei : (⟨S2x1000000, .i32⟩ : BufTy).Contents (Elt Ideal)) (e : Fin 1000000) :
    kDst (F := Ideal) ei (ix1 e) = dstOf ei e := by
  unfold kDst dstOf
  refine (shapeCast_apply _ _ (ix1 e) (ix2 (0 : Fin 1) e) ?_).trans ?_
  · rw [Shape.rowMajor_val_two, Shape.rowMajor_val_one]; show 0 * 1000000 + e.val = e.val; omega
  · refine extractStridedSlice_apply _ _ _ (ix2 (0 : Fin 1) e) (ix2 (1 : Fin 2) e) fun a => ?_
    match a with
    | ⟨0, _⟩ => rfl
    | ⟨1, _⟩ => show e.val = 0 + e.val; omega

/-! ## The count column -/

/-- The count column at a node: the number of edges into it, as a sum of ones. -/
theorem kCnt_apply (dst : (⟨S1000000, .i32⟩ : BufTy).Contents (Elt Ideal)) (p : Fin 100000) :
    kCnt (F := Ideal) dst (ix2 p (0 : Fin 1)) = cnt (vec dst) p := by
  unfold kCnt
  rw [shapeCast_a_a1_apply, hst_scat_eq,
    Cert.LibScatterAddRows.scatterAdd_elems_apply scatter_S100000_S1000000x1_S1000000_n_0_0_1 rfl rfl rfl rfl,
    hst_bcast_scalar, constant_apply, Ideal.ofBits_zero_f32, zero_add]
  unfold cnt
  refine Finset.sum_congr rfl fun e _ => ?_
  rw [hst_edgeCol, hst_bcast_scalar, constant_apply]
  rfl

/-! ## The neighbour sums -/

/-- The wrapped source column, read at an edge: the wrap of the edge's source word. -/
theorem kWrapCol_apply (src : (⟨S1000000, .i32⟩ : BufTy).Contents (Elt Ideal)) (e : Fin 1000000) :
    kWrapCol (F := Ideal) src (ix2 e (0 : Fin 1)) = wrap (src (ix1 e)) := by
  unfold kWrapCol
  refine (broadcastInDim_apply _ _ _ (ix2 e (0 : Fin 1)) (ix1 e) fun a => ?_).trans rfl
  match a with
  | ⟨0, _⟩ => rfl

/-- The gathered table of 64 columns, entry by entry: edge e reads the row its wrapped source word names. -/
theorem kGather64_apply (x : (⟨S100000x64, .f32⟩ : BufTy).Contents (Elt Ideal))
    (src : (⟨S1000000, .i32⟩ : BufTy).Contents (Elt Ideal)) (e : Fin 1000000) (k : Fin 64) :
    Host.gather gather_S100000x64_S1000000x1_S1000000x64_1_0_n_n_0_1_164 x (kWrapCol (F := Ideal) src) (ix2 e k)
      = x (ix2 (srcRow (src (ix1 e))) k) := by
  refine (Cert.LibGatherRows.gather_rows_apply (by decide : 0 < 100000)
    gather_S100000x64_S1000000x1_S1000000x64_1_0_n_n_0_1_164 rfl rfl rfl rfl rfl rfl rfl x _ e k).trans ?_
  refine congrArg (fun r => x (ix2 r k)) (Fin.ext ?_)
  show min (_ : BitVec 32).toInt.toNat (100000 - 1) = min (wrap (src (ix1 e))).toInt.toNat (NN - 1)
  rw [kWrapCol_apply src e]

/-- The same for a table of 128 columns. -/
theorem kGather128_apply (x : (⟨S100000x128, .f32⟩ : BufTy).Contents (Elt Ideal))
    (src : (⟨S1000000, .i32⟩ : BufTy).Contents (Elt Ideal)) (e : Fin 1000000) (k : Fin 128) :
    Host.gather gather_S100000x128_S1000000x1_S1000000x128_1_0_n_n_0_1_1128 x (kWrapCol (F := Ideal) src) (ix2 e k)
      = x (ix2 (srcRow (src (ix1 e))) k) := by
  refine (Cert.LibGatherRows.gather_rows_apply (by decide : 0 < 100000)
    gather_S100000x128_S1000000x1_S1000000x128_1_0_n_n_0_1_1128 rfl rfl rfl rfl rfl rfl rfl x _ e k).trans ?_
  refine congrArg (fun r => x (ix2 r k)) (Fin.ext ?_)
  show min (_ : BitVec 32).toInt.toNat (100000 - 1) = min (wrap (src (ix1 e))).toInt.toNat (NN - 1)
  rw [kWrapCol_apply src e]

/-- The neighbour sum of a table of 64 columns, entry by entry. -/
theorem kAgg64_apply (x : (⟨S100000x64, .f32⟩ : BufTy).Contents (Elt Ideal))
    (src dst : (⟨S1000000, .i32⟩ : BufTy).Contents (Elt Ideal)) (p : Fin 100000) (k : Fin 64) :
    kAgg64 (F := Ideal) x src dst (ix2 p k) = agg (vec src) (vec dst) (mat x) p k := by
  unfold kAgg64
  rw [hst_scat_eq,
    Cert.LibScatterAddRows.scatterAdd_rows_apply scatter_S100000x64_S1000000x1_S1000000x64_1_0_0_1 rfl rfl rfl rfl,
    hst_bcast_scalar, constant_apply, Ideal.ofBits_zero_f32, zero_add]
  unfold agg seg
  refine Finset.sum_congr rfl fun e _ => ?_
  rw [hst_edgeCol, kGather64_apply]
  rfl

/-- The neighbour sum of a table of 128 columns, entry by entry. -/
theorem kAgg128_apply (x : (⟨S100000x128, .f32⟩ : BufTy).Contents (Elt Ideal))
    (src dst : (⟨S1000000, .i32⟩ : BufTy).Contents (Elt Ideal)) (p : Fin 100000) (k : Fin 128) :
    kAgg128 (F := Ideal) x src dst (ix2 p k) = agg (vec src) (vec dst) (mat x) p k := by
  unfold kAgg128
  rw [hst_scat_eq,
    Cert.LibScatterAddRows.scatterAdd_rows_apply scatter_S100000x128_S1000000x1_S1000000x128_1_0_0_1 rfl rfl rfl rfl,
    hst_bcast_scalar, constant_apply, Ideal.ofBits_zero_f32, zero_add]
  unfold agg seg
  refine Finset.sum_congr rfl fun e _ => ?_
  rw [hst_edgeCol, kGather128_apply]
  rfl

/-! ## The mean and the one-pass variance -/

/-- The mean vector, entry by entry: the running sum divided by the number of rows. -/
theorem kMean_apply (s : (⟨S128, .f32⟩ : BufTy).Contents (Elt Ideal)) (j : Fin 128) :
    kMean (F := Ideal) s (ix1 j) = Ideal.div (s (ix1 j)) nW := by
  unfold kMean
  show Ideal.div (s (ix1 j)) (broadcastInDim S128 ![] bcast_S_S128 (constant (F := Ideal) S_ .f32 0x47C35000#32) (ix1 j)) = _
  rw [hst_bcast_scalar, constant_apply]
  rfl

/-- The variance vector, entry by entry: the mean of squares minus the squared mean, clamped below at zero. -/
theorem kVar_apply (s q : (⟨S128, .f32⟩ : BufTy).Contents (Elt Ideal)) (j : Fin 128) :
    kVar (F := Ideal) s q (ix1 j)
      = max (Ideal.div (q (ix1 j)) nW - Ideal.div (s (ix1 j)) nW * Ideal.div (s (ix1 j)) nW) 0 := by
  unfold kVar
  rw [maximumf_apply, subf_apply, mulf_apply, kMean_apply, kMean_apply, hst_bcast_scalar, constant_apply,
    Ideal.ofBits_zero_f32]

/-- The mean vector of a table's column sums is the table's column means. -/
theorem kMean_colSum (H : Fin NN → Fin 128 → EReal) :
    kMean (F := Ideal) (fun y => colSum H (y 0)) = fun y => colMean H (y 0) := by
  funext y
  obtain ⟨j, rfl⟩ : ∃ j : Fin 128, y = ix1 j := ⟨y 0, eq_ix1 y⟩
  exact (kMean_apply (fun y => colSum H (y 0)) j).trans rfl

/-- The variance vector of a table's column sums and sums of squares is the table's one-pass variance. -/
theorem kVar_colSums (H : Fin NN → Fin 128 → EReal) :
    kVar (F := Ideal) (fun y => colSum H (y 0)) (fun y => colSumSq H (y 0)) = fun y => varK H (y 0) := by
  funext y
  obtain ⟨j, rfl⟩ : ∃ j : Fin 128, y = ix1 j := ⟨y 0, eq_ix1 y⟩
  exact (kVar_apply (fun y => colSum H (y 0)) (fun y => colSumSq H (y 0)) j).trans rfl

end Cert.KernelIdeal.KValue

end
-- ==== Proof.KChainA.lean ====
/-
  The buffer contents through the first region, in terms of the launch memory's argument arrays.
  Before the region the host has the source and destination words, the count column and the neighbour sum of the node
  table; the region then leaves the first layer's result, its column sums and the column sums of its squares; the
  count column and the two word vectors are as they were.
-/
import proofs.«152036_j35828617183789_1_alg».proof.Proof.KReg0d
import proofs.«152036_j35828617183789_1_alg».proof.Proof.KStage
import proofs.«152036_j35828617183789_1_alg».proof.Proof.KStageRead

set_option maxRecDepth 16384

noncomputable section

namespace Cert.KernelIdeal.KValue

open Idealize.ShloMosaic Idealize.ShloMosaic.TcCoe Idealize.ShloMosaic.ValueIdx
open Idealize.ShloMosaic.Pipeline (Dat Cfg Window)
open Cert.KernelIdeal Cert.KernelIdeal.Gen Cert.Sage

variable (m : (ℓ : Loc nD τ sig) → Buf (Elt Ideal) ℓ) (ρ : Dev nD → PrngReg) (c : Dev nD)

/-- The first layer's result from the launch memory's arguments. -/
def Hd : Fin NN → Fin 128 → EReal :=
  hidden (srcOf (m ((c : Thread nD τ).loc main_arg1))) (dstOf (m ((c : Thread nD τ).loc main_arg1))) (mat (m ((c : Thread nD τ).loc main_arg0))) (mat (m ((c : Thread nD τ).loc main_arg2))) (mat (m ((c : Thread nD τ).loc main_arg3))) (vec (m ((c : Thread nD τ).loc main_arg4)))

theorem vec_kSrc (ei : (⟨S2x1000000, .i32⟩ : BufTy).Contents (Elt Ideal)) : vec (kSrc (F := Ideal) ei) = srcOf ei :=
  funext fun e => kSrc_apply ei e
theorem vec_kDst (ei : (⟨S2x1000000, .i32⟩ : BufTy).Contents (Elt Ideal)) : vec (kDst (F := Ideal) ei) = dstOf ei :=
  funext fun e => kDst_apply ei e

/-! ## After the first host stretch -/

theorem W1_src : W1 m ρ c (Proc.devRef .tc main_v1) = kSrc (m ((c : Thread nD τ).loc main_arg1)) := host0_main_v1 (W0 m ρ c)
theorem W1_dst : W1 m ρ c (Proc.devRef .tc main_v3) = kDst (m ((c : Thread nD τ).loc main_arg1)) := host0_main_v3 (W0 m ρ c)
theorem W1_cnt : W1 m ρ c (Proc.devRef .tc main_v8) = kCnt (kDst (m ((c : Thread nD τ).loc main_arg1))) := host0_main_v8 (W0 m ρ c)
theorem W1_agg : W1 m ρ c (Proc.devRef .tc main_v18) = kAgg64 (m ((c : Thread nD τ).loc main_arg0)) (kSrc (m ((c : Thread nD τ).loc main_arg1))) (kDst (m ((c : Thread nD τ).loc main_arg1))) :=
  host0_main_v18 (W0 m ρ c)
theorem W1_main_arg0 : W1 m ρ c (Proc.devRef .tc main_arg0) = (m ((c : Thread nD τ).loc main_arg0)) := host0_main_arg0 (W0 m ρ c)
theorem W1_main_arg2 : W1 m ρ c (Proc.devRef .tc main_arg2) = (m ((c : Thread nD τ).loc main_arg2)) := host0_main_arg2 (W0 m ρ c)
theorem W1_main_arg3 : W1 m ρ c (Proc.devRef .tc main_arg3) = (m ((c : Thread nD τ).loc main_arg3)) := host0_main_arg3 (W0 m ρ c)
theorem W1_main_arg4 : W1 m ρ c (Proc.devRef .tc main_arg4) = (m ((c : Thread nD τ).loc main_arg4)) := host0_main_arg4 (W0 m ρ c)
theorem W1_main_arg5 : W1 m ρ c (Proc.devRef .tc main_arg5) = (m ((c : Thread nD τ).loc main_arg5)) := host0_main_arg5 (W0 m ρ c)
theorem W1_main_arg6 : W1 m ρ c (Proc.devRef .tc main_arg6) = (m ((c : Thread nD τ).loc main_arg6)) := host0_main_arg6 (W0 m ρ c)

/-! ## What the first region finds -/

theorem A0_eq : A0 (V1 m ρ) c = agg (srcOf (m ((c : Thread nD τ).loc main_arg1))) (dstOf (m ((c : Thread nD τ).loc main_arg1))) (mat (m ((c : Thread nD τ).loc main_arg0))) := by
  funext p k
  show W1 m ρ c (Proc.devRef .tc main_v18) (ix2 p k) = _
  rw [W1_agg, kAgg64_apply, vec_kSrc, vec_kDst]

theorem C0_eq : C0 (V1 m ρ) c = cnt (dstOf (m ((c : Thread nD τ).loc main_arg1))) := by
  funext p
  show W1 m ρ c (Proc.devRef .tc main_v8) (ix2 p (0 : Fin 1)) = _
  rw [W1_cnt, kCnt_apply, vec_kDst]

theorem X0_eq : X0 (V1 m ρ) c = mat (m ((c : Thread nD τ).loc main_arg0)) := by
  funext p k
  show W1 m ρ c (Proc.devRef .tc main_arg0) (ix2 p k) = _
  rw [W1_main_arg0]; rfl

theorem Wl0_eq : Wl0 (V1 m ρ) c = mat (m ((c : Thread nD τ).loc main_arg2)) := by
  funext p k
  show W1 m ρ c (Proc.devRef .tc main_arg2) (ix2 p k) = _
  rw [W1_main_arg2]; rfl

theorem Wr0_eq : Wr0 (V1 m ρ) c = mat (m ((c : Thread nD τ).loc main_arg3)) := by
  funext p k
  show W1 m ρ c (Proc.devRef .tc main_arg3) (ix2 p k) = _
  rw [W1_main_arg3]; rfl

theorem b0_eq : b0 (V1 m ρ) c = vec (m ((c : Thread nD τ).loc main_arg4)) := by
  funext j
  show W1 m ρ c (Proc.devRef .tc main_arg4) (ix1 j) = _
  rw [W1_main_arg4]; rfl

theorem H0_eq : H0 (V1 m ρ) c = Hd m c := by
  unfold H0 Hd Cert.Sage.hidden
  rw [A0_eq, C0_eq, X0_eq, Wl0_eq, Wr0_eq, b0_eq]

/-! ## After the first region -/

theorem W2_h : W2 m ρ c (Proc.devRef .tc main_v19_0) = toArr (Hd m c) :=
  (W2_arr m ρ c 6).trans ((final0_6 (V1 m ρ) c).trans (congrArg toArr (H0_eq m ρ c)))
theorem W2_sum : W2 m ρ c (Proc.devRef .tc main_v19_1) = toVec (colSum (Hd m c)) :=
  (W2_arr m ρ c 7).trans ((final0_7 (V1 m ρ) c).trans (congrArg (fun H => toVec (colSum H)) (H0_eq m ρ c)))
theorem W2_sq : W2 m ρ c (Proc.devRef .tc main_v19_2) = toVec (colSumSq (Hd m c)) :=
  (W2_arr m ρ c 8).trans ((final0_8 (V1 m ρ) c).trans (congrArg (fun H => toVec (colSumSq H)) (H0_eq m ρ c)))
theorem W2_cnt : W2 m ρ c (Proc.devRef .tc main_v8) = kCnt (kDst (m ((c : Thread nD τ).loc main_arg1))) :=
  ((W2_arr m ρ c 1).trans (((dat0 (V1 m ρ) c).arrAt_in 1 rfl _).trans (A_eq0 (V1 m ρ) c 1))).trans (W1_cnt m ρ c)
theorem W2_src : W2 m ρ c (Proc.devRef .tc main_v1) = kSrc (m ((c : Thread nD τ).loc main_arg1)) := (W2_of_ne m ρ c main_v1 (by decide)).trans (W1_src m ρ c)
theorem W2_dst : W2 m ρ c (Proc.devRef .tc main_v3) = kDst (m ((c : Thread nD τ).loc main_arg1)) := (W2_of_ne m ρ c main_v3 (by decide)).trans (W1_dst m ρ c)
theorem W2_main_arg5 : W2 m ρ c (Proc.devRef .tc main_arg5) = (m ((c : Thread nD τ).loc main_arg5)) := (W2_of_ne m ρ c main_arg5 (by decide)).trans (W1_main_arg5 m ρ c)
theorem W2_main_arg6 : W2 m ρ c (Proc.devRef .tc main_arg6) = (m ((c : Thread nD τ).loc main_arg6)) := (W2_of_ne m ρ c main_arg6 (by decide)).trans (W1_main_arg6 m ρ c)

end Cert.KernelIdeal.KValue

end
-- ==== Proof.KReg1.lean ====
/-
  The middle region of the kernel program normalises the first layer's result block by block: the node axis is cut into
  ten blocks of 10000 rows, and at point t the body reads block t of the table and the mean, variance, scale and shift
  vectors whole, and stores
      max( (h - mean) · rsqrt(variance + guard) · scale + shift , 0 )
  into block t of the result. Read at an index this stored value is the normalised entry at the same column and at row
  t·10000 further down, so every point writes back its block of ONE array, the normalisation of the table by the four
  given vectors; the ten blocks cover the result array (row r lies in the block of point r / 10000), which therefore
  ends holding that normalisation. The normalisation is stated with the mean vector GIVEN; the network's own is the
  case where the means are the table's column means.
-/
import proofs.«152036_j35828617183789_1_alg».proof.Proof.Gen.KernelIdeal.Frame
import proofs.«152036_j35828617183789_1_alg».proof.Proof.Spec
import proofs.«152036_j35828617183789_1_alg».proof.Proof.LibColumn
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.ValueIdx Idealize.ShloMosaic.TcCoe Idealize.SL.Sem
open Idealize.ShloMosaic.Pipeline (Dat)

namespace Cert.Sage

/-- The normalisation with the column means given: subtract the mean, scale by the reciprocal root of the guarded
    variance, scale and shift, clamp below at zero. -/
def bnWith {M : ℕ} (H : Fin NN → Fin M → EReal) (μ v γ β : Fin M → EReal) (i : Fin NN) (j : Fin M) : EReal :=
  max ((H i j - μ j) * Ideal.rsqrt (v j + epsW) * γ j + β j) 0

/-- The network's normalisation is the one with the table's own column means. -/
theorem bnRelu_eq_bnWith {M : ℕ} (H : Fin NN → Fin M → EReal) (v γ β : Fin M → EReal) :
    bnRelu H v γ β = bnWith H (colMean H) v γ β := rfl

end Cert.Sage

namespace Cert.KernelIdeal.KValue

open Cert.KernelIdeal Cert.KernelIdeal.Gen Cert.Sage

/-- A whole-block rectangle starts at the origin. -/
theorem bn1_origin1 : (![0] : Fin 1 → Nat) = fun _ => 0 := funext fun a => by fin_cases a; rfl
theorem bn1_origin2 : (![0, 0] : Fin 2 → Nat) = fun _ => 0 := funext fun a => by fin_cases a <;> rfl

/-- The reciprocal root of an array, read at an index. -/
theorem bn1_rsqrt_apply {s : Shape} {φ : FTy} (v : FVec Ideal s φ) (i : s.Idx) : rsqrt v i = Ideal.rsqrt (v i) := rfl

/-- The body's stored value at row r, column j of a block. -/
theorem bn1_pay_apply (h : Vec Ideal S10000x128 .f32) (mu va ga be : Vec Ideal S128 .f32) (r : Fin 10000) (j : Fin 128) :
    k1_pay1 (F := Ideal) h mu va ga be (ix2 r j)
      = max ((h (ix2 r j) - mu (ix1 j)) * Ideal.rsqrt (va (ix1 j) + epsW) * ga (ix1 j) + be (ix1 j)) 0 := by
  unfold k1_pay1
  rw [maximumf_apply, addf_apply, mulf_apply, mulf_apply, subf_apply, broadcastTo_1b_ab_apply, broadcastTo_1b_ab_apply,
    broadcastTo_1b_ab_apply, broadcastTo_1b_ab_apply, bn1_rsqrt_apply, addf_apply, shapeCast_a_1a_apply,
    shapeCast_a_1a_apply, shapeCast_a_1a_apply, shapeCast_a_1a_apply, shapeCast_self, shapeCast_self, shapeCast_self,
    broadcast_apply, broadcast_apply]
  exact congrArg₂ max rfl Ideal.ofBits_zero_f32

/-- A block of the normalisation, written over plain arrays: when the point's table block is rows q·10000 … of the table
    (and the four vectors whole), the stored value at a block index is the normalised entry at the array index with
    the same column and row q·10000 further down. -/
theorem bn1_block (H : S100000x128.Idx → EReal) (MU VA GA BE : S128.Idx → EReal) (h : Vec Ideal S10000x128 .f32)
    (mu va ga be : Vec Ideal S128 .f32) (q : ℕ)
    (hh : ∀ (r : Fin 10000) (p : Fin 100000) (k : Fin 128), p.val = q * 10000 + r.val → h (ix2 r k) = H (ix2 p k))
    (hmu : ∀ j, mu (ix1 j) = MU (ix1 j)) (hva : ∀ j, va (ix1 j) = VA (ix1 j)) (hga : ∀ j, ga (ix1 j) = GA (ix1 j))
    (hbe : ∀ j, be (ix1 j) = BE (ix1 j))
    (y : S10000x128.Idx) (i : S100000x128.Idx) (hi0 : (i 0).val = q * 10000 + (y 0).val) (hi1 : (i 1).val = (y 1).val) :
    k1_pay1 (F := Ideal) h mu va ga be y = toArr (bnWith (mat H) (vec MU) (vec VA) (vec GA) (vec BE)) i := by
  obtain ⟨r, j, rfl⟩ : ∃ (r : Fin 10000) (j : Fin 128), y = ix2 r j := ⟨y 0, y 1, eq_ix2 y⟩
  obtain ⟨p, j', rfl⟩ : ∃ (p : Fin 100000) (j' : Fin 128), i = ix2 p j' := ⟨i 0, i 1, eq_ix2 i⟩
  have hj : j' = j := Fin.ext hi1
  subst hj
  have hp : p.val = q * 10000 + r.val := hi0
  rw [bn1_pay_apply, toArr_ix2]
  unfold bnWith mat vec
  rw [hh r p _ hp, hmu, hva, hga, hbe]

variable (V : (c : Dev nD) → (b : Ref sig .tc) → Buf (Elt Ideal) ((c : Thread nD τ).loc b))

/-- The index maps over the grid: the table and the output move together, block t at point t; the four vectors stay at
    block zero. -/
theorem bn1_idx : ∀ t : Fin cfg1.N, win1_0.index t (0 : Fin 2) = t.val ∧ win1_0.index t (1 : Fin 2) = 0
    ∧ win1_1.index t (0 : Fin 1) = 0 ∧ win1_2.index t (0 : Fin 1) = 0 ∧ win1_3.index t (0 : Fin 1) = 0
    ∧ win1_4.index t (0 : Fin 1) = 0
    ∧ win1_5.index t (0 : Fin 2) = t.val ∧ win1_5.index t (1 : Fin 2) = 0 :=
  (by decide +kernel : ∀ t : Fin grid1.N, _)

/-- The table block at point t is rows t·10000 … of the table. -/
theorem bn1_read0 (c : Dev nD) (t : Fin cfg1.N) (r : Fin 10000) (p : Fin 100000) (k : Fin 128)
    (hp : p.val = t.val * 10000 + r.val) :
    (iblk1 V c 0 t : Vec Ideal S10000x128 .f32) (ix2 r k)
      = (V c (Pipeline.arrRef spec1 0) : S100000x128.Idx → EReal) (ix2 p k) := by
  obtain ⟨e0, e1, -⟩ := bn1_idx t
  unfold iblk1
  rw [View.read_apply]
  show (V c (Pipeline.arrRef spec1 0) : S100000x128.Idx → EReal) _ = _
  refine congrArg (V c (Pipeline.arrRef spec1 0) : S100000x128.Idx → EReal) ?_
  funext a; apply Fin.ext
  match a with
  | ⟨0, _⟩ => show win1_0.index t (0 : Fin 2) * 10000 + 1 * r.val = p.val; rw [e0, hp]; omega
  | ⟨1, _⟩ => show win1_0.index t (1 : Fin 2) * 128 + 1 * k.val = k.val; rw [e1]; omega

/-- The mean, variance, scale and shift blocks are the whole vectors at every point. -/
theorem bn1_read1 (c : Dev nD) (t : Fin cfg1.N) (j : Fin 128) :
    (iblk1 V c 1 t : Vec Ideal S128 .f32) (ix1 j) = (V c (Pipeline.arrRef spec1 1) : S128.Idx → EReal) (ix1 j) := by
  obtain ⟨-, -, e0, -⟩ := bn1_idx t
  unfold iblk1
  rw [View.read_apply]
  show (V c (Pipeline.arrRef spec1 1) : S128.Idx → EReal) _ = _
  refine congrArg (V c (Pipeline.arrRef spec1 1) : S128.Idx → EReal) ?_
  funext a; apply Fin.ext
  match a with
  | ⟨0, _⟩ => show win1_1.index t (0 : Fin 1) * 128 + 1 * j.val = j.val; rw [e0]; omega

theorem bn1_read2 (c : Dev nD) (t : Fin cfg1.N) (j : Fin 128) :
    (iblk1 V c 2 t : Vec Ideal S128 .f32) (ix1 j) = (V c (Pipeline.arrRef spec1 2) : S128.Idx → EReal) (ix1 j) := by
  obtain ⟨-, -, -, e0, -⟩ := bn1_idx t
  unfold iblk1
  rw [View.read_apply]
  show (V c (Pipeline.arrRef spec1 2) : S128.Idx → EReal) _ = _
  refine congrArg (V c (Pipeline.arrRef spec1 2) : S128.Idx → EReal) ?_
  funext a; apply Fin.ext
  match a with
  | ⟨0, _⟩ => show win1_2.index t (0 : Fin 1) * 128 + 1 * j.val = j.val; rw [e0]; omega

theorem bn1_read3 (c : Dev nD) (t : Fin cfg1.N) (j : Fin 128) :
    (iblk1 V c 3 t : Vec Ideal S128 .f32) (ix1 j) = (V c (Pipeline.arrRef spec1 3) : S128.Idx → EReal) (ix1 j) := by
  obtain ⟨-, -, -, -, e0, -⟩ := bn1_idx t
  unfold iblk1
  rw [View.read_apply]
  show (V c (Pipeline.arrRef spec1 3) : S128.Idx → EReal) _ = _
  refine congrArg (V c (Pipeline.arrRef spec1 3) : S128.Idx → EReal) ?_
  funext a; apply Fin.ext
  match a with
  | ⟨0, _⟩ => show win1_3.index t (0 : Fin 1) * 128 + 1 * j.val = j.val; rw [e0]; omega

theorem bn1_read4 (c : Dev nD) (t : Fin cfg1.N) (j : Fin 128) :
    (iblk1 V c 4 t : Vec Ideal S128 .f32) (ix1 j) = (V c (Pipeline.arrRef spec1 4) : S128.Idx → EReal) (ix1 j) := by
  obtain ⟨-, -, -, -, -, e0, -⟩ := bn1_idx t
  unfold iblk1
  rw [View.read_apply]
  show (V c (Pipeline.arrRef spec1 4) : S128.Idx → EReal) _ = _
  refine congrArg (V c (Pipeline.arrRef spec1 4) : S128.Idx → EReal) ?_
  funext a; apply Fin.ext
  match a with
  | ⟨0, _⟩ => show win1_4.index t (0 : Fin 1) * 128 + 1 * j.val = j.val; rw [e0]; omega

/-- The normalisation of the region's table by its four argument vectors, laid out as the result array. -/
abbrev bn1G (c : Dev nD) : S100000x128.Idx → EReal :=
  toArr (bnWith (mat (V c (Pipeline.arrRef spec1 0) : S100000x128.Idx → EReal))
    (vec (V c (Pipeline.arrRef spec1 1) : S128.Idx → EReal)) (vec (V c (Pipeline.arrRef spec1 2) : S128.Idx → EReal))
    (vec (V c (Pipeline.arrRef spec1 3) : S128.Idx → EReal)) (vec (V c (Pipeline.arrRef spec1 4) : S128.Idx → EReal)))

/-- What point t writes back is block t of the normalised array. -/
theorem bn1_flushed (c : Dev nD) (t : Fin cfg1.N) :
    (dat1 (F := Ideal) V c).flushed 5 t = ((cfg1.win 5).blk t).view.read (Elt Ideal) (bn1G V c) := by
  show (cfg1.win 5).cut (grid1.coords t) ((dat1 V c).after 5 t) = _
  rw [after1_5]
  unfold out1_5
  rw [View.canon_unit_zero bn1_origin2]
  simp only [View.ld_unit_zero (S := S10000x128) bn1_origin2, View.ld_unit_zero (S := S128) bn1_origin1]
  obtain ⟨-, -, -, -, -, -, e0, e1⟩ := bn1_idx t
  funext y
  show k1_pay1 (F := Ideal) (iblk1 V c 0 t) (iblk1 V c 1 t) (iblk1 V c 2 t) (iblk1 V c 3 t) (iblk1 V c 4 t) y
    = bn1G V c (((cfg1.win 5).blk t).view.emb y)
  exact bn1_block (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) t.val
    (fun r p k hp => bn1_read0 V c t r p k hp) (fun j => bn1_read1 V c t j) (fun j => bn1_read2 V c t j)
    (fun j => bn1_read3 V c t j) (fun j => bn1_read4 V c t j) y (((cfg1.win 5).blk t).view.emb y)
    (by show win1_5.index t (0 : Fin 2) * 10000 + 1 * (y 0).val = t.val * 10000 + (y 0).val; rw [e0]; omega)
    (by show win1_5.index t (1 : Fin 2) * 128 + 1 * (y 1).val = (y 1).val; rw [e1]; omega)

/-- An index of the result array lies in point t's block exactly when each coordinate lies in the block's range. -/
theorem bn1_mem_blk (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v28).slice (win1_5.rect t)).set ↔ _
  rw [View.set_slice_whole, Rect.mem_set_unit]
  exact Iff.rfl

/-- Every row of the result array lies in some point's block: row r in the block of point r / 10000. -/
theorem bn1_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, lt_of_lt_of_eq (by omega : (i 0).val / 10000 < 10) N_1.symm⟩, rfl⟩
  refine ⟨t, flush1_5 t, ?_⟩
  rw [bn1_mem_blk]
  obtain ⟨-, -, -, -, -, -, e0, e1⟩ := bn1_idx t
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 128 ≤ (i 1).val ∧ (i 1).val < win1_5.index t (1 : Fin 2) * 128 + 128
    rw [e1]; omega

/-- The region's result array after its last point: its table normalised by its four argument vectors. -/
theorem final1 (c : Dev nD) : (dat1 (F := Ideal) V c).arrAt 5 cfg1.N
    = toArr (bnWith (mat (V c (Pipeline.arrRef spec1 0))) (vec (V c (Pipeline.arrRef spec1 1)))
        (vec (V c (Pipeline.arrRef spec1 2))) (vec (V c (Pipeline.arrRef spec1 3))) (vec (V c (Pipeline.arrRef spec1 4)))) :=
  (dat1 V c).arrAt_eq_of_cover 5 (bn1G V c) (fun t _ => bn1_flushed V c t) bn1_cover

end Cert.KernelIdeal.KValue

end
-- ==== Proof.KChainB.lean ====
/-
  The buffer contents through the second region. The host turns the two running sums into the column mean and the
  one-pass variance of the first layer's result; the region normalises, scales, shifts and clamps it.
-/
import proofs.«152036_j35828617183789_1_alg».proof.Proof.KChainA
import proofs.«152036_j35828617183789_1_alg».proof.Proof.KReg1

set_option maxRecDepth 16384

noncomputable section

namespace Cert.KernelIdeal.KValue

open Idealize.ShloMosaic Idealize.ShloMosaic.TcCoe Idealize.ShloMosaic.ValueIdx
open Idealize.ShloMosaic.Pipeline (Dat Cfg Window)
open Cert.KernelIdeal Cert.KernelIdeal.Gen Cert.Sage

variable (m : (ℓ : Loc nD τ sig) → Buf (Elt Ideal) ℓ) (ρ : Dev nD → PrngReg) (c : Dev nD)

/-- The normalised hidden table from the launch memory's arguments (one-pass variance). -/
def Hn : Fin NN → Fin 128 → EReal :=
  bnRelu (Hd m c) (varK (Hd m c)) (vec (m ((c : Thread nD τ).loc main_arg5))) (vec (m ((c : Thread nD τ).loc main_arg6)))

/-! ## After the second host stretch -/

theorem W3_mean : W3 m ρ c (Proc.devRef .tc main_v21) = toVec (colMean (Hd m c)) := by
  refine (host1_main_v21 (W2 m ρ c)).trans ?_
  rw [W2_sum]
  exact kMean_colSum (Hd m c)

theorem W3_var : W3 m ρ c (Proc.devRef .tc main_v27) = toVec (varK (Hd m c)) := by
  refine (host1_main_v27 (W2 m ρ c)).trans ?_
  rw [W2_sum, W2_sq]
  exact kVar_colSums (Hd m c)

theorem W3_h : W3 m ρ c (Proc.devRef .tc main_v19_0) = toArr (Hd m c) := (host1_main_v19_0 (W2 m ρ c)).trans (W2_h m ρ c)
theorem W3_cnt : W3 m ρ c (Proc.devRef .tc main_v8) = kCnt (kDst (m ((c : Thread nD τ).loc main_arg1))) := (host1_main_v8 (W2 m ρ c)).trans (W2_cnt m ρ c)
theorem W3_src : W3 m ρ c (Proc.devRef .tc main_v1) = kSrc (m ((c : Thread nD τ).loc main_arg1)) := (host1_main_v1 (W2 m ρ c)).trans (W2_src m ρ c)
theorem W3_dst : W3 m ρ c (Proc.devRef .tc main_v3) = kDst (m ((c : Thread nD τ).loc main_arg1)) := (host1_main_v3 (W2 m ρ c)).trans (W2_dst m ρ c)
theorem W3_main_arg5 : W3 m ρ c (Proc.devRef .tc main_arg5) = (m ((c : Thread nD τ).loc main_arg5)) := (host1_main_arg5 (W2 m ρ c)).trans (W2_main_arg5 m ρ c)
theorem W3_main_arg6 : W3 m ρ c (Proc.devRef .tc main_arg6) = (m ((c : Thread nD τ).loc main_arg6)) := (host1_main_arg6 (W2 m ρ c)).trans (W2_main_arg6 m ρ c)

/-! ## After the second region -/

theorem W4_hn : W4 m ρ c (Proc.devRef .tc main_v28) = toArr (Hn m c) := by
  refine (W4_arr m ρ c 5).trans ((final1 (V3 m ρ) c).trans ?_)
  show toArr (bnWith (mat (W3 m ρ c (Proc.devRef .tc main_v19_0))) (vec (W3 m ρ c (Proc.devRef .tc main_v21))) (vec (W3 m ρ c (Proc.devRef .tc main_v27)))
      (vec (W3 m ρ c (Proc.devRef .tc main_arg5))) (vec (W3 m ρ c (Proc.devRef .tc main_arg6)))) = _
  rw [W3_h, W3_mean, W3_var, W3_main_arg5, W3_main_arg6]
  rfl

theorem W4_cnt : W4 m ρ c (Proc.devRef .tc main_v8) = kCnt (kDst (m ((c : Thread nD τ).loc main_arg1))) := (W4_of_ne m ρ c main_v8 (by decide)).trans (W3_cnt m ρ c)
theorem W4_src : W4 m ρ c (Proc.devRef .tc main_v1) = kSrc (m ((c : Thread nD τ).loc main_arg1)) := (W4_of_ne m ρ c main_v1 (by decide)).trans (W3_src m ρ c)
theorem W4_dst : W4 m ρ c (Proc.devRef .tc main_v3) = kDst (m ((c : Thread nD τ).loc main_arg1)) := (W4_of_ne m ρ c main_v3 (by decide)).trans (W3_dst m ρ c)

end Cert.KernelIdeal.KValue

end
-- ==== Proof.KReg2.lean ====
/-
  The last region of the kernel program computes the second layer block by block: the node axis is cut into ten blocks
  of 10000 rows, and at point t the body reads block t of the neighbour-sum table, of the count column and of the node
  table, the two weight tables and the bias whole, and stores
      (neighbour sum / max(count, 1)) · Wl + node row · Wr + b
  into block t of the result. Read at an index this stored value is the layer's entry at the same column and at row
  t·10000 further down, so every point writes back its block of ONE array, the layer of the six argument arrays; the ten
  blocks cover the result array (row r lies in the block of point r / 10000), which therefore ends holding that layer.
-/
import proofs.«152036_j35828617183789_1_alg».proof.Proof.Gen.KernelIdeal.Frame
import proofs.«152036_j35828617183789_1_alg».proof.Proof.Spec
import proofs.«152036_j35828617183789_1_alg».proof.Proof.LibDot
import proofs.«152036_j35828617183789_1_alg».proof.Proof.LibColumn
import Idealize.ShloMosaic.Lib.ValueLayout
import Idealize.ShloMosaic.Lib.Pipeline.Value
import Idealize.ShloMosaic.PureOps.Ideal.Laws

set_option maxRecDepth 16384

noncomputable section

namespace Cert.KernelIdeal.KValue

open Idealize.ShloMosaic Idealize.ShloMosaic.ValueIdx Idealize.ShloMosaic.TcCoe Idealize.SL.Sem
open Idealize.ShloMosaic.Pipeline (Dat)
open Cert.KernelIdeal Cert.KernelIdeal.Gen Cert.Sage

/-- A whole-block rectangle starts at the origin. -/
theorem lin2_origin1 : (![0] : Fin 1 → Nat) = fun _ => 0 := funext fun a => by fin_cases a; rfl
theorem lin2_origin2 : (![0, 0] : Fin 2 → Nat) = fun _ => 0 := funext fun a => by fin_cases a <;> rfl

/-- The second layer's products contract the feature axis: rows of the left operand against columns of the right. -/
theorem lin2_plain : Cert.LibDot.Plain dot_S10000x128_S128x2_S10000x2_1_0_0_1_n_n where
  hrank := rfl
  hs := rfl
  hl0 := fun _ _ => rfl
  hl1 := fun _ _ => rfl
  hr0 := fun _ _ => rfl
  hr1 := fun _ _ => rfl

/-- The body's stored value at row r, output j of a block: the neighbour mean through the left weights, the node's own
    row through the right weights, and the bias. -/
theorem lin2_pay_apply (c1 : Vec Ideal S10000x1 .f32) (a x : Vec Ideal S10000x128 .f32) (wl wr : Vec Ideal S128x2 .f32)
    (b : Vec Ideal S2 .f32) (r : Fin 10000) (j : Fin 2) :
    k2_pay1 (F := Ideal) c1 a x wl wr b (ix2 r j)
      = (∑ k : Fin 128, Ideal.div (a (ix2 r k)) (max (c1 (ix2 r (0 : Fin 1))) oneW) * wl (ix2 k j))
        + (∑ k : Fin 128, x (ix2 r k) * wr (ix2 k j)) + b (ix1 j) := by
  unfold k2_pay1
  rw [addf_apply, addf_apply, Cert.LibDot.matmul_ix2 lin2_plain, Cert.LibDot.matmul_ix2 lin2_plain,
    broadcastTo_1b_ab_apply, shapeCast_a_1a_apply]
  refine congrArg₂ (· + ·) (congrArg₂ (· + ·) (Finset.sum_congr rfl fun k _ => ?_) (Finset.sum_congr rfl fun k _ => ?_)) rfl
  · rw [truncf_apply, truncf_apply, divf_apply, broadcastTo_a1_ab_apply, maximumf_apply, shapeCast_self, shapeCast_self]
    rfl
  · rw [truncf_apply, truncf_apply, shapeCast_self]

/-- A block of the second layer, written over plain arrays: when the point's input blocks are rows q·10000 … of the node
    tables (and the weights and the bias whole), the stored value at a block index is the layer's entry at the array
    index with the same column and row q·10000 further down. -/
theorem lin2_block (A X : S100000x128.Idx → EReal) (C : S100000x1.Idx → EReal) (WL WR : S128x2.Idx → EReal)
    (B : S2.Idx → EReal) (c1 : Vec Ideal S10000x1 .f32) (a x : Vec Ideal S10000x128 .f32)
    (wl wr : Vec Ideal S128x2 .f32) (b : Vec Ideal S2 .f32) (q : ℕ)
    (hc : ∀ (r : Fin 10000) (p : Fin 100000), p.val = q * 10000 + r.val → c1 (ix2 r (0 : Fin 1)) = C (ix2 p (0 : Fin 1)))
    (ha : ∀ (r : Fin 10000) (p : Fin 100000) (k : Fin 128), p.val = q * 10000 + r.val → a (ix2 r k) = A (ix2 p k))
    (hx : ∀ (r : Fin 10000) (p : Fin 100000) (k : Fin 128), p.val = q * 10000 + r.val → x (ix2 r k) = X (ix2 p k))
    (hwl : ∀ k j, wl (ix2 k j) = WL (ix2 k j)) (hwr : ∀ k j, wr (ix2 k j) = WR (ix2 k j))
    (hb : ∀ j, b (ix1 j) = B (ix1 j))
    (y : S10000x2.Idx) (i : S100000x2.Idx) (hi0 : (i 0).val = q * 10000 + (y 0).val) (hi1 : (i 1).val = (y 1).val) :
    k2_pay1 (F := Ideal) c1 a x wl wr b y
      = toArr (layer (mat A) (fun p => C (ix2 p (0 : Fin 1))) (mat X) (mat WL) (mat WR) (vec B)) i := by
  obtain ⟨r, j, rfl⟩ : ∃ (r : Fin 10000) (j : Fin 2), y = ix2 r j := ⟨y 0, y 1, eq_ix2 y⟩
  obtain ⟨p, j', rfl⟩ : ∃ (p : Fin 100000) (j' : Fin 2), i = ix2 p j' := ⟨i 0, i 1, eq_ix2 i⟩
  have hj : j' = j := Fin.ext hi1
  subst hj
  have hp : p.val = q * 10000 + r.val := hi0
  rw [lin2_pay_apply, toArr_ix2]
  unfold layer mat vec
  simp only [ha r p _ hp, hx r p _ hp, hc r p hp, hwl, hwr, hb]

variable (V : (c : Dev nD) → (b : Ref sig .tc) → Buf (Elt Ideal) ((c : Thread nD τ).loc b))

/-- The index maps over the grid: the three row-blocked inputs and the output move together, block t at point t; the
    weights and the bias stay at block zero. -/
theorem lin2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The neighbour-sum block at point t is rows t·10000 … of the neighbour-sum array. -/
theorem lin2_read0 (c : Dev nD) (t : Fin cfg2.N) (r : Fin 10000) (p : Fin 100000) (k : Fin 128)
    (hp : p.val = t.val * 10000 + r.val) :
    (iblk2 V c 0 t : Vec Ideal S10000x128 .f32) (ix2 r k)
      = (V c (Pipeline.arrRef spec2 0) : S100000x128.Idx → EReal) (ix2 p k) := by
  obtain ⟨e0, e1, -⟩ := lin2_idx t
  unfold iblk2
  rw [View.read_apply]
  show (V c (Pipeline.arrRef spec2 0) : S100000x128.Idx → EReal) _ = _
  refine congrArg (V c (Pipeline.arrRef spec2 0) : S100000x128.Idx → EReal) ?_
  funext a; apply Fin.ext
  match a with
  | ⟨0, _⟩ => show win2_0.index t (0 : Fin 2) * 10000 + 1 * r.val = p.val; rw [e0, hp]; omega
  | ⟨1, _⟩ => show win2_0.index t (1 : Fin 2) * 128 + 1 * k.val = k.val; rw [e1]; omega

/-- The count block at point t is rows t·10000 … of the count column. -/
theorem lin2_read1 (c : Dev nD) (t : Fin cfg2.N) (r : Fin 10000) (p : Fin 100000)
    (hp : p.val = t.val * 10000 + r.val) :
    (iblk2 V c 1 t : Vec Ideal S10000x1 .f32) (ix2 r (0 : Fin 1))
      = (V c (Pipeline.arrRef spec2 1) : S100000x1.Idx → EReal) (ix2 p (0 : Fin 1)) := by
  obtain ⟨-, -, e0, e1, -⟩ := lin2_idx t
  unfold iblk2
  rw [View.read_apply]
  show (V c (Pipeline.arrRef spec2 1) : S100000x1.Idx → EReal) _ = _
  refine congrArg (V c (Pipeline.arrRef spec2 1) : S100000x1.Idx → EReal) ?_
  funext a; apply Fin.ext
  match a with
  | ⟨0, _⟩ => show win2_1.index t (0 : Fin 2) * 10000 + 1 * r.val = p.val; rw [e0, hp]; omega
  | ⟨1, _⟩ => show win2_1.index t (1 : Fin 2) * 1 + 1 * 0 = 0; rw [e1]

/-- The node-table block at point t is rows t·10000 … of the node table. -/
theorem lin2_read2 (c : Dev nD) (t : Fin cfg2.N) (r : Fin 10000) (p : Fin 100000) (k : Fin 128)
    (hp : p.val = t.val * 10000 + r.val) :
    (iblk2 V c 2 t : Vec Ideal S10000x128 .f32) (ix2 r k)
      = (V c (Pipeline.arrRef spec2 2) : S100000x128.Idx → EReal) (ix2 p k) := by
  obtain ⟨-, -, -, -, e0, e1, -⟩ := lin2_idx t
  unfold iblk2
  rw [View.read_apply]
  show (V c (Pipeline.arrRef spec2 2) : S100000x128.Idx → EReal) _ = _
  refine congrArg (V c (Pipeline.arrRef spec2 2) : S100000x128.Idx → EReal) ?_
  funext a; apply Fin.ext
  match a with
  | ⟨0, _⟩ => show win2_2.index t (0 : Fin 2) * 10000 + 1 * r.val = p.val; rw [e0, hp]; omega
  | ⟨1, _⟩ => show win2_2.index t (1 : Fin 2) * 128 + 1 * k.val = k.val; rw [e1]; omega

/-- The two weight blocks and the bias block are the whole weight tables and the whole bias at every point. -/
theorem lin2_read3 (c : Dev nD) (t : Fin cfg2.N) (k : Fin 128) (j : Fin 2) :
    (iblk2 V c 3 t : Vec Ideal S128x2 .f32) (ix2 k j) = (V c (Pipeline.arrRef spec2 3) : S128x2.Idx → EReal) (ix2 k j) := by
  obtain ⟨-, -, -, -, -, -, e0, e1, -⟩ := lin2_idx t
  unfold iblk2
  rw [View.read_apply]
  show (V c (Pipeline.arrRef spec2 3) : S128x2.Idx → EReal) _ = _
  refine congrArg (V c (Pipeline.arrRef spec2 3) : S128x2.Idx → EReal) ?_
  funext a; apply Fin.ext
  match a with
  | ⟨0, _⟩ => show win2_3.index t (0 : Fin 2) * 128 + 1 * k.val = k.val; rw [e0]; omega
  | ⟨1, _⟩ => show win2_3.index t (1 : Fin 2) * 2 + 1 * j.val = j.val; rw [e1]; omega

theorem lin2_read4 (c : Dev nD) (t : Fin cfg2.N) (k : Fin 128) (j : Fin 2) :
    (iblk2 V c 4 t : Vec Ideal S128x2 .f32) (ix2 k j) = (V c (Pipeline.arrRef spec2 4) : S128x2.Idx → EReal) (ix2 k j) := by
  obtain ⟨-, -, -, -, -, -, -, -, e0, e1, -⟩ := lin2_idx t
  unfold iblk2
  rw [View.read_apply]
  show (V c (Pipeline.arrRef spec2 4) : S128x2.Idx → EReal) _ = _
  refine congrArg (V c (Pipeline.arrRef spec2 4) : S128x2.Idx → EReal) ?_
  funext a; apply Fin.ext
  match a with
  | ⟨0, _⟩ => show win2_4.index t (0 : Fin 2) * 128 + 1 * k.val = k.val; rw [e0]; omega
  | ⟨1, _⟩ => show win2_4.index t (1 : Fin 2) * 2 + 1 * j.val = j.val; rw [e1]; omega

theorem lin2_read5 (c : Dev nD) (t : Fin cfg2.N) (j : Fin 2) :
    (iblk2 V c 5 t : Vec Ideal S2 .f32) (ix1 j) = (V c (Pipeline.arrRef spec2 5) : S2.Idx → EReal) (ix1 j) := by
  obtain ⟨-, -, -, -, -, -, -, -, -, -, e0, -⟩ := lin2_idx t
  unfold iblk2
  rw [View.read_apply]
  show (V c (Pipeline.arrRef spec2 5) : S2.Idx → EReal) _ = _
  refine congrArg (V c (Pipeline.arrRef spec2 5) : S2.Idx → EReal) ?_
  funext a; apply Fin.ext
  match a with
  | ⟨0, _⟩ => show win2_5.index t (0 : Fin 1) * 2 + 1 * j.val = j.val; rw [e0]; omega

/-- The second layer over the region's six argument arrays, laid out as the result array. -/
abbrev lin2G (c : Dev nD) : S100000x2.Idx → EReal :=
  toArr (layer (mat (V c (Pipeline.arrRef spec2 0) : S100000x128.Idx → EReal))
    (fun p => (V c (Pipeline.arrRef spec2 1) : S100000x1.Idx → EReal) (ix2 p (0 : Fin 1)))
    (mat (V c (Pipeline.arrRef spec2 2) : S100000x128.Idx → EReal))
    (mat (V c (Pipeline.arrRef spec2 3) : S128x2.Idx → EReal)) (mat (V c (Pipeline.arrRef spec2 4) : S128x2.Idx → EReal))
    (vec (V c (Pipeline.arrRef spec2 5) : S2.Idx → EReal)))

/-- What point t writes back is block t of the layer's result array. -/
theorem lin2_flushed (c : Dev nD) (t : Fin cfg2.N) :
    (dat2 (F := Ideal) V c).flushed 6 t = ((cfg2.win 6).blk t).view.read (Elt Ideal) (lin2G V c) := by
  show (cfg2.win 6).cut (grid2.coords t) ((dat2 V c).after 6 t) = _
  rw [after2_6]
  unfold out2_6
  rw [View.canon_unit_zero lin2_origin2]
  simp only [View.ld_unit_zero (S := S10000x1) lin2_origin2, View.ld_unit_zero (S := S10000x128) lin2_origin2,
    View.ld_unit_zero (S := S128x2) lin2_origin2, View.ld_unit_zero (S := S2) lin2_origin1]
  obtain ⟨-, -, -, -, -, -, -, -, -, -, -, e0, e1⟩ := lin2_idx t
  funext y
  show k2_pay1 (F := Ideal) (iblk2 V c 1 t) (iblk2 V c 0 t) (iblk2 V c 2 t) (iblk2 V c 3 t) (iblk2 V c 4 t) (iblk2 V c 5 t) y
    = lin2G V c (((cfg2.win 6).blk t).view.emb y)
  exact lin2_block (V c (Pipeline.arrRef spec2 0)) (V c (Pipeline.arrRef spec2 2)) (V c (Pipeline.arrRef spec2 1))
    (V c (Pipeline.arrRef spec2 3)) (V c (Pipeline.arrRef spec2 4)) (V c (Pipeline.arrRef spec2 5))
    (iblk2 V c 1 t) (iblk2 V c 0 t) (iblk2 V c 2 t) (iblk2 V c 3 t) (iblk2 V c 4 t) (iblk2 V c 5 t) t.val
    (fun r p hp => lin2_read1 V c t r p hp) (fun r p k hp => lin2_read0 V c t r p k hp)
    (fun r p k hp => lin2_read2 V c t r p k hp) (fun k j => lin2_read3 V c t k j) (fun k j => lin2_read4 V c t k j)
    (fun j => lin2_read5 V c t j) y (((cfg2.win 6).blk t).view.emb y)
    (by show win2_6.index t (0 : Fin 2) * 10000 + 1 * (y 0).val = t.val * 10000 + (y 0).val; rw [e0]; omega)
    (by show win2_6.index t (1 : Fin 2) * 2 + 1 * (y 1).val = (y 1).val; rw [e1]; omega)

/-- An index of the result array lies in point t's block exactly when each coordinate lies in the block's range. -/
theorem lin2_mem_blk (t : Fin cfg2.N) (i : S100000x2.Idx) :
    i ∈ ((cfg2.win 6).blk t).view.set ↔ ∀ a : Fin 2, win2_6.index t a * S10000x2.size a ≤ (i a).val
      ∧ (i a).val < win2_6.index t a * S10000x2.size a + S10000x2.size a := by
  show i ∈ ((View.whole main_v39).slice (win2_6.rect t)).set ↔ _
  rw [View.set_slice_whole, Rect.mem_set_unit]
  exact Iff.rfl

/-- Every row of the result array lies in some point's block: row r in the block of point r / 10000. -/
theorem lin2_cover (i : S100000x2.Idx) :
    ∃ t : Fin cfg2.N, (cfg2.win 6).flush t = true ∧ i ∈ ((cfg2.win 6).blk t).view.set := by
  have hi0 : (i 0).val < 100000 := (i 0).isLt
  have hi1 : (i 1).val < 2 := (i 1).isLt
  obtain ⟨t, ht⟩ : ∃ t : Fin cfg2.N, t.val = (i 0).val / 10000 :=
    ⟨⟨(i 0).val / 10000, lt_of_lt_of_eq (by omega : (i 0).val / 10000 < 10) N_2.symm⟩, rfl⟩
  refine ⟨t, flush2_6 t, ?_⟩
  rw [lin2_mem_blk]
  obtain ⟨-, -, -, -, -, -, -, -, -, -, -, e0, e1⟩ := lin2_idx t
  intro a
  match a with
  | ⟨0, _⟩ =>
    show win2_6.index t (0 : Fin 2) * 10000 ≤ (i 0).val ∧ (i 0).val < win2_6.index t (0 : Fin 2) * 10000 + 10000
    rw [e0, ht]; omega
  | ⟨1, _⟩ =>
    show win2_6.index t (1 : Fin 2) * 2 ≤ (i 1).val ∧ (i 1).val < win2_6.index t (1 : Fin 2) * 2 + 2
    rw [e1]; omega

/-- The region's result array after its last point: the second layer of its six argument arrays. -/
theorem final2 (c : Dev nD) : (dat2 (F := Ideal) V c).arrAt 6 cfg2.N
    = toArr (layer (mat (V c (Pipeline.arrRef spec2 0))) (fun p => V c (Pipeline.arrRef spec2 1) (ix2 p (0 : Fin 1)))
        (mat (V c (Pipeline.arrRef spec2 2))) (mat (V c (Pipeline.arrRef spec2 3))) (mat (V c (Pipeline.arrRef spec2 4)))
        (vec (V c (Pipeline.arrRef spec2 5)))) :=
  (dat2 V c).arrAt_eq_of_cover 6 (lin2G V c) (fun t _ => lin2_flushed V c t) lin2_cover

end Cert.KernelIdeal.KValue

end
-- ==== Proof.KRun.lean ====
/-
  The kernel program's run with its result named. The program is three pipelined regions among three stretches of
  host operations; the buffer contents at each boundary are a fold from the launch memory (a stretch applies its
  operations; a region leaves each of its arrays at what its write-backs make of it and every other buffer alone).
  Every weakly fair execution terminates with every unscoped buffer at the last boundary's contents; read at the
  result buffer this names the result, and read at an argument it is the argument as launched.
-/
import proofs.«152036_j35828617183789_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_value : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KValue

end
-- ==== Proof.KChainC.lean ====
/-
  The buffer contents through the last region, and the kernel program's result. The host takes the neighbour sum of
  the normalised table; the region applies the second layer. Read back through the boundaries, the result buffer holds
  the network of the launch memory's ten argument arrays, with the one-pass variance.
-/
import proofs.«152036_j35828617183789_1_alg».proof.Proof.KChainB
import proofs.«152036_j35828617183789_1_alg».proof.Proof.KReg2
import proofs.«152036_j35828617183789_1_alg».proof.Proof.KRun

set_option maxRecDepth 16384

noncomputable section

namespace Cert.KernelIdeal.KValue

open Idealize.ShloMosaic Idealize.ShloMosaic.TcCoe Idealize.ShloMosaic.ValueIdx
open Idealize.ShloMosaic.Pipeline (Dat Cfg Window)
open Cert.KernelIdeal Cert.KernelIdeal.Gen Cert.Sage

variable (m : (ℓ : Loc nD τ sig) → Buf (Elt Ideal) ℓ) (ρ : Dev nD → PrngReg) (c : Dev nD)

/-! ## After the last host stretch -/

theorem W5_agg : W5 m ρ c (Proc.devRef .tc main_v38) = kAgg128 (toArr (Hn m c)) (kSrc (m ((c : Thread nD τ).loc main_arg1))) (kDst (m ((c : Thread nD τ).loc main_arg1))) := by
  refine (host2_main_v38 (W4 m ρ c)).trans ?_
  rw [W4_hn, W4_src, W4_dst]

theorem W5_cnt : W5 m ρ c (Proc.devRef .tc main_v8) = kCnt (kDst (m ((c : Thread nD τ).loc main_arg1))) := (host2_main_v8 (W4 m ρ c)).trans (W4_cnt m ρ c)
theorem W5_hn : W5 m ρ c (Proc.devRef .tc main_v28) = toArr (Hn m c) := (host2_main_v28 (W4 m ρ c)).trans (W4_hn m ρ c)

/-- An argument the last region reads is, at the region's entry, what the run ends with there: the launch contents. -/
theorem W5_main_arg7 : W5 m ρ c (Proc.devRef .tc main_arg7) = (m ((c : Thread nD τ).loc main_arg7)) :=
  ((W6_arr m ρ c 3).trans (((dat2 (V5 m ρ) c).arrAt_in 3 rfl _).trans (A_eq2 (V5 m ρ) c 3))).symm.trans (W6_main_arg7 m ρ c)
theorem W5_main_arg8 : W5 m ρ c (Proc.devRef .tc main_arg8) = (m ((c : Thread nD τ).loc main_arg8)) :=
  ((W6_arr m ρ c 4).trans (((dat2 (V5 m ρ) c).arrAt_in 4 rfl _).trans (A_eq2 (V5 m ρ) c 4))).symm.trans (W6_main_arg8 m ρ c)
theorem W5_main_arg9 : W5 m ρ c (Proc.devRef .tc main_arg9) = (m ((c : Thread nD τ).loc main_arg9)) :=
  ((W6_arr m ρ c 5).trans (((dat2 (V5 m ρ) c).arrAt_in 5 rfl _).trans (A_eq2 (V5 m ρ) c 5))).symm.trans (W6_main_arg9 m ρ c)

/-! ## The result -/

theorem result_eq : W6 m ρ c (Proc.devRef .tc main_v39)
    = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 6).trans ((final2 (V5 m ρ) c).trans ?_)
  show toArr (layer (mat (W5 m ρ c (Proc.devRef .tc main_v38))) (fun p => W5 m ρ c (Proc.devRef .tc main_v8) (ix2 p (0 : Fin 1)))
      (mat (W5 m ρ c (Proc.devRef .tc main_v28))) (mat (W5 m ρ c (Proc.devRef .tc main_arg7))) (mat (W5 m ρ c (Proc.devRef .tc main_arg8))) (vec (W5 m ρ c (Proc.devRef .tc main_arg9)))) = _
  rw [W5_agg, W5_cnt, W5_hn, W5_main_arg7, W5_main_arg8, W5_main_arg9]
  unfold netK outK outOf
  refine congrArg toArr ?_
  have hA : mat (kAgg128 (F := Ideal) (toArr (Hn m c)) (kSrc (m ((c : Thread nD τ).loc main_arg1))) (kDst (m ((c : Thread nD τ).loc main_arg1))))
      = agg (srcOf (m ((c : Thread nD τ).loc main_arg1))) (dstOf (m ((c : Thread nD τ).loc main_arg1))) (Hn m c) := by
    funext p k
    show kAgg128 (F := Ideal) (toArr (Hn m c)) (kSrc (m ((c : Thread nD τ).loc main_arg1))) (kDst (m ((c : Thread nD τ).loc main_arg1))) (ix2 p k) = _
    rw [kAgg128_apply, vec_kSrc, vec_kDst]
    rfl
  have hC : (fun p => kCnt (F := Ideal) (kDst (m ((c : Thread nD τ).loc main_arg1))) (ix2 p (0 : Fin 1))) = cnt (dstOf (m ((c : Thread nD τ).loc main_arg1))) := by
    funext p
    rw [kCnt_apply, vec_kDst]
  rw [hA, hC]
  rfl

/-- Every weakly fair execution of the kernel program terminates, nothing faulting, with the result buffer at the network
    of the launch memory's argument arrays (one-pass variance) and every argument array as launched. -/
theorem kernel_value :
    θ_run (defs (F := Ideal)) (onTc (τ := τ) (main (F := Ideal))) ⟨m, fun _ => 0, ρ⟩ (fun r => ∀ c : Dev nD,
      r.2.mem ((c.tc : Thread nD τ).loc main_v39)
          = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c => ⟨(h c).1.trans (result_eq m ρ c), (h c).2⟩) (run_value m ρ)

end Cert.KernelIdeal.KValue

end
-- ==== Proof.RefRun.lean ====
/-
  The reference program as a straight line: its operations in order, the three outlined functions (the two-pass
  variance, the selection inside it, and the clamp at zero) written out at their calls over the calls' own buffers.
  The line is cut into ten consecutive stretches, one per stage of the network: the edge table's two rows; the first
  neighbour gather; the first segment mean; the first layer's products; the column mean; the two-pass variance; the
  normalisation and clamp; the second gather; the second segment mean; the second layer's products.
  Every execution of the program terminates with each buffer at the fold of the operations over the launch contents.
-/
import proofs.«152036_j35828617183789_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The edge table's two rows, each as a vector. -/
abbrev wA : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000 ]

/-- The source words wrapped, and the rows of the node table they name. -/
abbrev wG1 : List (HloOp τ sig (Elt F)) :=
  [ StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]

/-- The gathered rows summed into their destination segments, the segment sizes, and the quotient by the size floored at one. -/
abbrev wS1 : List (HloOp τ sig (Elt F)) :=
  [ StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_cst_1 (constant S_ .f32 0x3F800000#32),
    StableHlo.unary main_cst_1 main_v14 (broadcastInDim S1000000 ![] bcast_S_S1000000 : (⟨S_, .f32⟩ : BufTy).Contents (Elt F) → (⟨S1000000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v14 main_v17 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x64 ![0, 1] bcast_S100000x1_S100000x64_0_1 : (⟨S100000x1, .f32⟩ : BufTy).Contents (Elt F) → (⟨S100000x64, .f32⟩ : BufTy).Contents (Elt F)),
    StableHlo.binary main_v13 main_v21 main_v22 (Host.divf : (⟨S100000x64, .f32⟩ : BufTy).Contents (Elt F) → (⟨S100000x64, .f32⟩ : BufTy).Contents (Elt F) → (⟨S100000x64, .f32⟩ : BufTy).Contents (Elt F)) ]

/-- The first layer: two products and the bias. -/
abbrev wL1 : List (HloOp τ sig (Elt F)) :=
  [ StableHlo.binary main_v22 main_arg2 main_v23 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_arg0 main_arg3 main_v24 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_v23 main_v24 main_v25 (addf : (⟨S100000x128, .f32⟩ : BufTy).Contents (Elt F) → (⟨S100000x128, .f32⟩ : BufTy).Contents (Elt F) → (⟨S100000x128, .f32⟩ : BufTy).Contents (Elt F)),
    StableHlo.unary main_arg4 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v27 main_v28 (addf : (⟨S100000x128, .f32⟩ : BufTy).Contents (Elt F) → (⟨S100000x128, .f32⟩ : BufTy).Contents (Elt F) → (⟨S100000x128, .f32⟩ : BufTy).Contents (Elt F)) ]

/-- The column means of the first layer's result. -/
abbrev wM : List (HloOp τ sig (Elt F)) :=
  [ StableHlo.nullary main_cst_4 (constant S_ .f32 0x00000000#32),
    StableHlo.binary main_v28 main_cst_4 main_v29 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v30 (broadcastInDim S128 ![] bcast_S_S128 : (⟨S_, .f32⟩ : BufTy).Contents (Elt F) → (⟨S128, .f32⟩ : BufTy).Contents (Elt F)),
    StableHlo.binary main_v29 main_v30 main_v31 (Host.divf : (⟨S128, .f32⟩ : BufTy).Contents (Elt F) → (⟨S128, .f32⟩ : BufTy).Contents (Elt F) → (⟨S128, .f32⟩ : BufTy).Contents (Elt F)) ]

/-- The two-pass variance of the first layer's result, with its guard. -/
abbrev wV : List (HloOp τ sig (Elt F)) :=
  [ StableHlo.nullary main_c_6 (constantI S_ 32 0#32),
    TRef.nullary main_call0.cst (constant S_ .f32 0x00000000#32),
    TRef.binary (TRef.of (T := ⟨S100000x128, .f32⟩) main_v28) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (TRef.of (T := ⟨S100000x128, .f32⟩) main_v28) main_call0.v4 main_call0.v5 subf,
    TRef.binary main_call0.v5 main_call0.v5 main_call0.v6 mulf,
    TRef.unary (TRef.of (T := ⟨S_, .i32⟩) main_c_6) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The normalisation, scale, shift and clamp at zero. -/
abbrev wN : List (HloOp τ sig (Elt F)) :=
  [ StableHlo.unary main_v31 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v34 main_v35 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v36 (broadcastInDim S128 ![] bcast_S_S128 : (⟨S_, .f32⟩ : BufTy).Contents (Elt F) → (⟨S128, .f32⟩ : BufTy).Contents (Elt F)),
    StableHlo.binary main_v32 main_v36 main_v37 (addf : (⟨S128, .f32⟩ : BufTy).Contents (Elt F) → (⟨S128, .f32⟩ : BufTy).Contents (Elt F) → (⟨S128, .f32⟩ : BufTy).Contents (Elt F)),
    StableHlo.unary main_v37 main_v38 (Host.rsqrt : (⟨S128, .f32⟩ : BufTy).Contents (Elt F) → (⟨S128, .f32⟩ : BufTy).Contents (Elt F)),
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v40 main_v41 (mulf : (⟨S100000x128, .f32⟩ : BufTy).Contents (Elt F) → (⟨S100000x128, .f32⟩ : BufTy).Contents (Elt F) → (⟨S100000x128, .f32⟩ : BufTy).Contents (Elt F)),
    StableHlo.unary main_arg5 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (mulf : (⟨S100000x128, .f32⟩ : BufTy).Contents (Elt F) → (⟨S100000x128, .f32⟩ : BufTy).Contents (Elt F) → (⟨S100000x128, .f32⟩ : BufTy).Contents (Elt F)),
    StableHlo.unary main_arg6 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (TRef.of (T := ⟨S100000x128, .f32⟩) main_v47) main_call1.v0 main_call1.v1 maximumf ]

/-- The source words wrapped again, and the rows of the normalised table they name. -/
abbrev wG2 : List (HloOp τ sig (Elt F)) :=
  [ StableHlo.nullary main_c_8 (constantI S_ 32 0#32),
    StableHlo.unary main_c_8 main_v49 (broadcastInDim S1000000 ![] bcast_S_S1000000 : (⟨S_, .i32⟩ : BufTy).Contents (Elt F) → (⟨S1000000, .i32⟩ : BufTy).Contents (Elt F)),
    StableHlo.binary main_v1 main_v49 main_v50 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 100000#32),
    StableHlo.unary main_c_9 main_v51 (broadcastInDim S1000000 ![] bcast_S_S1000000 : (⟨S_, .i32⟩ : BufTy).Contents (Elt F) → (⟨S1000000, .i32⟩ : BufTy).Contents (Elt F)),
    StableHlo.binary main_v1 main_v51 main_v52 (addi : (⟨S1000000, .i32⟩ : BufTy).Contents (Elt F) → (⟨S1000000, .i32⟩ : BufTy).Contents (Elt F) → (⟨S1000000, .i32⟩ : BufTy).Contents (Elt F)),
    StableHlo.ternary main_v50 main_v52 main_v1 main_v53 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v53 main_v54 (broadcastInDim S1000000x1 ![0] bcast_S1000000_S1000000x1_0 : (⟨S1000000, .i32⟩ : BufTy).Contents (Elt F) → (⟨S1000000x1, .i32⟩ : BufTy).Contents (Elt F)),
    StableHlo.binary main_v48 main_v54 main_v55 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)) ]

/-- The second segment mean. -/
abbrev wS2 : List (HloOp τ sig (Elt F)) :=
  [ StableHlo.nullary main_cst_10 (constant S_ .f32 0x00000000#32),
    StableHlo.unary main_cst_10 main_v56 (broadcastInDim S100000x128 ![] bcast_S_S100000x128 : (⟨S_, .f32⟩ : BufTy).Contents (Elt F) → (⟨S100000x128, .f32⟩ : BufTy).Contents (Elt F)),
    StableHlo.unary main_v3 main_v57 (broadcastInDim S1000000x1 ![0] bcast_S1000000_S1000000x1_0 : (⟨S1000000, .i32⟩ : BufTy).Contents (Elt F) → (⟨S1000000x1, .i32⟩ : BufTy).Contents (Elt F)),
    StableHlo.ternary main_v56 main_v57 main_v55 main_v58 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_11 (constant S_ .f32 0x3F800000#32),
    StableHlo.unary main_cst_11 main_v59 (broadcastInDim S1000000 ![] bcast_S_S1000000 : (⟨S_, .f32⟩ : BufTy).Contents (Elt F) → (⟨S1000000, .f32⟩ : BufTy).Contents (Elt F)),
    StableHlo.nullary main_cst_12 (constant S_ .f32 0x00000000#32),
    StableHlo.unary main_cst_12 main_v60 (broadcastInDim S100000 ![] bcast_S_S100000 : (⟨S_, .f32⟩ : BufTy).Contents (Elt F) → (⟨S100000, .f32⟩ : BufTy).Contents (Elt F)),
    StableHlo.unary main_v3 main_v61 (broadcastInDim S1000000x1 ![0] bcast_S1000000_S1000000x1_0 : (⟨S1000000, .i32⟩ : BufTy).Contents (Elt F) → (⟨S1000000x1, .i32⟩ : BufTy).Contents (Elt F)),
    StableHlo.ternary main_v60 main_v61 main_v59 main_v62 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_13 (constant S_ .f32 0x3F800000#32),
    StableHlo.unary main_cst_13 main_v63 (broadcastInDim S100000 ![] bcast_S_S100000 : (⟨S_, .f32⟩ : BufTy).Contents (Elt F) → (⟨S100000, .f32⟩ : BufTy).Contents (Elt F)),
    StableHlo.binary main_v62 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (broadcastInDim S100000x1 ![0] bcast_S100000_S100000x1_0 : (⟨S100000, .f32⟩ : BufTy).Contents (Elt F) → (⟨S100000x1, .f32⟩ : BufTy).Contents (Elt F)),
    StableHlo.unary main_v65 main_v66 (broadcastInDim S100000x128 ![0, 1] bcast_S100000x1_S100000x128_0_1 : (⟨S100000x1, .f32⟩ : BufTy).Contents (Elt F) → (⟨S100000x128, .f32⟩ : BufTy).Contents (Elt F)),
    StableHlo.binary main_v58 main_v66 main_v67 (Host.divf : (⟨S100000x128, .f32⟩ : BufTy).Contents (Elt F) → (⟨S100000x128, .f32⟩ : BufTy).Contents (Elt F) → (⟨S100000x128, .f32⟩ : BufTy).Contents (Elt F)) ]

/-- The second layer: two products and the bias. -/
abbrev wL2 : List (HloOp τ sig (Elt F)) :=
  [ StableHlo.binary main_v67 main_arg7 main_v68 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    StableHlo.binary main_v48 main_arg8 main_v69 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    StableHlo.binary main_v68 main_v69 main_v70 (addf : (⟨S100000x2, .f32⟩ : BufTy).Contents (Elt F) → (⟨S100000x2, .f32⟩ : BufTy).Contents (Elt F) → (⟨S100000x2, .f32⟩ : BufTy).Contents (Elt F)),
    StableHlo.unary main_arg9 main_v71 (broadcastInDim S1x2 ![1] bcast_S2_S1x2_1 : (⟨S2, .f32⟩ : BufTy).Contents (Elt F) → (⟨S1x2, .f32⟩ : BufTy).Contents (Elt F)),
    StableHlo.unary main_v71 main_v72 (broadcastInDim S100000x2 ![0, 1] bcast_S1x2_S100000x2_0_1 : (⟨S1x2, .f32⟩ : BufTy).Contents (Elt F) → (⟨S100000x2, .f32⟩ : BufTy).Contents (Elt F)),
    StableHlo.binary main_v70 main_v72 main_v73 (addf : (⟨S100000x2, .f32⟩ : BufTy).Contents (Elt F) → (⟨S100000x2, .f32⟩ : BufTy).Contents (Elt F) → (⟨S100000x2, .f32⟩ : BufTy).Contents (Elt F)) ]

/-- The operations of the first part of the program (everything up to the zero word the second gather compares with). -/
abbrev opsP0 : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_cst_1 (constant S_ .f32 0x3F800000#32),
    StableHlo.unary main_cst_1 main_v14 (broadcastInDim S1000000 ![] bcast_S_S1000000 : (⟨S_, .f32⟩ : BufTy).Contents (Elt F) → (⟨S1000000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v14 main_v17 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x64 ![0, 1] bcast_S100000x1_S100000x64_0_1 : (⟨S100000x1, .f32⟩ : BufTy).Contents (Elt F) → (⟨S100000x64, .f32⟩ : BufTy).Contents (Elt F)),
    StableHlo.binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    StableHlo.binary main_v22 main_arg2 main_v23 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_arg0 main_arg3 main_v24 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_v23 main_v24 main_v25 (addf : (⟨S100000x128, .f32⟩ : BufTy).Contents (Elt F) → (⟨S100000x128, .f32⟩ : BufTy).Contents (Elt F) → (⟨S100000x128, .f32⟩ : BufTy).Contents (Elt F)),
    StableHlo.unary main_arg4 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v27 main_v28 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v28 main_cst_4 main_v29 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v30 (broadcastInDim S128 ![] bcast_S_S128 : (⟨S_, .f32⟩ : BufTy).Contents (Elt F) → (⟨S128, .f32⟩ : BufTy).Contents (Elt F)),
    StableHlo.binary main_v29 main_v30 main_v31 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    TRef.nullary main_call0.cst (constant S_ .f32 0x00000000#32),
    TRef.binary (TRef.of (T := ⟨S100000x128, .f32⟩) main_v28) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (TRef.of (T := ⟨S100000x128, .f32⟩) main_v28) main_call0.v4 main_call0.v5 subf,
    TRef.binary main_call0.v5 main_call0.v5 main_call0.v6 mulf,
    TRef.unary (TRef.of (T := ⟨S_, .i32⟩) main_c_6) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    StableHlo.unary main_v31 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v34 main_v35 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v36 (broadcastInDim S128 ![] bcast_S_S128 : (⟨S_, .f32⟩ : BufTy).Contents (Elt F) → (⟨S128, .f32⟩ : BufTy).Contents (Elt F)),
    StableHlo.binary main_v32 main_v36 main_v37 (addf : (⟨S128, .f32⟩ : BufTy).Contents (Elt F) → (⟨S128, .f32⟩ : BufTy).Contents (Elt F) → (⟨S128, .f32⟩ : BufTy).Contents (Elt F)),
    StableHlo.unary main_v37 main_v38 (Host.rsqrt : (⟨S128, .f32⟩ : BufTy).Contents (Elt F) → (⟨S128, .f32⟩ : BufTy).Contents (Elt F)),
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v40 main_v41 (mulf : (⟨S100000x128, .f32⟩ : BufTy).Contents (Elt F) → (⟨S100000x128, .f32⟩ : BufTy).Contents (Elt F) → (⟨S100000x128, .f32⟩ : BufTy).Contents (Elt F)),
    StableHlo.unary main_arg5 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (mulf : (⟨S100000x128, .f32⟩ : BufTy).Contents (Elt F) → (⟨S100000x128, .f32⟩ : BufTy).Contents (Elt F) → (⟨S100000x128, .f32⟩ : BufTy).Contents (Elt F)),
    StableHlo.unary main_arg6 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (TRef.of (T := ⟨S100000x128, .f32⟩) main_v47) main_call1.v0 main_call1.v1 maximumf,
    StableHlo.nullary main_c_8 (constantI S_ 32 0#32) ]

/-- The operations of the second part. -/
abbrev opsP1 : List (HloOp τ sig (Elt F)) :=
  [ StableHlo.unary main_c_8 main_v49 (broadcastInDim S1000000 ![] bcast_S_S1000000 : (⟨S_, .i32⟩ : BufTy).Contents (Elt F) → (⟨S1000000, .i32⟩ : BufTy).Contents (Elt F)),
    StableHlo.binary main_v1 main_v49 main_v50 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 100000#32),
    StableHlo.unary main_c_9 main_v51 (broadcastInDim S1000000 ![] bcast_S_S1000000 : (⟨S_, .i32⟩ : BufTy).Contents (Elt F) → (⟨S1000000, .i32⟩ : BufTy).Contents (Elt F)),
    StableHlo.binary main_v1 main_v51 main_v52 (addi : (⟨S1000000, .i32⟩ : BufTy).Contents (Elt F) → (⟨S1000000, .i32⟩ : BufTy).Contents (Elt F) → (⟨S1000000, .i32⟩ : BufTy).Contents (Elt F)),
    StableHlo.ternary main_v50 main_v52 main_v1 main_v53 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v53 main_v54 (broadcastInDim S1000000x1 ![0] bcast_S1000000_S1000000x1_0 : (⟨S1000000, .i32⟩ : BufTy).Contents (Elt F) → (⟨S1000000x1, .i32⟩ : BufTy).Contents (Elt F)),
    StableHlo.binary main_v48 main_v54 main_v55 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst_10 (constant S_ .f32 0x00000000#32),
    StableHlo.unary main_cst_10 main_v56 (broadcastInDim S100000x128 ![] bcast_S_S100000x128 : (⟨S_, .f32⟩ : BufTy).Contents (Elt F) → (⟨S100000x128, .f32⟩ : BufTy).Contents (Elt F)),
    StableHlo.unary main_v3 main_v57 (broadcastInDim S1000000x1 ![0] bcast_S1000000_S1000000x1_0 : (⟨S1000000, .i32⟩ : BufTy).Contents (Elt F) → (⟨S1000000x1, .i32⟩ : BufTy).Contents (Elt F)),
    StableHlo.ternary main_v56 main_v57 main_v55 main_v58 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_11 (constant S_ .f32 0x3F800000#32),
    StableHlo.unary main_cst_11 main_v59 (broadcastInDim S1000000 ![] bcast_S_S1000000 : (⟨S_, .f32⟩ : BufTy).Contents (Elt F) → (⟨S1000000, .f32⟩ : BufTy).Contents (Elt F)),
    StableHlo.nullary main_cst_12 (constant S_ .f32 0x00000000#32),
    StableHlo.unary main_cst_12 main_v60 (broadcastInDim S100000 ![] bcast_S_S100000 : (⟨S_, .f32⟩ : BufTy).Contents (Elt F) → (⟨S100000, .f32⟩ : BufTy).Contents (Elt F)),
    StableHlo.unary main_v3 main_v61 (broadcastInDim S1000000x1 ![0] bcast_S1000000_S1000000x1_0 : (⟨S1000000, .i32⟩ : BufTy).Contents (Elt F) → (⟨S1000000x1, .i32⟩ : BufTy).Contents (Elt F)),
    StableHlo.ternary main_v60 main_v61 main_v59 main_v62 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_13 (constant S_ .f32 0x3F800000#32),
    StableHlo.unary main_cst_13 main_v63 (broadcastInDim S100000 ![] bcast_S_S100000 : (⟨S_, .f32⟩ : BufTy).Contents (Elt F) → (⟨S100000, .f32⟩ : BufTy).Contents (Elt F)),
    StableHlo.binary main_v62 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (broadcastInDim S100000x1 ![0] bcast_S100000_S100000x1_0 : (⟨S100000, .f32⟩ : BufTy).Contents (Elt F) → (⟨S100000x1, .f32⟩ : BufTy).Contents (Elt F)),
    StableHlo.unary main_v65 main_v66 (broadcastInDim S100000x128 ![0, 1] bcast_S100000x1_S100000x128_0_1 : (⟨S100000x1, .f32⟩ : BufTy).Contents (Elt F) → (⟨S100000x128, .f32⟩ : BufTy).Contents (Elt F)),
    StableHlo.binary main_v58 main_v66 main_v67 (Host.divf : (⟨S100000x128, .f32⟩ : BufTy).Contents (Elt F) → (⟨S100000x128, .f32⟩ : BufTy).Contents (Elt F) → (⟨S100000x128, .f32⟩ : BufTy).Contents (Elt F)),
    StableHlo.binary main_v67 main_arg7 main_v68 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    StableHlo.binary main_v48 main_arg8 main_v69 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    StableHlo.binary main_v68 main_v69 main_v70 (addf : (⟨S100000x2, .f32⟩ : BufTy).Contents (Elt F) → (⟨S100000x2, .f32⟩ : BufTy).Contents (Elt F) → (⟨S100000x2, .f32⟩ : BufTy).Contents (Elt F)),
    StableHlo.unary main_arg9 main_v71 (broadcastInDim S1x2 ![1] bcast_S2_S1x2_1 : (⟨S2, .f32⟩ : BufTy).Contents (Elt F) → (⟨S1x2, .f32⟩ : BufTy).Contents (Elt F)),
    StableHlo.unary main_v71 main_v72 (broadcastInDim S100000x2 ![0, 1] bcast_S1x2_S100000x2_0_1 : (⟨S1x2, .f32⟩ : BufTy).Contents (Elt F) → (⟨S100000x2, .f32⟩ : BufTy).Contents (Elt F)),
    StableHlo.binary main_v70 main_v72 main_v73 (addf : (⟨S100000x2, .f32⟩ : BufTy).Contents (Elt F) → (⟨S100000x2, .f32⟩ : BufTy).Contents (Elt F) → (⟨S100000x2, .f32⟩ : BufTy).Contents (Elt F)) ]

/-- All the operations, stretch by stretch. -/
abbrev ops : List (HloOp τ sig (Elt F)) :=
  wA ++ (wG1 ++ (wS1 ++ (wL1 ++ (wM ++ (wV ++ (wN ++ (wG2 ++ (wS2 ++ wL2))))))))

/-- The two parts one after the other are the ten stretches one after the other. -/
theorem ops_eq : (opsP0 ++ opsP1 : List (HloOp τ sig (Elt F))) = ops := rfl

set_option maxRecDepth 8192 in
set_option maxHeartbeats 4000000 in
/-- The first part is its operations in a line: the outlined functions unfold at their calls. -/
theorem part0_eq (c : Dev nD) : main_part0 (F := F) c = seq opsP0 := by
  simp only [main_part0, fn_var.body, fn_where.body, fn_relu.body, seq, bind_assoc, pure_bind]
  rfl

set_option maxRecDepth 8192 in
set_option maxHeartbeats 4000000 in
/-- The second part is its operations in a line. -/
theorem part1_eq (c : Dev nD) : main_part1 (F := F) c = seq opsP1 := rfl

/-- The program is the whole line. -/
theorem main_eq (c : Dev nD) : main (F := F) c = seq ops := by
  rw [← ops_eq, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem wA_sub : (wA : List (HloOp τ sig (Elt F))).Forall fun op => op.bufs ⊆ tcRefs τ sig :=
  ⟨unary_bufs_sub .., reshape_bufs_sub .., unary_bufs_sub .., reshape_bufs_sub ..⟩
theorem wA_fresh : ∀ op ∈ (wA : List (HloOp τ sig (Elt F))), op.fresh = ∅ := by
  intro _ h; (repeat (cases h with | head => rfl | tail _ h => ?_)); exact nomatch h

theorem wG1_sub : (wG1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem wG1_fresh : ∀ op ∈ (wG1 : List (HloOp τ sig (Elt F))), op.fresh = ∅ := by
  intro _ h; (repeat (cases h with | head => rfl | tail _ h => ?_)); exact nomatch h

theorem wS1_sub : (wS1 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem wS1_fresh : ∀ op ∈ (wS1 : List (HloOp τ sig (Elt F))), op.fresh = ∅ := by
  intro _ h; (repeat (cases h with | head => rfl | tail _ h => ?_)); exact nomatch h

theorem wL1_sub : (wL1 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem wL1_fresh : ∀ op ∈ (wL1 : List (HloOp τ sig (Elt F))), op.fresh = ∅ := by
  intro _ h; (repeat (cases h with | head => rfl | tail _ h => ?_)); exact nomatch h

theorem wM_sub : (wM : List (HloOp τ sig (Elt F))).Forall fun op => op.bufs ⊆ tcRefs τ sig :=
  ⟨nullary_bufs_sub .., binary_bufs_sub .., nullary_bufs_sub .., unary_bufs_sub .., binary_bufs_sub ..⟩
theorem wM_fresh : ∀ op ∈ (wM : List (HloOp τ sig (Elt F))), op.fresh = ∅ := by
  intro _ h; (repeat (cases h with | head => rfl | tail _ h => ?_)); exact nomatch h

theorem wV_sub : (wV : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem wV_fresh : ∀ op ∈ (wV : List (HloOp τ sig (Elt F))), op.fresh = ∅ := by
  intro _ h; (repeat (cases h with | head => rfl | tail _ h => ?_)); exact nomatch h

theorem wN_sub : (wN : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem wN_fresh : ∀ op ∈ (wN : List (HloOp τ sig (Elt F))), op.fresh = ∅ := by
  intro _ h; (repeat (cases h with | head => rfl | tail _ h => ?_)); exact nomatch h

theorem wG2_sub : (wG2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem wG2_fresh : ∀ op ∈ (wG2 : List (HloOp τ sig (Elt F))), op.fresh = ∅ := by
  intro _ h; (repeat (cases h with | head => rfl | tail _ h => ?_)); exact nomatch h

theorem wS2_sub : (wS2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem wS2_fresh : ∀ op ∈ (wS2 : List (HloOp τ sig (Elt F))), op.fresh = ∅ := by
  intro _ h; (repeat (cases h with | head => rfl | tail _ h => ?_)); exact nomatch h

theorem wL2_sub : (wL2 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem wL2_fresh : ∀ op ∈ (wL2 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp wA_sub op h, List.forall_iff_forall_mem.mp wG1_sub op h, List.forall_iff_forall_mem.mp wS1_sub op h, List.forall_iff_forall_mem.mp wL1_sub op h, List.forall_iff_forall_mem.mp wM_sub op h, List.forall_iff_forall_mem.mp wV_sub op h, List.forall_iff_forall_mem.mp wN_sub op h, List.forall_iff_forall_mem.mp wG2_sub op h, List.forall_iff_forall_mem.mp wS2_sub op h, List.forall_iff_forall_mem.mp wL2_sub op h]

theorem ops_fresh : ∀ op ∈ (ops : List (HloOp τ sig (Elt F))), op.fresh = ∅ := by
  intro op h
  simp only [ops, List.mem_append] at h
  rcases h with h | h | h | h | h | h | h | h | h | h
  exacts [wA_fresh op h, wG1_fresh op h, wS1_fresh op h, wL1_fresh op h, wM_fresh op h, wV_fresh op h, wN_fresh op h, wG2_fresh op h, wS2_fresh op h, wL2_fresh op h]

/-- The fold over two lists in a row is the fold over the second from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold over the whole line, stretch by stretch. -/
theorem after_ops (V : Valuation τ sig (Elt F)) :
    after ops V = after wL2 (after wS2 (after wG2 (after wN (after wV (after wM (after wL1 (after wS1 (after wG1 (after wA V))))))))) := by
  simp only [ops, after_app]

/-- From any memory with zero counters every weakly fair execution of the program terminates, and each buffer of each
    device ends at the fold of the operations over what the device held at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStage.lean ====
/-
  The reference program's ten stretches as functions of arrays: each takes the arrays its stretch reads and returns
  the array the later stretches use, operation by operation in the program's order.
-/
import proofs.«152036_j35828617183789_1_alg».proof.ReferenceIdeal

noncomputable section

namespace Cert.ReferenceIdeal.RefStage

open Cert.ReferenceIdeal Idealize.ShloMosaic

variable {F : FTy → Type} [FloatOps F] [Facts]
open Facts₀ Facts

/-- The edge table's first row as a vector: the source words. -/
def stSrc (arg1 : (⟨S2x1000000, .i32⟩ : BufTy).Contents (Elt F)) : (⟨S1000000, .i32⟩ : BufTy).Contents (Elt F) :=
  let v0 : (⟨S1x1000000, .i32⟩ : BufTy).Contents (Elt F) := ((extractStridedSlice S1x1000000 ![0, 0] · slices_S2x1000000_S1x1000000_0_0) : (⟨S2x1000000, .i32⟩ : BufTy).Contents (Elt F) → (⟨S1x1000000, .i32⟩ : BufTy).Contents (Elt F)) arg1
  shapeCast S1000000 v0 shapeCasts_S1x1000000_S1000000

/-- The edge table's second row as a vector: the destination words. -/
def stDst (arg1 : (⟨S2x1000000, .i32⟩ : BufTy).Contents (Elt F)) : (⟨S1000000, .i32⟩ : BufTy).Contents (Elt F) :=
  let v2 : (⟨S1x1000000, .i32⟩ : BufTy).Contents (Elt F) := ((extractStridedSlice S1x1000000 ![1, 0] · slices_S2x1000000_S1x1000000_1_0) : (⟨S2x1000000, .i32⟩ : BufTy).Contents (Elt F) → (⟨S1x1000000, .i32⟩ : BufTy).Contents (Elt F)) arg1
  shapeCast S1000000 v2 shapeCasts_S1x1000000_S1000000

/-- The rows of the node table that the wrapped source words name. -/
def stG1 (v1 : (⟨S1000000, .i32⟩ : BufTy).Contents (Elt F)) (arg0 : (⟨S100000x64, .f32⟩ : BufTy).Contents (Elt F)) : (⟨S1000000x64, .f32⟩ : BufTy).Contents (Elt F) :=
  let c : (⟨S_, .i32⟩ : BufTy).Contents (Elt F) := (constantI S_ 32 0#32)
  let v4 : (⟨S1000000, .i32⟩ : BufTy).Contents (Elt F) := (broadcastInDim S1000000 ![] bcast_S_S1000000 : (⟨S_, .i32⟩ : BufTy).Contents (Elt F) → (⟨S1000000, .i32⟩ : BufTy).Contents (Elt F)) c
  let v5 : (⟨S1000000, .i1⟩ : BufTy).Contents (Elt F) := (cmpi .slt : (⟨S1000000, .i32⟩ : BufTy).Contents (Elt F) → (⟨S1000000, .i32⟩ : BufTy).Contents (Elt F) → (⟨S1000000, .i1⟩ : BufTy).Contents (Elt F)) v1 v4
  let c_0 : (⟨S_, .i32⟩ : BufTy).Contents (Elt F) := (constantI S_ 32 100000#32)
  let v6 : (⟨S1000000, .i32⟩ : BufTy).Contents (Elt F) := (broadcastInDim S1000000 ![] bcast_S_S1000000 : (⟨S_, .i32⟩ : BufTy).Contents (Elt F) → (⟨S1000000, .i32⟩ : BufTy).Contents (Elt F)) c_0
  let v7 : (⟨S1000000, .i32⟩ : BufTy).Contents (Elt F) := (addi : (⟨S1000000, .i32⟩ : BufTy).Contents (Elt F) → (⟨S1000000, .i32⟩ : BufTy).Contents (Elt F) → (⟨S1000000, .i32⟩ : BufTy).Contents (Elt F)) v1 v6
  let v8 : (⟨S1000000, .i32⟩ : BufTy).Contents (Elt F) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) v5 v7 v1
  let v9 : (⟨S1000000x1, .i32⟩ : BufTy).Contents (Elt F) := (broadcastInDim S1000000x1 ![0] bcast_S1000000_S1000000x1_0 : (⟨S1000000, .i32⟩ : BufTy).Contents (Elt F) → (⟨S1000000x1, .i32⟩ : BufTy).Contents (Elt F)) v8
  ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) arg0 v9

/-- The gathered rows summed into their destination segments, over the segment size floored at one. -/
def stS1 (v3 : (⟨S1000000, .i32⟩ : BufTy).Contents (Elt F)) (v10 : (⟨S1000000x64, .f32⟩ : BufTy).Contents (Elt F)) : (⟨S100000x64, .f32⟩ : BufTy).Contents (Elt F) :=
  let cst : (⟨S_, .f32⟩ : BufTy).Contents (Elt F) := (constant S_ .f32 0x00000000#32)
  let v11 : (⟨S100000x64, .f32⟩ : BufTy).Contents (Elt F) := (broadcastInDim S100000x64 ![] bcast_S_S100000x64 : (⟨S_, .f32⟩ : BufTy).Contents (Elt F) → (⟨S100000x64, .f32⟩ : BufTy).Contents (Elt F)) cst
  let v12 : (⟨S1000000x1, .i32⟩ : BufTy).Contents (Elt F) := (broadcastInDim S1000000x1 ![0] bcast_S1000000_S1000000x1_0 : (⟨S1000000, .i32⟩ : BufTy).Contents (Elt F) → (⟨S1000000x1, .i32⟩ : BufTy).Contents (Elt F)) v3
  let v13 : (⟨S100000x64, .f32⟩ : BufTy).Contents (Elt F) := ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) v11 v12 v10
  let cst_1 : (⟨S_, .f32⟩ : BufTy).Contents (Elt F) := (constant S_ .f32 0x3F800000#32)
  let v14 : (⟨S1000000, .f32⟩ : BufTy).Contents (Elt F) := (broadcastInDim S1000000 ![] bcast_S_S1000000 : (⟨S_, .f32⟩ : BufTy).Contents (Elt F) → (⟨S1000000, .f32⟩ : BufTy).Contents (Elt F)) cst_1
  let cst_2 : (⟨S_, .f32⟩ : BufTy).Contents (Elt F) := (constant S_ .f32 0x00000000#32)
  let v15 : (⟨S100000, .f32⟩ : BufTy).Contents (Elt F) := (broadcastInDim S100000 ![] bcast_S_S100000 : (⟨S_, .f32⟩ : BufTy).Contents (Elt F) → (⟨S100000, .f32⟩ : BufTy).Contents (Elt F)) cst_2
  let v16 : (⟨S1000000x1, .i32⟩ : BufTy).Contents (Elt F) := (broadcastInDim S1000000x1 ![0] bcast_S1000000_S1000000x1_0 : (⟨S1000000, .i32⟩ : BufTy).Contents (Elt F) → (⟨S1000000x1, .i32⟩ : BufTy).Contents (Elt F)) v3
  let v17 : (⟨S100000, .f32⟩ : BufTy).Contents (Elt F) := ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) v15 v16 v14
  let cst_3 : (⟨S_, .f32⟩ : BufTy).Contents (Elt F) := (constant S_ .f32 0x3F800000#32)
  let v18 : (⟨S100000, .f32⟩ : BufTy).Contents (Elt F) := (broadcastInDim S100000 ![] bcast_S_S100000 : (⟨S_, .f32⟩ : BufTy).Contents (Elt F) → (⟨S100000, .f32⟩ : BufTy).Contents (Elt F)) cst_3
  let v19 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v17 v18
  let v20 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v19
  let v21 : (⟨S100000x64, .f32⟩ : BufTy).Contents (Elt F) := (broadcastInDim S100000x64 ![0, 1] bcast_S100000x1_S100000x64_0_1 : (⟨S100000x1, .f32⟩ : BufTy).Contents (Elt F) → (⟨S100000x64, .f32⟩ : BufTy).Contents (Elt F)) v20
  (Host.divf : (⟨S100000x64, .f32⟩ : BufTy).Contents (Elt F) → (⟨S100000x64, .f32⟩ : BufTy).Contents (Elt F) → (⟨S100000x64, .f32⟩ : BufTy).Contents (Elt F)) v13 v21

/-- The first layer: the neighbour mean through one matrix, the table through the other, the bias. -/
def stL1 (v22 : (⟨S100000x64, .f32⟩ : BufTy).Contents (Elt F)) (arg2 : (⟨S64x128, .f32⟩ : BufTy).Contents (Elt F)) (arg0 : (⟨S100000x64, .f32⟩ : BufTy).Contents (Elt F)) (arg3 : (⟨S64x128, .f32⟩ : BufTy).Contents (Elt F)) (arg4 : (⟨S128, .f32⟩ : BufTy).Contents (Elt F)) : (⟨S100000x128, .f32⟩ : BufTy).Contents (Elt F) :=
  let v23 : (⟨S100000x128, .f32⟩ : BufTy).Contents (Elt F) := ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)) v22 arg2
  let v24 : (⟨S100000x128, .f32⟩ : BufTy).Contents (Elt F) := ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)) arg0 arg3
  let v25 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) v23 v24
  let v26 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) arg4
  let v27 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v26
  (addf : (⟨S100000x128, .f32⟩ : BufTy).Contents (Elt F) → (⟨S100000x128, .f32⟩ : BufTy).Contents (Elt F) → (⟨S100000x128, .f32⟩ : BufTy).Contents (Elt F)) v25 v27

/-- The column means. -/
def stM (v28 : (⟨S100000x128, .f32⟩ : BufTy).Contents (Elt F)) : (⟨S128, .f32⟩ : BufTy).Contents (Elt F) :=
  let cst_4 : (⟨S_, .f32⟩ : BufTy).Contents (Elt F) := (constant S_ .f32 0x00000000#32)
  let v29 : (⟨S128, .f32⟩ : BufTy).Contents (Elt F) := ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) v28 cst_4
  let cst_5 : (⟨S_, .f32⟩ : BufTy).Contents (Elt F) := (constant S_ .f32 0x47C35000#32)
  let v30 : (⟨S128, .f32⟩ : BufTy).Contents (Elt F) := (broadcastInDim S128 ![] bcast_S_S128 : (⟨S_, .f32⟩ : BufTy).Contents (Elt F) → (⟨S128, .f32⟩ : BufTy).Contents (Elt F)) cst_5
  (Host.divf : (⟨S128, .f32⟩ : BufTy).Contents (Elt F) → (⟨S128, .f32⟩ : BufTy).Contents (Elt F) → (⟨S128, .f32⟩ : BufTy).Contents (Elt F)) v29 v30

/-- The two-pass variance of the columns, behind its guard. -/
def stV (v28 : (⟨S100000x128, .f32⟩ : BufTy).Contents (Elt F)) : (⟨S128, .f32⟩ : BufTy).Contents (Elt F) :=
  let c_6 : (⟨S_, .i32⟩ : BufTy).Contents (Elt F) := (constantI S_ 32 0#32)
  let call0_cst : (⟨S_, .f32⟩ : BufTy).Contents (Elt F) := (constant S_ .f32 0x00000000#32)
  let call0_v0 : (⟨S128, .f32⟩ : BufTy).Contents (Elt F) := (fun x v => Host.reduceAdd x v reducesTo_S100000x128_S128_d0 h_S_) v28 call0_cst
  let call0_v1 : (⟨S1x128, .f32⟩ : BufTy).Contents (Elt F) := (broadcastInDim S1x128 ![1] bcast_S128_S1x128_1) call0_v0
  let call0_cst_0 : (⟨S_, .f32⟩ : BufTy).Contents (Elt F) := (constant S_ .f32 0x47C35000#32)
  let call0_v2 : (⟨S1x128, .f32⟩ : BufTy).Contents (Elt F) := (broadcastInDim S1x128 ![] bcast_S_S1x128) call0_cst_0
  let call0_v3 : (⟨S1x128, .f32⟩ : BufTy).Contents (Elt F) := Host.divf call0_v1 call0_v2
  let call0_v4 : (⟨S100000x128, .f32⟩ : BufTy).Contents (Elt F) := (broadcastInDim S100000x128 ![0, 1] bcast_S1x128_S100000x128_0_1) call0_v3
  let call0_v5 : (⟨S100000x128, .f32⟩ : BufTy).Contents (Elt F) := subf v28 call0_v4
  let call0_v6 : (⟨S100000x128, .f32⟩ : BufTy).Contents (Elt F) := mulf call0_v5 call0_v5
  let call0_v7 : (⟨S_, .f32⟩ : BufTy).Contents (Elt F) := (sitofp .f32) c_6
  let call0_cst_1 : (⟨S_, .f32⟩ : BufTy).Contents (Elt F) := (constant S_ .f32 0x47C35000#32)
  let call0_v8 : (⟨S_, .f32⟩ : BufTy).Contents (Elt F) := subf call0_cst_1 call0_v7
  let call0_cst_2 : (⟨S_, .f32⟩ : BufTy).Contents (Elt F) := (constant S_ .f32 0x00000000#32)
  let call0_v9 : (⟨S128, .f32⟩ : BufTy).Contents (Elt F) := (fun x v => Host.reduceAdd x v reducesTo_S100000x128_S128_d0 h_S_) call0_v6 call0_cst_2
  let call0_v10 : (⟨S128, .f32⟩ : BufTy).Contents (Elt F) := (broadcastInDim S128 ![] bcast_S_S128) call0_v8
  let call0_v11 : (⟨S128, .f32⟩ : BufTy).Contents (Elt F) := Host.divf call0_v9 call0_v10
  let call0_cst_3 : (⟨S_, .f32⟩ : BufTy).Contents (Elt F) := (constant S_ .f32 0x00000000#32)
  let call0_v12 : (⟨S_, .i1⟩ : BufTy).Contents (Elt F) := (cmpf .ogt) call0_v8 call0_cst_3
  let call0_cst_4 : (⟨S_, .f32⟩ : BufTy).Contents (Elt F) := (constant S_ .f32 0x7FC00000#32)
  let call0_call0_v0 : (⟨S_, .f32⟩ : BufTy).Contents (Elt F) := id call0_cst_4
  let call0_call0_v1 : (⟨S128, .f32⟩ : BufTy).Contents (Elt F) := (broadcastInDim S128 ![] bcast_S_S128) call0_call0_v0
  (fun p a b => select (broadcastInDim S128 ![] bcast_S_S128 p) a b) call0_v12 call0_v11 call0_call0_v1

/-- The columns normalised, scaled, shifted and clamped below at zero. -/
def stN (v31 : (⟨S128, .f32⟩ : BufTy).Contents (Elt F)) (v28 : (⟨S100000x128, .f32⟩ : BufTy).Contents (Elt F)) (v32 : (⟨S128, .f32⟩ : BufTy).Contents (Elt F)) (arg5 : (⟨S128, .f32⟩ : BufTy).Contents (Elt F)) (arg6 : (⟨S128, .f32⟩ : BufTy).Contents (Elt F)) : (⟨S100000x128, .f32⟩ : BufTy).Contents (Elt F) :=
  let v33 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) v31
  let v34 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v33
  let v35 : (⟨S100000x128, .f32⟩ : BufTy).Contents (Elt F) := (subf : (⟨S100000x128, .f32⟩ : BufTy).Contents (Elt F) → (⟨S100000x128, .f32⟩ : BufTy).Contents (Elt F) → (⟨S100000x128, .f32⟩ : BufTy).Contents (Elt F)) v28 v34
  let cst_7 : (⟨S_, .f32⟩ : BufTy).Contents (Elt F) := (constant S_ .f32 0x3727C5AC#32)
  let v36 : (⟨S128, .f32⟩ : BufTy).Contents (Elt F) := (broadcastInDim S128 ![] bcast_S_S128 : (⟨S_, .f32⟩ : BufTy).Contents (Elt F) → (⟨S128, .f32⟩ : BufTy).Contents (Elt F)) cst_7
  let v37 : (⟨S128, .f32⟩ : BufTy).Contents (Elt F) := (addf : (⟨S128, .f32⟩ : BufTy).Contents (Elt F) → (⟨S128, .f32⟩ : BufTy).Contents (Elt F) → (⟨S128, .f32⟩ : BufTy).Contents (Elt F)) v32 v36
  let v38 : (⟨S128, .f32⟩ : BufTy).Contents (Elt F) := (Host.rsqrt : (⟨S128, .f32⟩ : BufTy).Contents (Elt F) → (⟨S128, .f32⟩ : BufTy).Contents (Elt F)) v37
  let v39 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) v38
  let v40 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v39
  let v41 : (⟨S100000x128, .f32⟩ : BufTy).Contents (Elt F) := (mulf : (⟨S100000x128, .f32⟩ : BufTy).Contents (Elt F) → (⟨S100000x128, .f32⟩ : BufTy).Contents (Elt F) → (⟨S100000x128, .f32⟩ : BufTy).Contents (Elt F)) v35 v40
  let v42 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) arg5
  let v43 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v42
  let v44 : (⟨S100000x128, .f32⟩ : BufTy).Contents (Elt F) := (mulf : (⟨S100000x128, .f32⟩ : BufTy).Contents (Elt F) → (⟨S100000x128, .f32⟩ : BufTy).Contents (Elt F) → (⟨S100000x128, .f32⟩ : BufTy).Contents (Elt F)) v41 v43
  let v45 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) arg6
  let v46 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v45
  let v47 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) v44 v46
  let call1_cst : (⟨S_, .f32⟩ : BufTy).Contents (Elt F) := (constant S_ .f32 0x00000000#32)
  let call1_v0 : (⟨S100000x128, .f32⟩ : BufTy).Contents (Elt F) := (broadcastInDim S100000x128 ![] bcast_S_S100000x128) call1_cst
  maximumf v47 call1_v0

/-- The rows of the normalised table that the wrapped source words name. -/
def stG2 (v1 : (⟨S1000000, .i32⟩ : BufTy).Contents (Elt F)) (v48 : (⟨S100000x128, .f32⟩ : BufTy).Contents (Elt F)) : (⟨S1000000x128, .f32⟩ : BufTy).Contents (Elt F) :=
  let c_8 : (⟨S_, .i32⟩ : BufTy).Contents (Elt F) := (constantI S_ 32 0#32)
  let v49 : (⟨S1000000, .i32⟩ : BufTy).Contents (Elt F) := (broadcastInDim S1000000 ![] bcast_S_S1000000 : (⟨S_, .i32⟩ : BufTy).Contents (Elt F) → (⟨S1000000, .i32⟩ : BufTy).Contents (Elt F)) c_8
  let v50 : (⟨S1000000, .i1⟩ : BufTy).Contents (Elt F) := (cmpi .slt : (⟨S1000000, .i32⟩ : BufTy).Contents (Elt F) → (⟨S1000000, .i32⟩ : BufTy).Contents (Elt F) → (⟨S1000000, .i1⟩ : BufTy).Contents (Elt F)) v1 v49
  let c_9 : (⟨S_, .i32⟩ : BufTy).Contents (Elt F) := (constantI S_ 32 100000#32)
  let v51 : (⟨S1000000, .i32⟩ : BufTy).Contents (Elt F) := (broadcastInDim S1000000 ![] bcast_S_S1000000 : (⟨S_, .i32⟩ : BufTy).Contents (Elt F) → (⟨S1000000, .i32⟩ : BufTy).Contents (Elt F)) c_9
  let v52 : (⟨S1000000, .i32⟩ : BufTy).Contents (Elt F) := (addi : (⟨S1000000, .i32⟩ : BufTy).Contents (Elt F) → (⟨S1000000, .i32⟩ : BufTy).Contents (Elt F) → (⟨S1000000, .i32⟩ : BufTy).Contents (Elt F)) v1 v51
  let v53 : (⟨S1000000, .i32⟩ : BufTy).Contents (Elt F) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) v50 v52 v1
  let v54 : (⟨S1000000x1, .i32⟩ : BufTy).Contents (Elt F) := (broadcastInDim S1000000x1 ![0] bcast_S1000000_S1000000x1_0 : (⟨S1000000, .i32⟩ : BufTy).Contents (Elt F) → (⟨S1000000x1, .i32⟩ : BufTy).Contents (Elt F)) v53
  ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)) v48 v54

/-- The second segment mean. -/
def stS2 (v3 : (⟨S1000000, .i32⟩ : BufTy).Contents (Elt F)) (v55 : (⟨S1000000x128, .f32⟩ : BufTy).Contents (Elt F)) : (⟨S100000x128, .f32⟩ : BufTy).Contents (Elt F) :=
  let cst_10 : (⟨S_, .f32⟩ : BufTy).Contents (Elt F) := (constant S_ .f32 0x00000000#32)
  let v56 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_10
  let v57 : (⟨S1000000x1, .i32⟩ : BufTy).Contents (Elt F) := (broadcastInDim S1000000x1 ![0] bcast_S1000000_S1000000x1_0 : (⟨S1000000, .i32⟩ : BufTy).Contents (Elt F) → (⟨S1000000x1, .i32⟩ : BufTy).Contents (Elt F)) v3
  let v58 : (⟨S100000x128, .f32⟩ : BufTy).Contents (Elt F) := ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)) v56 v57 v55
  let cst_11 : (⟨S_, .f32⟩ : BufTy).Contents (Elt F) := (constant S_ .f32 0x3F800000#32)
  let v59 : (⟨S1000000, .f32⟩ : BufTy).Contents (Elt F) := (broadcastInDim S1000000 ![] bcast_S_S1000000 : (⟨S_, .f32⟩ : BufTy).Contents (Elt F) → (⟨S1000000, .f32⟩ : BufTy).Contents (Elt F)) cst_11
  let cst_12 : (⟨S_, .f32⟩ : BufTy).Contents (Elt F) := (constant S_ .f32 0x00000000#32)
  let v60 : (⟨S100000, .f32⟩ : BufTy).Contents (Elt F) := (broadcastInDim S100000 ![] bcast_S_S100000 : (⟨S_, .f32⟩ : BufTy).Contents (Elt F) → (⟨S100000, .f32⟩ : BufTy).Contents (Elt F)) cst_12
  let v61 : (⟨S1000000x1, .i32⟩ : BufTy).Contents (Elt F) := (broadcastInDim S1000000x1 ![0] bcast_S1000000_S1000000x1_0 : (⟨S1000000, .i32⟩ : BufTy).Contents (Elt F) → (⟨S1000000x1, .i32⟩ : BufTy).Contents (Elt F)) v3
  let v62 : (⟨S100000, .f32⟩ : BufTy).Contents (Elt F) := ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) v60 v61 v59
  let cst_13 : (⟨S_, .f32⟩ : BufTy).Contents (Elt F) := (constant S_ .f32 0x3F800000#32)
  let v63 : (⟨S100000, .f32⟩ : BufTy).Contents (Elt F) := (broadcastInDim S100000 ![] bcast_S_S100000 : (⟨S_, .f32⟩ : BufTy).Contents (Elt F) → (⟨S100000, .f32⟩ : BufTy).Contents (Elt F)) cst_13
  let v64 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v62 v63
  let v65 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v64
  let v66 : (⟨S100000x128, .f32⟩ : BufTy).Contents (Elt F) := (broadcastInDim S100000x128 ![0, 1] bcast_S100000x1_S100000x128_0_1 : (⟨S100000x1, .f32⟩ : BufTy).Contents (Elt F) → (⟨S100000x128, .f32⟩ : BufTy).Contents (Elt F)) v65
  (Host.divf : (⟨S100000x128, .f32⟩ : BufTy).Contents (Elt F) → (⟨S100000x128, .f32⟩ : BufTy).Contents (Elt F) → (⟨S100000x128, .f32⟩ : BufTy).Contents (Elt F)) v58 v66

/-- The second layer. -/
def stL2 (v67 : (⟨S100000x128, .f32⟩ : BufTy).Contents (Elt F)) (arg7 : (⟨S128x2, .f32⟩ : BufTy).Contents (Elt F)) (v48 : (⟨S100000x128, .f32⟩ : BufTy).Contents (Elt F)) (arg8 : (⟨S128x2, .f32⟩ : BufTy).Contents (Elt F)) (arg9 : (⟨S2, .f32⟩ : BufTy).Contents (Elt F)) : (⟨S100000x2, .f32⟩ : BufTy).Contents (Elt F) :=
  let v68 : (⟨S100000x2, .f32⟩ : BufTy).Contents (Elt F) := ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)) v67 arg7
  let v69 : (⟨S100000x2, .f32⟩ : BufTy).Contents (Elt F) := ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)) v48 arg8
  let v70 : (⟨S100000x2, .f32⟩ : BufTy).Contents (Elt F) := (addf : (⟨S100000x2, .f32⟩ : BufTy).Contents (Elt F) → (⟨S100000x2, .f32⟩ : BufTy).Contents (Elt F) → (⟨S100000x2, .f32⟩ : BufTy).Contents (Elt F)) v68 v69
  let v71 : (⟨S1x2, .f32⟩ : BufTy).Contents (Elt F) := (broadcastInDim S1x2 ![1] bcast_S2_S1x2_1 : (⟨S2, .f32⟩ : BufTy).Contents (Elt F) → (⟨S1x2, .f32⟩ : BufTy).Contents (Elt F)) arg9
  let v72 : (⟨S100000x2, .f32⟩ : BufTy).Contents (Elt F) := (broadcastInDim S100000x2 ![0, 1] bcast_S1x2_S100000x2_0_1 : (⟨S1x2, .f32⟩ : BufTy).Contents (Elt F) → (⟨S100000x2, .f32⟩ : BufTy).Contents (Elt F)) v71
  (addf : (⟨S100000x2, .f32⟩ : BufTy).Contents (Elt F) → (⟨S100000x2, .f32⟩ : BufTy).Contents (Elt F) → (⟨S100000x2, .f32⟩ : BufTy).Contents (Elt F)) v70 v72

end Cert.ReferenceIdeal.RefStage

end
-- ==== Proof.RefRead.lean ====
/-
  Each stretch of the reference program read back: from any contents of the device's buffers, the buffer a stretch
  computes holds the stretch's function of the buffers it reads, and a buffer the stretch does not write keeps its
  contents.
-/
import proofs.«152036_j35828617183789_1_alg».proof.Proof.RefRun
import proofs.«152036_j35828617183789_1_alg».proof.Proof.RefStage

noncomputable section

namespace Cert.ReferenceIdeal.RefRead

open Cert.ReferenceIdeal Cert.ReferenceIdeal.RefRun Cert.ReferenceIdeal.RefStage Idealize.ShloMosaic Idealize.ShloMosaic.TcCoe Idealize.SL.Sem Idealize.ShloMosaic.StableHlo

variable {F : FTy → Type} [FloatOps F] [Facts]
open Facts₀ Facts

/-- The buffers the stretch `wA` writes. -/
abbrev wA_W : List (Ref sig .tc) := [main_v0, main_v1, main_v2, main_v3]
set_option maxRecDepth 8192 in
theorem wA_writes : (wA : List (HloOp τ sig (Elt F))).Forall fun op => op.writes ⊆ (wA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wA` does not write keeps its contents through it. -/
theorem keep_wA (V : Valuation τ sig (Elt F)) (r : Ref sig .tc) (h : r ∉ wA_W) :
    after wA V (Proc.devRef .tc r) = V (Proc.devRef .tc r) :=
  after_of_writes_sub wA V wA_writes h

set_option maxRecDepth 8192 in
set_option maxHeartbeats 1000000 in
/-- What the stretch `wA` leaves in main_v1. -/
theorem rd_stSrc (V : Valuation τ sig (Elt F)) :
    after wA V (Proc.devRef .tc main_v1) = stSrc (V (Proc.devRef .tc main_arg1)) := by
  after_results_simp
  rfl

set_option maxRecDepth 8192 in
set_option maxHeartbeats 1000000 in
/-- What the stretch `wA` leaves in main_v3. -/
theorem rd_stDst (V : Valuation τ sig (Elt F)) :
    after wA V (Proc.devRef .tc main_v3) = stDst (V (Proc.devRef .tc main_arg1)) := by
  after_results_simp
  rfl

/-- The buffers the stretch `wG1` writes. -/
abbrev wG1_W : List (Ref sig .tc) := [main_c, main_v4, main_v5, main_c_0, main_v6, main_v7, main_v8, main_v9, main_v10]
set_option maxRecDepth 8192 in
theorem wG1_writes : (wG1 : List (HloOp τ sig (Elt F))).Forall fun op => op.writes ⊆ (wG1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wG1` does not write keeps its contents through it. -/
theorem keep_wG1 (V : Valuation τ sig (Elt F)) (r : Ref sig .tc) (h : r ∉ wG1_W) :
    after wG1 V (Proc.devRef .tc r) = V (Proc.devRef .tc r) :=
  after_of_writes_sub wG1 V wG1_writes h

set_option maxRecDepth 8192 in
set_option maxHeartbeats 1000000 in
/-- What the stretch `wG1` leaves in main_v10. -/
theorem rd_stG1 (V : Valuation τ sig (Elt F)) :
    after wG1 V (Proc.devRef .tc main_v10) = stG1 (V (Proc.devRef .tc main_v1)) (V (Proc.devRef .tc main_arg0)) := by
  after_results_simp
  rfl

/-- The buffers the stretch `wS1` writes. -/
abbrev wS1_W : List (Ref sig .tc) := [main_cst, main_v11, main_v12, main_v13, main_cst_1, main_v14, main_cst_2, main_v15, main_v16, main_v17, main_cst_3, main_v18, main_v19, main_v20, main_v21, main_v22]
set_option maxRecDepth 8192 in
theorem wS1_writes : (wS1 : List (HloOp τ sig (Elt F))).Forall fun op => op.writes ⊆ (wS1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wS1` does not write keeps its contents through it. -/
theorem keep_wS1 (V : Valuation τ sig (Elt F)) (r : Ref sig .tc) (h : r ∉ wS1_W) :
    after wS1 V (Proc.devRef .tc r) = V (Proc.devRef .tc r) :=
  after_of_writes_sub wS1 V wS1_writes h

set_option maxRecDepth 8192 in
set_option maxHeartbeats 1000000 in
/-- What the stretch `wS1` leaves in main_v22. -/
theorem rd_stS1 (V : Valuation τ sig (Elt F)) :
    after wS1 V (Proc.devRef .tc main_v22) = stS1 (V (Proc.devRef .tc main_v3)) (V (Proc.devRef .tc main_v10)) := by
  after_results_simp
  rfl

/-- The buffers the stretch `wL1` writes. -/
abbrev wL1_W : List (Ref sig .tc) := [main_v23, main_v24, main_v25, main_v26, main_v27, main_v28]
set_option maxRecDepth 8192 in
theorem wL1_writes : (wL1 : List (HloOp τ sig (Elt F))).Forall fun op => op.writes ⊆ (wL1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wL1` does not write keeps its contents through it. -/
theorem keep_wL1 (V : Valuation τ sig (Elt F)) (r : Ref sig .tc) (h : r ∉ wL1_W) :
    after wL1 V (Proc.devRef .tc r) = V (Proc.devRef .tc r) :=
  after_of_writes_sub wL1 V wL1_writes h

set_option maxRecDepth 8192 in
set_option maxHeartbeats 1000000 in
/-- What the stretch `wL1` leaves in main_v28. -/
theorem rd_stL1 (V : Valuation τ sig (Elt F)) :
    after wL1 V (Proc.devRef .tc main_v28) = stL1 (V (Proc.devRef .tc main_v22)) (V (Proc.devRef .tc main_arg2)) (V (Proc.devRef .tc main_arg0)) (V (Proc.devRef .tc main_arg3)) (V (Proc.devRef .tc main_arg4)) := by
  after_results_simp
  rfl

/-- The buffers the stretch `wM` writes. -/
abbrev wM_W : List (Ref sig .tc) := [main_cst_4, main_v29, main_cst_5, main_v30, main_v31]
set_option maxRecDepth 8192 in
theorem wM_writes : (wM : List (HloOp τ sig (Elt F))).Forall fun op => op.writes ⊆ (wM_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wM` does not write keeps its contents through it. -/
theorem keep_wM (V : Valuation τ sig (Elt F)) (r : Ref sig .tc) (h : r ∉ wM_W) :
    after wM V (Proc.devRef .tc r) = V (Proc.devRef .tc r) :=
  after_of_writes_sub wM V wM_writes h

set_option maxRecDepth 8192 in
set_option maxHeartbeats 1000000 in
/-- What the stretch `wM` leaves in main_v31. -/
theorem rd_stM (V : Valuation τ sig (Elt F)) :
    after wM V (Proc.devRef .tc main_v31) = stM (V (Proc.devRef .tc main_v28)) := by
  after_results_simp
  rfl

/-- The buffers the stretch `wV` writes. -/
abbrev wV_W : List (Ref sig .tc) := [main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v32]
set_option maxRecDepth 8192 in
theorem wV_writes : (wV : List (HloOp τ sig (Elt F))).Forall fun op => op.writes ⊆ (wV_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wV` does not write keeps its contents through it. -/
theorem keep_wV (V : Valuation τ sig (Elt F)) (r : Ref sig .tc) (h : r ∉ wV_W) :
    after wV V (Proc.devRef .tc r) = V (Proc.devRef .tc r) :=
  after_of_writes_sub wV V wV_writes h

set_option maxRecDepth 8192 in
set_option maxHeartbeats 1000000 in
/-- What the stretch `wV` leaves in main_v32. -/
theorem rd_stV (V : Valuation τ sig (Elt F)) :
    after wV V (Proc.devRef .tc main_v32) = stV (V (Proc.devRef .tc main_v28)) := by
  after_results_simp
  rfl

/-- The buffers the stretch `wN` writes. -/
abbrev wN_W : List (Ref sig .tc) := [main_v33, main_v34, main_v35, main_cst_7, main_v36, main_v37, main_v38, main_v39, main_v40, main_v41, main_v42, main_v43, main_v44, main_v45, main_v46, main_v47, main_call1_cst, main_call1_v0, main_v48]
set_option maxRecDepth 8192 in
theorem wN_writes : (wN : List (HloOp τ sig (Elt F))).Forall fun op => op.writes ⊆ (wN_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wN` does not write keeps its contents through it. -/
theorem keep_wN (V : Valuation τ sig (Elt F)) (r : Ref sig .tc) (h : r ∉ wN_W) :
    after wN V (Proc.devRef .tc r) = V (Proc.devRef .tc r) :=
  after_of_writes_sub wN V wN_writes h

set_option maxRecDepth 8192 in
set_option maxHeartbeats 1000000 in
/-- What the stretch `wN` leaves in main_v48. -/
theorem rd_stN (V : Valuation τ sig (Elt F)) :
    after wN V (Proc.devRef .tc main_v48) = stN (V (Proc.devRef .tc main_v31)) (V (Proc.devRef .tc main_v28)) (V (Proc.devRef .tc main_v32)) (V (Proc.devRef .tc main_arg5)) (V (Proc.devRef .tc main_arg6)) := by
  after_results_simp
  rfl

/-- The buffers the stretch `wG2` writes. -/
abbrev wG2_W : List (Ref sig .tc) := [main_c_8, main_v49, main_v50, main_c_9, main_v51, main_v52, main_v53, main_v54, main_v55]
set_option maxRecDepth 8192 in
theorem wG2_writes : (wG2 : List (HloOp τ sig (Elt F))).Forall fun op => op.writes ⊆ (wG2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wG2` does not write keeps its contents through it. -/
theorem keep_wG2 (V : Valuation τ sig (Elt F)) (r : Ref sig .tc) (h : r ∉ wG2_W) :
    after wG2 V (Proc.devRef .tc r) = V (Proc.devRef .tc r) :=
  after_of_writes_sub wG2 V wG2_writes h

set_option maxRecDepth 8192 in
set_option maxHeartbeats 1000000 in
/-- What the stretch `wG2` leaves in main_v55. -/
theorem rd_stG2 (V : Valuation τ sig (Elt F)) :
    after wG2 V (Proc.devRef .tc main_v55) = stG2 (V (Proc.devRef .tc main_v1)) (V (Proc.devRef .tc main_v48)) := by
  after_results_simp
  rfl

/-- The buffers the stretch `wS2` writes. -/
abbrev wS2_W : List (Ref sig .tc) := [main_cst_10, main_v56, main_v57, main_v58, main_cst_11, main_v59, main_cst_12, main_v60, main_v61, main_v62, main_cst_13, main_v63, main_v64, main_v65, main_v66, main_v67]
set_option maxRecDepth 8192 in
theorem wS2_writes : (wS2 : List (HloOp τ sig (Elt F))).Forall fun op => op.writes ⊆ (wS2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wS2` does not write keeps its contents through it. -/
theorem keep_wS2 (V : Valuation τ sig (Elt F)) (r : Ref sig .tc) (h : r ∉ wS2_W) :
    after wS2 V (Proc.devRef .tc r) = V (Proc.devRef .tc r) :=
  after_of_writes_sub wS2 V wS2_writes h

set_option maxRecDepth 8192 in
set_option maxHeartbeats 1000000 in
/-- What the stretch `wS2` leaves in main_v67. -/
theorem rd_stS2 (V : Valuation τ sig (Elt F)) :
    after wS2 V (Proc.devRef .tc main_v67) = stS2 (V (Proc.devRef .tc main_v3)) (V (Proc.devRef .tc main_v55)) := by
  after_results_simp
  rfl

/-- The buffers the stretch `wL2` writes. -/
abbrev wL2_W : List (Ref sig .tc) := [main_v68, main_v69, main_v70, main_v71, main_v72, main_v73]
set_option maxRecDepth 8192 in
theorem wL2_writes : (wL2 : List (HloOp τ sig (Elt F))).Forall fun op => op.writes ⊆ (wL2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch `wL2` does not write keeps its contents through it. -/
theorem keep_wL2 (V : Valuation τ sig (Elt F)) (r : Ref sig .tc) (h : r ∉ wL2_W) :
    after wL2 V (Proc.devRef .tc r) = V (Proc.devRef .tc r) :=
  after_of_writes_sub wL2 V wL2_writes h

set_option maxRecDepth 8192 in
set_option maxHeartbeats 1000000 in
/-- What the stretch `wL2` leaves in main_v73. -/
theorem rd_stL2 (V : Valuation τ sig (Elt F)) :
    after wL2 V (Proc.devRef .tc main_v73) = stL2 (V (Proc.devRef .tc main_v67)) (V (Proc.devRef .tc main_arg7)) (V (Proc.devRef .tc main_v48)) (V (Proc.devRef .tc main_arg8)) (V (Proc.devRef .tc main_arg9)) := by
  after_results_simp
  rfl

end Cert.ReferenceIdeal.RefRead

end
-- ==== Proof.RefChain.lean ====
/-
  The reference program's result buffer, after the whole line, as ONE function of the ten argument arrays: the
  stretches' functions composed, with the first layer's result and the normalised table as named functions of the
  arguments. The argument buffers keep their contents.
-/
import proofs.«152036_j35828617183789_1_alg».proof.Proof.RefRead

noncomputable section

namespace Cert.ReferenceIdeal.RefStage

open Cert.ReferenceIdeal Idealize.ShloMosaic

variable {F : FTy → Type} [FloatOps F] [Facts]
open Facts₀ Facts

/-- The first layer's result as a function of the node table, the edge table and the first layer's parameters. -/
def hid (x : (⟨S100000x64, .f32⟩ : BufTy).Contents (Elt F)) (ei : (⟨S2x1000000, .i32⟩ : BufTy).Contents (Elt F)) (w1l : (⟨S64x128, .f32⟩ : BufTy).Contents (Elt F)) (w1r : (⟨S64x128, .f32⟩ : BufTy).Contents (Elt F)) (b1 : (⟨S128, .f32⟩ : BufTy).Contents (Elt F)) : (⟨S100000x128, .f32⟩ : BufTy).Contents (Elt F) :=
  stL1 (stS1 (stDst ei) (stG1 (stSrc ei) x)) w1l x w1r b1

/-- The normalised, clamped hidden table: the first layer's result, its column means and two-pass variances, the scale and the shift. -/
def nrm (x : (⟨S100000x64, .f32⟩ : BufTy).Contents (Elt F)) (ei : (⟨S2x1000000, .i32⟩ : BufTy).Contents (Elt F)) (w1l : (⟨S64x128, .f32⟩ : BufTy).Contents (Elt F)) (w1r : (⟨S64x128, .f32⟩ : BufTy).Contents (Elt F)) (b1 : (⟨S128, .f32⟩ : BufTy).Contents (Elt F))
    (g : (⟨S128, .f32⟩ : BufTy).Contents (Elt F)) (be : (⟨S128, .f32⟩ : BufTy).Contents (Elt F)) : (⟨S100000x128, .f32⟩ : BufTy).Contents (Elt F) :=
  stN (stM (hid x ei w1l w1r b1)) (hid x ei w1l w1r b1) (stV (hid x ei w1l w1r b1)) g be

/-- The whole network's result as a function of the ten argument arrays. -/
def net (x : (⟨S100000x64, .f32⟩ : BufTy).Contents (Elt F)) (ei : (⟨S2x1000000, .i32⟩ : BufTy).Contents (Elt F)) (w1l : (⟨S64x128, .f32⟩ : BufTy).Contents (Elt F)) (w1r : (⟨S64x128, .f32⟩ : BufTy).Contents (Elt F)) (b1 : (⟨S128, .f32⟩ : BufTy).Contents (Elt F))
    (g : (⟨S128, .f32⟩ : BufTy).Contents (Elt F)) (be : (⟨S128, .f32⟩ : BufTy).Contents (Elt F)) (w2l : (⟨S128x2, .f32⟩ : BufTy).Contents (Elt F)) (w2r : (⟨S128x2, .f32⟩ : BufTy).Contents (Elt F)) (b2 : (⟨S2, .f32⟩ : BufTy).Contents (Elt F)) : (⟨S100000x2, .f32⟩ : BufTy).Contents (Elt F) :=
  stL2 (stS2 (stDst ei) (stG2 (stSrc ei) (nrm x ei w1l w1r b1 g be))) w2l (nrm x ei w1l w1r b1 g be) w2r b2

end Cert.ReferenceIdeal.RefStage

namespace Cert.ReferenceIdeal.RefChain

open Cert.ReferenceIdeal Cert.ReferenceIdeal.RefRun Cert.ReferenceIdeal.RefStage Cert.ReferenceIdeal.RefRead Idealize.ShloMosaic Idealize.ShloMosaic.TcCoe Idealize.SL.Sem Idealize.ShloMosaic.StableHlo

variable {F : FTy → Type} [FloatOps F] [Facts]
open Facts₀ Facts

/-- The buffers' contents before the first stretch. -/
def lv0 (V0 : Valuation τ sig (Elt F)) : Valuation τ sig (Elt F) := V0

/-- The buffers' contents after the first 1 stretch. -/
def lv1 (V0 : Valuation τ sig (Elt F)) : Valuation τ sig (Elt F) := after wA (lv0 V0)
theorem lv1_main_v1 (V0 : Valuation τ sig (Elt F)) : lv1 V0 (Proc.devRef .tc main_v1) = stSrc (V0 (Proc.devRef .tc main_arg1)) := by
  rw [lv1, rd_stSrc]
  rfl
theorem lv1_main_v3 (V0 : Valuation τ sig (Elt F)) : lv1 V0 (Proc.devRef .tc main_v3) = stDst (V0 (Proc.devRef .tc main_arg1)) := by
  rw [lv1, rd_stDst]
  rfl
theorem lv1_main_arg0 (V0 : Valuation τ sig (Elt F)) : lv1 V0 (Proc.devRef .tc main_arg0) = V0 (Proc.devRef .tc main_arg0) :=
  keep_wA _ main_arg0 (by decide)
theorem lv1_main_arg2 (V0 : Valuation τ sig (Elt F)) : lv1 V0 (Proc.devRef .tc main_arg2) = V0 (Proc.devRef .tc main_arg2) :=
  keep_wA _ main_arg2 (by decide)
theorem lv1_main_arg3 (V0 : Valuation τ sig (Elt F)) : lv1 V0 (Proc.devRef .tc main_arg3) = V0 (Proc.devRef .tc main_arg3) :=
  keep_wA _ main_arg3 (by decide)
theorem lv1_main_arg4 (V0 : Valuation τ sig (Elt F)) : lv1 V0 (Proc.devRef .tc main_arg4) = V0 (Proc.devRef .tc main_arg4) :=
  keep_wA _ main_arg4 (by decide)
theorem lv1_main_arg5 (V0 : Valuation τ sig (Elt F)) : lv1 V0 (Proc.devRef .tc main_arg5) = V0 (Proc.devRef .tc main_arg5) :=
  keep_wA _ main_arg5 (by decide)
theorem lv1_main_arg6 (V0 : Valuation τ sig (Elt F)) : lv1 V0 (Proc.devRef .tc main_arg6) = V0 (Proc.devRef .tc main_arg6) :=
  keep_wA _ main_arg6 (by decide)
theorem lv1_main_arg7 (V0 : Valuation τ sig (Elt F)) : lv1 V0 (Proc.devRef .tc main_arg7) = V0 (Proc.devRef .tc main_arg7) :=
  keep_wA _ main_arg7 (by decide)
theorem lv1_main_arg8 (V0 : Valuation τ sig (Elt F)) : lv1 V0 (Proc.devRef .tc main_arg8) = V0 (Proc.devRef .tc main_arg8) :=
  keep_wA _ main_arg8 (by decide)
theorem lv1_main_arg9 (V0 : Valuation τ sig (Elt F)) : lv1 V0 (Proc.devRef .tc main_arg9) = V0 (Proc.devRef .tc main_arg9) :=
  keep_wA _ main_arg9 (by decide)

/-- The buffers' contents after the first 2 stretches. -/
def lv2 (V0 : Valuation τ sig (Elt F)) : Valuation τ sig (Elt F) := after wG1 (lv1 V0)
theorem lv2_main_v10 (V0 : Valuation τ sig (Elt F)) : lv2 V0 (Proc.devRef .tc main_v10) = stG1 (stSrc (V0 (Proc.devRef .tc main_arg1))) (V0 (Proc.devRef .tc main_arg0)) := by
  rw [lv2, rd_stG1, lv1_main_v1 V0, lv1_main_arg0 V0]
theorem lv2_main_v1 (V0 : Valuation τ sig (Elt F)) : lv2 V0 (Proc.devRef .tc main_v1) = stSrc (V0 (Proc.devRef .tc main_arg1)) :=
  (keep_wG1 _ main_v1 (by decide)).trans (lv1_main_v1 V0)
theorem lv2_main_v3 (V0 : Valuation τ sig (Elt F)) : lv2 V0 (Proc.devRef .tc main_v3) = stDst (V0 (Proc.devRef .tc main_arg1)) :=
  (keep_wG1 _ main_v3 (by decide)).trans (lv1_main_v3 V0)
theorem lv2_main_arg0 (V0 : Valuation τ sig (Elt F)) : lv2 V0 (Proc.devRef .tc main_arg0) = V0 (Proc.devRef .tc main_arg0) :=
  (keep_wG1 _ main_arg0 (by decide)).trans (lv1_main_arg0 V0)
theorem lv2_main_arg2 (V0 : Valuation τ sig (Elt F)) : lv2 V0 (Proc.devRef .tc main_arg2) = V0 (Proc.devRef .tc main_arg2) :=
  (keep_wG1 _ main_arg2 (by decide)).trans (lv1_main_arg2 V0)
theorem lv2_main_arg3 (V0 : Valuation τ sig (Elt F)) : lv2 V0 (Proc.devRef .tc main_arg3) = V0 (Proc.devRef .tc main_arg3) :=
  (keep_wG1 _ main_arg3 (by decide)).trans (lv1_main_arg3 V0)
theorem lv2_main_arg4 (V0 : Valuation τ sig (Elt F)) : lv2 V0 (Proc.devRef .tc main_arg4) = V0 (Proc.devRef .tc main_arg4) :=
  (keep_wG1 _ main_arg4 (by decide)).trans (lv1_main_arg4 V0)
theorem lv2_main_arg5 (V0 : Valuation τ sig (Elt F)) : lv2 V0 (Proc.devRef .tc main_arg5) = V0 (Proc.devRef .tc main_arg5) :=
  (keep_wG1 _ main_arg5 (by decide)).trans (lv1_main_arg5 V0)
theorem lv2_main_arg6 (V0 : Valuation τ sig (Elt F)) : lv2 V0 (Proc.devRef .tc main_arg6) = V0 (Proc.devRef .tc main_arg6) :=
  (keep_wG1 _ main_arg6 (by decide)).trans (lv1_main_arg6 V0)
theorem lv2_main_arg7 (V0 : Valuation τ sig (Elt F)) : lv2 V0 (Proc.devRef .tc main_arg7) = V0 (Proc.devRef .tc main_arg7) :=
  (keep_wG1 _ main_arg7 (by decide)).trans (lv1_main_arg7 V0)
theorem lv2_main_arg8 (V0 : Valuation τ sig (Elt F)) : lv2 V0 (Proc.devRef .tc main_arg8) = V0 (Proc.devRef .tc main_arg8) :=
  (keep_wG1 _ main_arg8 (by decide)).trans (lv1_main_arg8 V0)
theorem lv2_main_arg9 (V0 : Valuation τ sig (Elt F)) : lv2 V0 (Proc.devRef .tc main_arg9) = V0 (Proc.devRef .tc main_arg9) :=
  (keep_wG1 _ main_arg9 (by decide)).trans (lv1_main_arg9 V0)

/-- The buffers' contents after the first 3 stretches. -/
def lv3 (V0 : Valuation τ sig (Elt F)) : Valuation τ sig (Elt F) := after wS1 (lv2 V0)
theorem lv3_main_v22 (V0 : Valuation τ sig (Elt F)) : lv3 V0 (Proc.devRef .tc main_v22) = stS1 (stDst (V0 (Proc.devRef .tc main_arg1))) (stG1 (stSrc (V0 (Proc.devRef .tc main_arg1))) (V0 (Proc.devRef .tc main_arg0))) := by
  rw [lv3, rd_stS1, lv2_main_v3 V0, lv2_main_v10 V0]
theorem lv3_main_v1 (V0 : Valuation τ sig (Elt F)) : lv3 V0 (Proc.devRef .tc main_v1) = stSrc (V0 (Proc.devRef .tc main_arg1)) :=
  (keep_wS1 _ main_v1 (by decide)).trans (lv2_main_v1 V0)
theorem lv3_main_v3 (V0 : Valuation τ sig (Elt F)) : lv3 V0 (Proc.devRef .tc main_v3) = stDst (V0 (Proc.devRef .tc main_arg1)) :=
  (keep_wS1 _ main_v3 (by decide)).trans (lv2_main_v3 V0)
theorem lv3_main_arg0 (V0 : Valuation τ sig (Elt F)) : lv3 V0 (Proc.devRef .tc main_arg0) = V0 (Proc.devRef .tc main_arg0) :=
  (keep_wS1 _ main_arg0 (by decide)).trans (lv2_main_arg0 V0)
theorem lv3_main_arg2 (V0 : Valuation τ sig (Elt F)) : lv3 V0 (Proc.devRef .tc main_arg2) = V0 (Proc.devRef .tc main_arg2) :=
  (keep_wS1 _ main_arg2 (by decide)).trans (lv2_main_arg2 V0)
theorem lv3_main_arg3 (V0 : Valuation τ sig (Elt F)) : lv3 V0 (Proc.devRef .tc main_arg3) = V0 (Proc.devRef .tc main_arg3) :=
  (keep_wS1 _ main_arg3 (by decide)).trans (lv2_main_arg3 V0)
theorem lv3_main_arg4 (V0 : Valuation τ sig (Elt F)) : lv3 V0 (Proc.devRef .tc main_arg4) = V0 (Proc.devRef .tc main_arg4) :=
  (keep_wS1 _ main_arg4 (by decide)).trans (lv2_main_arg4 V0)
theorem lv3_main_arg5 (V0 : Valuation τ sig (Elt F)) : lv3 V0 (Proc.devRef .tc main_arg5) = V0 (Proc.devRef .tc main_arg5) :=
  (keep_wS1 _ main_arg5 (by decide)).trans (lv2_main_arg5 V0)
theorem lv3_main_arg6 (V0 : Valuation τ sig (Elt F)) : lv3 V0 (Proc.devRef .tc main_arg6) = V0 (Proc.devRef .tc main_arg6) :=
  (keep_wS1 _ main_arg6 (by decide)).trans (lv2_main_arg6 V0)
theorem lv3_main_arg7 (V0 : Valuation τ sig (Elt F)) : lv3 V0 (Proc.devRef .tc main_arg7) = V0 (Proc.devRef .tc main_arg7) :=
  (keep_wS1 _ main_arg7 (by decide)).trans (lv2_main_arg7 V0)
theorem lv3_main_arg8 (V0 : Valuation τ sig (Elt F)) : lv3 V0 (Proc.devRef .tc main_arg8) = V0 (Proc.devRef .tc main_arg8) :=
  (keep_wS1 _ main_arg8 (by decide)).trans (lv2_main_arg8 V0)
theorem lv3_main_arg9 (V0 : Valuation τ sig (Elt F)) : lv3 V0 (Proc.devRef .tc main_arg9) = V0 (Proc.devRef .tc main_arg9) :=
  (keep_wS1 _ main_arg9 (by decide)).trans (lv2_main_arg9 V0)

/-- The buffers' contents after the first 4 stretches. -/
def lv4 (V0 : Valuation τ sig (Elt F)) : Valuation τ sig (Elt F) := after wL1 (lv3 V0)
theorem lv4_main_v28 (V0 : Valuation τ sig (Elt F)) : lv4 V0 (Proc.devRef .tc main_v28) = hid (V0 (Proc.devRef .tc main_arg0)) (V0 (Proc.devRef .tc main_arg1)) (V0 (Proc.devRef .tc main_arg2)) (V0 (Proc.devRef .tc main_arg3)) (V0 (Proc.devRef .tc main_arg4)) := by
  rw [lv4, rd_stL1, lv3_main_v22 V0, lv3_main_arg2 V0, lv3_main_arg0 V0, lv3_main_arg3 V0, lv3_main_arg4 V0]
  rfl
theorem lv4_main_v1 (V0 : Valuation τ sig (Elt F)) : lv4 V0 (Proc.devRef .tc main_v1) = stSrc (V0 (Proc.devRef .tc main_arg1)) :=
  (keep_wL1 _ main_v1 (by decide)).trans (lv3_main_v1 V0)
theorem lv4_main_v3 (V0 : Valuation τ sig (Elt F)) : lv4 V0 (Proc.devRef .tc main_v3) = stDst (V0 (Proc.devRef .tc main_arg1)) :=
  (keep_wL1 _ main_v3 (by decide)).trans (lv3_main_v3 V0)
theorem lv4_main_arg5 (V0 : Valuation τ sig (Elt F)) : lv4 V0 (Proc.devRef .tc main_arg5) = V0 (Proc.devRef .tc main_arg5) :=
  (keep_wL1 _ main_arg5 (by decide)).trans (lv3_main_arg5 V0)
theorem lv4_main_arg6 (V0 : Valuation τ sig (Elt F)) : lv4 V0 (Proc.devRef .tc main_arg6) = V0 (Proc.devRef .tc main_arg6) :=
  (keep_wL1 _ main_arg6 (by decide)).trans (lv3_main_arg6 V0)
theorem lv4_main_arg7 (V0 : Valuation τ sig (Elt F)) : lv4 V0 (Proc.devRef .tc main_arg7) = V0 (Proc.devRef .tc main_arg7) :=
  (keep_wL1 _ main_arg7 (by decide)).trans (lv3_main_arg7 V0)
theorem lv4_main_arg8 (V0 : Valuation τ sig (Elt F)) : lv4 V0 (Proc.devRef .tc main_arg8) = V0 (Proc.devRef .tc main_arg8) :=
  (keep_wL1 _ main_arg8 (by decide)).trans (lv3_main_arg8 V0)
theorem lv4_main_arg9 (V0 : Valuation τ sig (Elt F)) : lv4 V0 (Proc.devRef .tc main_arg9) = V0 (Proc.devRef .tc main_arg9) :=
  (keep_wL1 _ main_arg9 (by decide)).trans (lv3_main_arg9 V0)

/-- The buffers' contents after the first 5 stretches. -/
def lv5 (V0 : Valuation τ sig (Elt F)) : Valuation τ sig (Elt F) := after wM (lv4 V0)
theorem lv5_main_v31 (V0 : Valuation τ sig (Elt F)) : lv5 V0 (Proc.devRef .tc main_v31) = stM (hid (V0 (Proc.devRef .tc main_arg0)) (V0 (Proc.devRef .tc main_arg1)) (V0 (Proc.devRef .tc main_arg2)) (V0 (Proc.devRef .tc main_arg3)) (V0 (Proc.devRef .tc main_arg4))) := by
  rw [lv5, rd_stM, lv4_main_v28 V0]
theorem lv5_main_v28 (V0 : Valuation τ sig (Elt F)) : lv5 V0 (Proc.devRef .tc main_v28) = hid (V0 (Proc.devRef .tc main_arg0)) (V0 (Proc.devRef .tc main_arg1)) (V0 (Proc.devRef .tc main_arg2)) (V0 (Proc.devRef .tc main_arg3)) (V0 (Proc.devRef .tc main_arg4)) :=
  (keep_wM _ main_v28 (by decide)).trans (lv4_main_v28 V0)
theorem lv5_main_v1 (V0 : Valuation τ sig (Elt F)) : lv5 V0 (Proc.devRef .tc main_v1) = stSrc (V0 (Proc.devRef .tc main_arg1)) :=
  (keep_wM _ main_v1 (by decide)).trans (lv4_main_v1 V0)
theorem lv5_main_v3 (V0 : Valuation τ sig (Elt F)) : lv5 V0 (Proc.devRef .tc main_v3) = stDst (V0 (Proc.devRef .tc main_arg1)) :=
  (keep_wM _ main_v3 (by decide)).trans (lv4_main_v3 V0)
theorem lv5_main_arg5 (V0 : Valuation τ sig (Elt F)) : lv5 V0 (Proc.devRef .tc main_arg5) = V0 (Proc.devRef .tc main_arg5) :=
  (keep_wM _ main_arg5 (by decide)).trans (lv4_main_arg5 V0)
theorem lv5_main_arg6 (V0 : Valuation τ sig (Elt F)) : lv5 V0 (Proc.devRef .tc main_arg6) = V0 (Proc.devRef .tc main_arg6) :=
  (keep_wM _ main_arg6 (by decide)).trans (lv4_main_arg6 V0)
theorem lv5_main_arg7 (V0 : Valuation τ sig (Elt F)) : lv5 V0 (Proc.devRef .tc main_arg7) = V0 (Proc.devRef .tc main_arg7) :=
  (keep_wM _ main_arg7 (by decide)).trans (lv4_main_arg7 V0)
theorem lv5_main_arg8 (V0 : Valuation τ sig (Elt F)) : lv5 V0 (Proc.devRef .tc main_arg8) = V0 (Proc.devRef .tc main_arg8) :=
  (keep_wM _ main_arg8 (by decide)).trans (lv4_main_arg8 V0)
theorem lv5_main_arg9 (V0 : Valuation τ sig (Elt F)) : lv5 V0 (Proc.devRef .tc main_arg9) = V0 (Proc.devRef .tc main_arg9) :=
  (keep_wM _ main_arg9 (by decide)).trans (lv4_main_arg9 V0)

/-- The buffers' contents after the first 6 stretches. -/
def lv6 (V0 : Valuation τ sig (Elt F)) : Valuation τ sig (Elt F) := after wV (lv5 V0)
theorem lv6_main_v32 (V0 : Valuation τ sig (Elt F)) : lv6 V0 (Proc.devRef .tc main_v32) = stV (hid (V0 (Proc.devRef .tc main_arg0)) (V0 (Proc.devRef .tc main_arg1)) (V0 (Proc.devRef .tc main_arg2)) (V0 (Proc.devRef .tc main_arg3)) (V0 (Proc.devRef .tc main_arg4))) := by
  rw [lv6, rd_stV, lv5_main_v28 V0]
theorem lv6_main_v31 (V0 : Valuation τ sig (Elt F)) : lv6 V0 (Proc.devRef .tc main_v31) = stM (hid (V0 (Proc.devRef .tc main_arg0)) (V0 (Proc.devRef .tc main_arg1)) (V0 (Proc.devRef .tc main_arg2)) (V0 (Proc.devRef .tc main_arg3)) (V0 (Proc.devRef .tc main_arg4))) :=
  (keep_wV _ main_v31 (by decide)).trans (lv5_main_v31 V0)
theorem lv6_main_v28 (V0 : Valuation τ sig (Elt F)) : lv6 V0 (Proc.devRef .tc main_v28) = hid (V0 (Proc.devRef .tc main_arg0)) (V0 (Proc.devRef .tc main_arg1)) (V0 (Proc.devRef .tc main_arg2)) (V0 (Proc.devRef .tc main_arg3)) (V0 (Proc.devRef .tc main_arg4)) :=
  (keep_wV _ main_v28 (by decide)).trans (lv5_main_v28 V0)
theorem lv6_main_v1 (V0 : Valuation τ sig (Elt F)) : lv6 V0 (Proc.devRef .tc main_v1) = stSrc (V0 (Proc.devRef .tc main_arg1)) :=
  (keep_wV _ main_v1 (by decide)).trans (lv5_main_v1 V0)
theorem lv6_main_v3 (V0 : Valuation τ sig (Elt F)) : lv6 V0 (Proc.devRef .tc main_v3) = stDst (V0 (Proc.devRef .tc main_arg1)) :=
  (keep_wV _ main_v3 (by decide)).trans (lv5_main_v3 V0)
theorem lv6_main_arg5 (V0 : Valuation τ sig (Elt F)) : lv6 V0 (Proc.devRef .tc main_arg5) = V0 (Proc.devRef .tc main_arg5) :=
  (keep_wV _ main_arg5 (by decide)).trans (lv5_main_arg5 V0)
theorem lv6_main_arg6 (V0 : Valuation τ sig (Elt F)) : lv6 V0 (Proc.devRef .tc main_arg6) = V0 (Proc.devRef .tc main_arg6) :=
  (keep_wV _ main_arg6 (by decide)).trans (lv5_main_arg6 V0)
theorem lv6_main_arg7 (V0 : Valuation τ sig (Elt F)) : lv6 V0 (Proc.devRef .tc main_arg7) = V0 (Proc.devRef .tc main_arg7) :=
  (keep_wV _ main_arg7 (by decide)).trans (lv5_main_arg7 V0)
theorem lv6_main_arg8 (V0 : Valuation τ sig (Elt F)) : lv6 V0 (Proc.devRef .tc main_arg8) = V0 (Proc.devRef .tc main_arg8) :=
  (keep_wV _ main_arg8 (by decide)).trans (lv5_main_arg8 V0)
theorem lv6_main_arg9 (V0 : Valuation τ sig (Elt F)) : lv6 V0 (Proc.devRef .tc main_arg9) = V0 (Proc.devRef .tc main_arg9) :=
  (keep_wV _ main_arg9 (by decide)).trans (lv5_main_arg9 V0)

/-- The buffers' contents after the first 7 stretches. -/
def lv7 (V0 : Valuation τ sig (Elt F)) : Valuation τ sig (Elt F) := after wN (lv6 V0)
theorem lv7_main_v48 (V0 : Valuation τ sig (Elt F)) : lv7 V0 (Proc.devRef .tc main_v48) = nrm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  rw [lv7, rd_stN, lv6_main_v31 V0, lv6_main_v28 V0, lv6_main_v32 V0, lv6_main_arg5 V0, lv6_main_arg6 V0]
  rfl
theorem lv7_main_v1 (V0 : Valuation τ sig (Elt F)) : lv7 V0 (Proc.devRef .tc main_v1) = stSrc (V0 (Proc.devRef .tc main_arg1)) :=
  (keep_wN _ main_v1 (by decide)).trans (lv6_main_v1 V0)
theorem lv7_main_v3 (V0 : Valuation τ sig (Elt F)) : lv7 V0 (Proc.devRef .tc main_v3) = stDst (V0 (Proc.devRef .tc main_arg1)) :=
  (keep_wN _ main_v3 (by decide)).trans (lv6_main_v3 V0)
theorem lv7_main_arg7 (V0 : Valuation τ sig (Elt F)) : lv7 V0 (Proc.devRef .tc main_arg7) = V0 (Proc.devRef .tc main_arg7) :=
  (keep_wN _ main_arg7 (by decide)).trans (lv6_main_arg7 V0)
theorem lv7_main_arg8 (V0 : Valuation τ sig (Elt F)) : lv7 V0 (Proc.devRef .tc main_arg8) = V0 (Proc.devRef .tc main_arg8) :=
  (keep_wN _ main_arg8 (by decide)).trans (lv6_main_arg8 V0)
theorem lv7_main_arg9 (V0 : Valuation τ sig (Elt F)) : lv7 V0 (Proc.devRef .tc main_arg9) = V0 (Proc.devRef .tc main_arg9) :=
  (keep_wN _ main_arg9 (by decide)).trans (lv6_main_arg9 V0)

/-- The buffers' contents after the first 8 stretches. -/
def lv8 (V0 : Valuation τ sig (Elt F)) : Valuation τ sig (Elt F) := after wG2 (lv7 V0)
theorem lv8_main_v55 (V0 : Valuation τ sig (Elt F)) : lv8 V0 (Proc.devRef .tc main_v55) = stG2 (stSrc (V0 (Proc.devRef .tc main_arg1))) (nrm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) := by
  rw [lv8, rd_stG2, lv7_main_v1 V0, lv7_main_v48 V0]
theorem lv8_main_v48 (V0 : Valuation τ sig (Elt F)) : lv8 V0 (Proc.devRef .tc main_v48) = nrm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (keep_wG2 _ main_v48 (by decide)).trans (lv7_main_v48 V0)
theorem lv8_main_v3 (V0 : Valuation τ sig (Elt F)) : lv8 V0 (Proc.devRef .tc main_v3) = stDst (V0 (Proc.devRef .tc main_arg1)) :=
  (keep_wG2 _ main_v3 (by decide)).trans (lv7_main_v3 V0)
theorem lv8_main_arg7 (V0 : Valuation τ sig (Elt F)) : lv8 V0 (Proc.devRef .tc main_arg7) = V0 (Proc.devRef .tc main_arg7) :=
  (keep_wG2 _ main_arg7 (by decide)).trans (lv7_main_arg7 V0)
theorem lv8_main_arg8 (V0 : Valuation τ sig (Elt F)) : lv8 V0 (Proc.devRef .tc main_arg8) = V0 (Proc.devRef .tc main_arg8) :=
  (keep_wG2 _ main_arg8 (by decide)).trans (lv7_main_arg8 V0)
theorem lv8_main_arg9 (V0 : Valuation τ sig (Elt F)) : lv8 V0 (Proc.devRef .tc main_arg9) = V0 (Proc.devRef .tc main_arg9) :=
  (keep_wG2 _ main_arg9 (by decide)).trans (lv7_main_arg9 V0)

/-- The buffers' contents after the first 9 stretches. -/
def lv9 (V0 : Valuation τ sig (Elt F)) : Valuation τ sig (Elt F) := after wS2 (lv8 V0)
theorem lv9_main_v67 (V0 : Valuation τ sig (Elt F)) : lv9 V0 (Proc.devRef .tc main_v67) = stS2 (stDst (V0 (Proc.devRef .tc main_arg1))) (stG2 (stSrc (V0 (Proc.devRef .tc main_arg1))) (nrm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)))) := by
  rw [lv9, rd_stS2, lv8_main_v3 V0, lv8_main_v55 V0]
theorem lv9_main_v48 (V0 : Valuation τ sig (Elt F)) : lv9 V0 (Proc.devRef .tc main_v48) = nrm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (keep_wS2 _ main_v48 (by decide)).trans (lv8_main_v48 V0)
theorem lv9_main_arg7 (V0 : Valuation τ sig (Elt F)) : lv9 V0 (Proc.devRef .tc main_arg7) = V0 (Proc.devRef .tc main_arg7) :=
  (keep_wS2 _ main_arg7 (by decide)).trans (lv8_main_arg7 V0)
theorem lv9_main_arg8 (V0 : Valuation τ sig (Elt F)) : lv9 V0 (Proc.devRef .tc main_arg8) = V0 (Proc.devRef .tc main_arg8) :=
  (keep_wS2 _ main_arg8 (by decide)).trans (lv8_main_arg8 V0)
theorem lv9_main_arg9 (V0 : Valuation τ sig (Elt F)) : lv9 V0 (Proc.devRef .tc main_arg9) = V0 (Proc.devRef .tc main_arg9) :=
  (keep_wS2 _ main_arg9 (by decide)).trans (lv8_main_arg9 V0)

/-- The buffers' contents after the first 10 stretches. -/
def lv10 (V0 : Valuation τ sig (Elt F)) : Valuation τ sig (Elt F) := after wL2 (lv9 V0)
theorem lv10_main_v73 (V0 : Valuation τ sig (Elt F)) : lv10 V0 (Proc.devRef .tc main_v73) = net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  rw [lv10, rd_stL2, lv9_main_v67 V0, lv9_main_arg7 V0, lv9_main_v48 V0, lv9_main_arg8 V0, lv9_main_arg9 V0]
  rfl

/-- The fold over the whole line is the tenth of these. -/
theorem after_ops_lv (V0 : Valuation τ sig (Elt F)) : after ops V0 = lv10 V0 := by
  rw [after_ops]; rfl

/-- The result buffer after the whole line: the network's function of the argument arrays. -/
theorem out_eq (V0 : Valuation τ sig (Elt F)) :
    after ops V0 (Proc.devRef .tc main_v73) = net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  rw [after_ops_lv]; exact lv10_main_v73 V0

theorem arg0_eq (V0 : Valuation τ sig (Elt F)) : after ops V0 (Proc.devRef .tc main_arg0) = V0 (Proc.devRef .tc main_arg0) := by
  rw [after_ops, keep_wL2 _ main_arg0 (by decide), keep_wS2 _ main_arg0 (by decide), keep_wG2 _ main_arg0 (by decide), keep_wN _ main_arg0 (by decide), keep_wV _ main_arg0 (by decide), keep_wM _ main_arg0 (by decide), keep_wL1 _ main_arg0 (by decide), keep_wS1 _ main_arg0 (by decide), keep_wG1 _ main_arg0 (by decide), keep_wA _ main_arg0 (by decide)]

theorem arg1_eq (V0 : Valuation τ sig (Elt F)) : after ops V0 (Proc.devRef .tc main_arg1) = V0 (Proc.devRef .tc main_arg1) := by
  rw [after_ops, keep_wL2 _ main_arg1 (by decide), keep_wS2 _ main_arg1 (by decide), keep_wG2 _ main_arg1 (by decide), keep_wN _ main_arg1 (by decide), keep_wV _ main_arg1 (by decide), keep_wM _ main_arg1 (by decide), keep_wL1 _ main_arg1 (by decide), keep_wS1 _ main_arg1 (by decide), keep_wG1 _ main_arg1 (by decide), keep_wA _ main_arg1 (by decide)]

theorem arg2_eq (V0 : Valuation τ sig (Elt F)) : after ops V0 (Proc.devRef .tc main_arg2) = V0 (Proc.devRef .tc main_arg2) := by
  rw [after_ops, keep_wL2 _ main_arg2 (by decide), keep_wS2 _ main_arg2 (by decide), keep_wG2 _ main_arg2 (by decide), keep_wN _ main_arg2 (by decide), keep_wV _ main_arg2 (by decide), keep_wM _ main_arg2 (by decide), keep_wL1 _ main_arg2 (by decide), keep_wS1 _ main_arg2 (by decide), keep_wG1 _ main_arg2 (by decide), keep_wA _ main_arg2 (by decide)]

theorem arg3_eq (V0 : Valuation τ sig (Elt F)) : after ops V0 (Proc.devRef .tc main_arg3) = V0 (Proc.devRef .tc main_arg3) := by
  rw [after_ops, keep_wL2 _ main_arg3 (by decide), keep_wS2 _ main_arg3 (by decide), keep_wG2 _ main_arg3 (by decide), keep_wN _ main_arg3 (by decide), keep_wV _ main_arg3 (by decide), keep_wM _ main_arg3 (by decide), keep_wL1 _ main_arg3 (by decide), keep_wS1 _ main_arg3 (by decide), keep_wG1 _ main_arg3 (by decide), keep_wA _ main_arg3 (by decide)]

theorem arg4_eq (V0 : Valuation τ sig (Elt F)) : after ops V0 (Proc.devRef .tc main_arg4) = V0 (Proc.devRef .tc main_arg4) := by
  rw [after_ops, keep_wL2 _ main_arg4 (by decide), keep_wS2 _ main_arg4 (by decide), keep_wG2 _ main_arg4 (by decide), keep_wN _ main_arg4 (by decide), keep_wV _ main_arg4 (by decide), keep_wM _ main_arg4 (by decide), keep_wL1 _ main_arg4 (by decide), keep_wS1 _ main_arg4 (by decide), keep_wG1 _ main_arg4 (by decide), keep_wA _ main_arg4 (by decide)]

theorem arg5_eq (V0 : Valuation τ sig (Elt F)) : after ops V0 (Proc.devRef .tc main_arg5) = V0 (Proc.devRef .tc main_arg5) := by
  rw [after_ops, keep_wL2 _ main_arg5 (by decide), keep_wS2 _ main_arg5 (by decide), keep_wG2 _ main_arg5 (by decide), keep_wN _ main_arg5 (by decide), keep_wV _ main_arg5 (by decide), keep_wM _ main_arg5 (by decide), keep_wL1 _ main_arg5 (by decide), keep_wS1 _ main_arg5 (by decide), keep_wG1 _ main_arg5 (by decide), keep_wA _ main_arg5 (by decide)]

theorem arg6_eq (V0 : Valuation τ sig (Elt F)) : after ops V0 (Proc.devRef .tc main_arg6) = V0 (Proc.devRef .tc main_arg6) := by
  rw [after_ops, keep_wL2 _ main_arg6 (by decide), keep_wS2 _ main_arg6 (by decide), keep_wG2 _ main_arg6 (by decide), keep_wN _ main_arg6 (by decide), keep_wV _ main_arg6 (by decide), keep_wM _ main_arg6 (by decide), keep_wL1 _ main_arg6 (by decide), keep_wS1 _ main_arg6 (by decide), keep_wG1 _ main_arg6 (by decide), keep_wA _ main_arg6 (by decide)]

theorem arg7_eq (V0 : Valuation τ sig (Elt F)) : after ops V0 (Proc.devRef .tc main_arg7) = V0 (Proc.devRef .tc main_arg7) := by
  rw [after_ops, keep_wL2 _ main_arg7 (by decide), keep_wS2 _ main_arg7 (by decide), keep_wG2 _ main_arg7 (by decide), keep_wN _ main_arg7 (by decide), keep_wV _ main_arg7 (by decide), keep_wM _ main_arg7 (by decide), keep_wL1 _ main_arg7 (by decide), keep_wS1 _ main_arg7 (by decide), keep_wG1 _ main_arg7 (by decide), keep_wA _ main_arg7 (by decide)]

theorem arg8_eq (V0 : Valuation τ sig (Elt F)) : after ops V0 (Proc.devRef .tc main_arg8) = V0 (Proc.devRef .tc main_arg8) := by
  rw [after_ops, keep_wL2 _ main_arg8 (by decide), keep_wS2 _ main_arg8 (by decide), keep_wG2 _ main_arg8 (by decide), keep_wN _ main_arg8 (by decide), keep_wV _ main_arg8 (by decide), keep_wM _ main_arg8 (by decide), keep_wL1 _ main_arg8 (by decide), keep_wS1 _ main_arg8 (by decide), keep_wG1 _ main_arg8 (by decide), keep_wA _ main_arg8 (by decide)]

theorem arg9_eq (V0 : Valuation τ sig (Elt F)) : after ops V0 (Proc.devRef .tc main_arg9) = V0 (Proc.devRef .tc main_arg9) := by
  rw [after_ops, keep_wL2 _ main_arg9 (by decide), keep_wS2 _ main_arg9 (by decide), keep_wG2 _ main_arg9 (by decide), keep_wN _ main_arg9 (by decide), keep_wV _ main_arg9 (by decide), keep_wM _ main_arg9 (by decide), keep_wL1 _ main_arg9 (by decide), keep_wS1 _ main_arg9 (by decide), keep_wG1 _ main_arg9 (by decide), keep_wA _ main_arg9 (by decide)]

end Cert.ReferenceIdeal.RefChain

end
-- ==== Proof.RefMathA.lean ====
/-
  The reference program's index stages read at an entry: the edge table's two rows are the source and the
  destination words, the wrapped source column is the wrap of each source word, and each gather reads, for edge e,
  the row of the table that its wrapped and clamped source word names.
-/
import Mathlib
import proofs.«152036_j35828617183789_1_alg».proof.Proof.RefStage
import proofs.«152036_j35828617183789_1_alg».proof.Proof.Spec
import proofs.«152036_j35828617183789_1_alg».proof.Proof.LibGatherRows
import Idealize.ShloMosaic.Lib.Pipeline.Value
import Idealize.ShloMosaic.PureOps.Ideal.Laws

noncomputable section

open scoped BigOperators

namespace Cert.ReferenceIdeal.RefMathA

open Cert.ReferenceIdeal Cert.ReferenceIdeal.RefStage Idealize.ShloMosaic Idealize.ShloMosaic.ValueIdx Cert.Sage

variable [Facts]
open Facts₀ Facts

/-- The first row of the edge table, entry by entry. -/
theorem stSrc_apply (ei : (⟨S2x1000000, .i32⟩ : BufTy).Contents (Elt Ideal)) (e : Fin 1000000) :
    stSrc (F := Ideal) ei (ix1 e) = srcOf ei e := by
  unfold stSrc srcOf
  refine (shapeCast_apply _ _ (ix1 e) (ix2 (0 : Fin 1) e) ?_).trans ?_
  · rw [Shape.rowMajor_val_two, Shape.rowMajor_val_one]; show 0 * 1000000 + e.val = e.val; omega
  · refine extractStridedSlice_apply _ _ _ (ix2 (0 : Fin 1) e) (ix2 (0 : Fin 2) e) fun a => ?_
    match a with
    | ⟨0, _⟩ => rfl
    | ⟨1, _⟩ => show e.val = 0 + e.val; omega

/-- The second row of the edge table, entry by entry. -/
theorem stDst_apply (ei : (⟨S2x1000000, .i32⟩ : BufTy).Contents (Elt Ideal)) (e : Fin 1000000) :
    stDst (F := Ideal) ei (ix1 e) = dstOf ei e := by
  unfold stDst dstOf
  refine (shapeCast_apply _ _ (ix1 e) (ix2 (0 : Fin 1) e) ?_).trans ?_
  · rw [Shape.rowMajor_val_two, Shape.rowMajor_val_one]; show 0 * 1000000 + e.val = e.val; omega
  · refine extractStridedSlice_apply _ _ _ (ix2 (0 : Fin 1) e) (ix2 (1 : Fin 2) e) fun a => ?_
    match a with
    | ⟨0, _⟩ => rfl
    | ⟨1, _⟩ => show e.val = 0 + e.val; omega

/-- The wrapped source column, read at an edge: the wrap of the edge's source word. -/
theorem wrapCol_apply (s : (⟨S1000000, .i32⟩ : BufTy).Contents (Elt Ideal)) (e : Fin 1000000) :
    (broadcastInDim S1000000x1 ![0] bcast_S1000000_S1000000x1_0
      (select (cmpi .slt s (broadcastInDim S1000000 ![] bcast_S_S1000000 (constantI S_ 32 0#32)))
        (addi s (broadcastInDim S1000000 ![] bcast_S_S1000000 (constantI S_ 32 100000#32))) s)
      : (⟨S1000000x1, .i32⟩ : BufTy).Contents (Elt Ideal)) (ix2 e (0 : Fin 1)) = wrap (s (ix1 e)) := by
  refine (broadcastInDim_apply _ _ _ (ix2 e (0 : Fin 1)) (ix1 e) fun a => ?_).trans rfl
  match a with
  | ⟨0, _⟩ => rfl

/-- The first gather, entry by entry: edge e reads the row its wrapped source word names. -/
theorem stG1_apply (s : (⟨S1000000, .i32⟩ : BufTy).Contents (Elt Ideal)) (x : (⟨S100000x64, .f32⟩ : BufTy).Contents (Elt Ideal))
    (e : Fin 1000000) (k : Fin 64) :
    stG1 (F := Ideal) s x (ix2 e k) = x (ix2 (srcRow (s (ix1 e))) k) := by
  unfold stG1
  refine (Cert.LibGatherRows.gather_rows_apply (by decide : 0 < 100000) _ rfl rfl rfl rfl rfl rfl rfl x _ e k).trans ?_
  refine congrArg (fun r => x (ix2 r k)) (Fin.ext ?_)
  show min (_ : BitVec 32).toInt.toNat (100000 - 1) = min (wrap (s (ix1 e))).toInt.toNat (NN - 1)
  rw [wrapCol_apply s e]

/-- The second gather, entry by entry. -/
theorem stG2_apply (s : (⟨S1000000, .i32⟩ : BufTy).Contents (Elt Ideal)) (x : (⟨S100000x128, .f32⟩ : BufTy).Contents (Elt Ideal))
    (e : Fin 1000000) (k : Fin 128) :
    stG2 (F := Ideal) s x (ix2 e k) = x (ix2 (srcRow (s (ix1 e))) k) := by
  unfold stG2
  refine (Cert.LibGatherRows.gather_rows_apply (by decide : 0 < 100000) _ rfl rfl rfl rfl rfl rfl rfl x _ e k).trans ?_
  refine congrArg (fun r => x (ix2 r k)) (Fin.ext ?_)
  show min (_ : BitVec 32).toInt.toNat (100000 - 1) = min (wrap (s (ix1 e))).toInt.toNat (NN - 1)
  rw [wrapCol_apply s e]

end Cert.ReferenceIdeal.RefMathA

end
-- ==== Proof.RefMathBase.lean ====
/-
  Operations of the reference program read at an entry, over arbitrary arrays on the extended reals: the
  element-wise quotient and reciprocal root, integer comparison and addition, the scatter-add and the sum along axes
  as exact sums, the broadcasts of a scalar, of a vector along a row or a column and of a row or a column across a
  table, and a column's sum down the rows.
-/
import Mathlib
import proofs.«152036_j35828617183789_1_alg».proof.Proof.RefStage
import proofs.«152036_j35828617183789_1_alg».proof.Proof.Spec
import proofs.«152036_j35828617183789_1_alg».proof.Proof.LibRowSum
import Idealize.ShloMosaic.Lib.Pipeline.Value
import Idealize.ShloMosaic.PureOps.Ideal.Laws

noncomputable section

open scoped BigOperators

namespace Cert.ReferenceIdeal.RefMathBase

open Cert.ReferenceIdeal Cert.ReferenceIdeal.RefStage Idealize.ShloMosaic Idealize.ShloMosaic.ValueIdx Cert.Sage

variable [Facts]
open Facts₀ Facts

/-! ## Operations read at an entry, over arbitrary arrays -/

theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl
theorem constantI_apply {s : Shape} (w : Nat) (b : BitVec w) (i : s.Idx) : constantI s w b i = b := rfl
theorem cmpi_apply {s : Shape} {w : Nat} (p : CmpIPredicate) (a b : IVec s w) (i : s.Idx) : cmpi p a b i = IntOp.cmpi p (a i) (b i) := rfl
theorem addi_apply {s : Shape} {w : Nat} (a b : IVec s w) (i : s.Idx) : addi a b i = IntOp.addi (a i) (b i) := rfl

/-- A scatter-add on the extended reals is the exact sum. -/
theorem scat_eq {s si su : Shape} {w : Nat} (d : ScatterDims s si su) (x : FVec Ideal s .f32) (idx : IVec si w) (u : FVec Ideal su .f32) :
    Host.scatterAdd d x idx u = Ideal.hostScatterAdd d x idx u := rfl

/-- A sum along axes on the extended reals is the exact sum from the initial value. -/
theorem reduce_eq {s t u : Shape} {axes : List (Fin s.rank)} (x : FVec Ideal s .f32) (init : u.Idx → Ideal .f32)
    (h : s.ReducesTo axes t) (hu : 0 < u.numel) :
    Host.reduceAdd x init h hu = Ideal.hostReduceAdd h x (init (Shape.Idx.first hu)) := rfl

/-- A comparison of floats on the extended reals is the order's. -/
theorem cmpf_eq (p : CmpFPredicate) (x y : Ideal .f32) : FloatOps.cmpf p x y = Ideal.cmp p x y := rfl
/-- An integer read as a float is the integer. -/
theorem sitofp_eq {w : Nat} (b : BitVec w) : FloatOps.sitofp (F := Ideal) .f32 b = ((b.toInt : ℝ) : EReal) := rfl

/-- A scalar broadcast to any shape reads the scalar. -/
theorem bcast_scalar {α : Type} {t : Shape} (hb : S_.BroadcastsInDim t (![] : Fin 0 → Fin t.rank)) (x : S_.Idx → α) (j : t.Idx) :
    broadcastInDim (no_index t) (no_index ![]) hb x j = x ix0 :=
  congrArg x (funext fun a => a.elim0)

/-- A vector laid along the second axis of a one-row table reads the vector. -/
theorem bcast_row {α : Type} (m : S128.Idx → α) (r : Fin 1) (j : Fin 128) :
    broadcastInDim (no_index S1x128) (no_index ![1]) bcast_S128_S1x128_1 m (ix2 r j) = m (ix1 j) := by
  refine broadcastInDim_apply _ _ _ (ix2 r j) (ix1 j) fun c => ?_
  match c with
  | ⟨0, _⟩ => rfl

/-- A one-row table repeated down the rows reads its one row. -/
theorem bcast_rows {α : Type} (m : S1x128.Idx → α) (i : Fin 100000) (j : Fin 128) :
    broadcastInDim (no_index S100000x128) (no_index ![0, 1]) bcast_S1x128_S100000x128_0_1 m (ix2 i j) = m (ix2 (0 : Fin 1) j) := by
  refine broadcastInDim_apply _ _ _ (ix2 i j) (ix2 (0 : Fin 1) j) fun c => ?_
  match c with
  | ⟨0, _⟩ => rfl
  | ⟨1, _⟩ => rfl

/-- The same for a vector of two. -/
theorem bcast_row2 {α : Type} (m : S2.Idx → α) (r : Fin 1) (j : Fin 2) :
    broadcastInDim (no_index S1x2) (no_index ![1]) bcast_S2_S1x2_1 m (ix2 r j) = m (ix1 j) := by
  refine broadcastInDim_apply _ _ _ (ix2 r j) (ix1 j) fun c => ?_
  match c with
  | ⟨0, _⟩ => rfl

/-- The same for a one-row table of two. -/
theorem bcast_rows2 {α : Type} (m : S1x2.Idx → α) (i : Fin 100000) (j : Fin 2) :
    broadcastInDim (no_index S100000x2) (no_index ![0, 1]) bcast_S1x2_S100000x2_0_1 m (ix2 i j) = m (ix2 (0 : Fin 1) j) := by
  refine broadcastInDim_apply _ _ _ (ix2 i j) (ix2 (0 : Fin 1) j) fun c => ?_
  match c with
  | ⟨0, _⟩ => rfl
  | ⟨1, _⟩ => rfl

/-- A vector over the edges laid as a one-column table reads the vector. -/
theorem bcast_edgeCol {α : Type} (m : S1000000.Idx → α) (e : Fin 1000000) (c0 : Fin 1) :
    broadcastInDim (no_index S1000000x1) (no_index ![0]) bcast_S1000000_S1000000x1_0 m (ix2 e c0) = m (ix1 e) := by
  refine broadcastInDim_apply _ _ _ (ix2 e c0) (ix1 e) fun c => ?_
  match c with
  | ⟨0, _⟩ => rfl

/-- A vector over the nodes laid as a one-column table reads the vector. -/
theorem bcast_nodeCol {α : Type} (m : S100000.Idx → α) (p : Fin 100000) (c0 : Fin 1) :
    broadcastInDim (no_index S100000x1) (no_index ![0]) bcast_S100000_S100000x1_0 m (ix2 p c0) = m (ix1 p) := by
  refine broadcastInDim_apply _ _ _ (ix2 p c0) (ix1 p) fun c => ?_
  match c with
  | ⟨0, _⟩ => rfl

/-- A one-column table repeated across 64 columns reads its one column. -/
theorem bcast_cols64 {α : Type} (m : S100000x1.Idx → α) (p : Fin 100000) (k : Fin 64) :
    broadcastInDim (no_index S100000x64) (no_index ![0, 1]) bcast_S100000x1_S100000x64_0_1 m (ix2 p k) = m (ix2 p (0 : Fin 1)) := by
  refine broadcastInDim_apply _ _ _ (ix2 p k) (ix2 p (0 : Fin 1)) fun c => ?_
  match c with
  | ⟨0, _⟩ => rfl
  | ⟨1, _⟩ => rfl

/-- A one-column table repeated across 128 columns reads its one column. -/
theorem bcast_cols128 {α : Type} (m : S100000x1.Idx → α) (p : Fin 100000) (k : Fin 128) :
    broadcastInDim (no_index S100000x128) (no_index ![0, 1]) bcast_S100000x1_S100000x128_0_1 m (ix2 p k) = m (ix2 p (0 : Fin 1)) := by
  refine broadcastInDim_apply _ _ _ (ix2 p k) (ix2 p (0 : Fin 1)) fun c => ?_
  match c with
  | ⟨0, _⟩ => rfl
  | ⟨1, _⟩ => rfl

/-- The sum down the rows from the zero word, at a column: the column's sum. -/
theorem colsum_apply (h : FVec Ideal S100000x128 .f32) (j : Fin 128) :
    Host.reduceAdd (F := Ideal) h (constant (F := Ideal) S_ .f32 0x00000000#32) reducesTo_S100000x128_S128_d0 h_S_ (ix1 j)
      = ∑ i : Fin 100000, h (ix2 i j) := by
  have hR : S100000x128.Reduces [0] S128 := by decide
  rw [reduce_eq, Ideal.hostReduceAdd_single reducesTo_S100000x128_S128_d0 hR h _ (ix1 j), constant_apply, Ideal.ofBits_zero_f32, zero_add]
  exact Finset.sum_congr rfl fun k _ => congrArg h (idx2_ext _ k j rfl rfl)

/-- The float words the program spells. -/
theorem nW_word : Ideal.ofBits .f32 0x47C35000#32 = nW := rfl
theorem epsW_word : Ideal.ofBits .f32 0x3727C5AC#32 = epsW := rfl
theorem oneW_word : Ideal.ofBits .f32 0x3F800000#32 = oneW := rfl

end Cert.ReferenceIdeal.RefMathBase

end
-- ==== Proof.RefMathS.lean ====
/-
  The reference program's two segment means read at an entry: the rows over the edges summed into their destination
  segments from the zero table, the segment sizes as sums of ones floored at one, and entry (p, k) of the stage the
  segment sum over the floored size.
-/
import Mathlib
import proofs.«152036_j35828617183789_1_alg».proof.Proof.RefStage
import proofs.«152036_j35828617183789_1_alg».proof.Proof.Spec
import proofs.«152036_j35828617183789_1_alg».proof.Proof.RefMathBase
import proofs.«152036_j35828617183789_1_alg».proof.Proof.LibScatterAddRows
import Idealize.ShloMosaic.Lib.Pipeline.Value
import Idealize.ShloMosaic.PureOps.Ideal.Laws

noncomputable section

open scoped BigOperators

namespace Cert.ReferenceIdeal.RefMathS

open Cert.ReferenceIdeal Cert.ReferenceIdeal.RefStage Idealize.ShloMosaic Idealize.ShloMosaic.ValueIdx Cert.Sage

variable [Facts]
open Facts₀ Facts
open Cert.ReferenceIdeal.RefMathBase

/-- The segment sizes floored at one: ones summed into their destination segments from the zero vector, then the maximum with one. -/
def cntFloor {F : FTy → Type} [FloatOps F] (d : (⟨S1000000, .i32⟩ : BufTy).Contents (Elt F)) : (⟨S100000, .f32⟩ : BufTy).Contents (Elt F) :=
  maximumf
    (Host.scatterAdd scatter_S100000_S1000000x1_S1000000_n_0_0_1
      (broadcastInDim S100000 ![] bcast_S_S100000 (constant S_ .f32 0x00000000#32))
      (broadcastInDim S1000000x1 ![0] bcast_S1000000_S1000000x1_0 d)
      (broadcastInDim S1000000 ![] bcast_S_S1000000 (constant S_ .f32 0x3F800000#32)))
    (broadcastInDim S100000 ![] bcast_S_S100000 (constant S_ .f32 0x3F800000#32))

/-- The floored segment sizes, entry by entry. -/
theorem cntFloor_apply (d : (⟨S1000000, .i32⟩ : BufTy).Contents (Elt Ideal)) (p : Fin 100000) :
    cntFloor (F := Ideal) d (ix1 p) = max (cnt (fun e => d (ix1 e)) p) oneW := by
  unfold cntFloor
  rw [maximumf_apply, scat_eq, Cert.LibScatterAddRows.scatterAdd_elems_apply _ rfl rfl rfl rfl]
  refine congrArg₂ max ?_ ?_
  · rw [bcast_scalar, constant_apply, Ideal.ofBits_zero_f32, zero_add]
    unfold cnt
    refine Finset.sum_congr rfl fun e _ => ?_
    rw [bcast_edgeCol, bcast_scalar, constant_apply, oneW_word]
  · rw [bcast_scalar, constant_apply, oneW_word]

/-- The rows of a table over the edges summed into their destination segments, from the zero table (64 columns). -/
def segSum64 {F : FTy → Type} [FloatOps F] (d : (⟨S1000000, .i32⟩ : BufTy).Contents (Elt F)) (g : (⟨S1000000x64, .f32⟩ : BufTy).Contents (Elt F)) :
    (⟨S100000x64, .f32⟩ : BufTy).Contents (Elt F) :=
  Host.scatterAdd scatter_S100000x64_S1000000x1_S1000000x64_1_0_0_1 (broadcastInDim S100000x64 ![] bcast_S_S100000x64 (constant S_ .f32 0x00000000#32))
    (broadcastInDim S1000000x1 ![0] bcast_S1000000_S1000000x1_0 d) g

/-- The stretch is the segment sums over the floored segment sizes, whatever the float values. -/
theorem stS1_split {F : FTy → Type} [FloatOps F] (d : (⟨S1000000, .i32⟩ : BufTy).Contents (Elt F)) (g : (⟨S1000000x64, .f32⟩ : BufTy).Contents (Elt F)) :
    stS1 (F := F) d g
      = Host.divf (segSum64 d g)
          (broadcastInDim S100000x64 ![0, 1] bcast_S100000x1_S100000x64_0_1 (broadcastInDim S100000x1 ![0] bcast_S100000_S100000x1_0 (cntFloor d))) := rfl

/-- The segment sums, entry by entry. -/
theorem segSum64_apply (d : (⟨S1000000, .i32⟩ : BufTy).Contents (Elt Ideal)) (g : (⟨S1000000x64, .f32⟩ : BufTy).Contents (Elt Ideal))
    (p : Fin 100000) (k : Fin 64) :
    segSum64 (F := Ideal) d g (ix2 p k) = seg (fun e => d (ix1 e)) (fun e k => g (ix2 e k)) p k := by
  unfold segSum64
  rw [scat_eq, Cert.LibScatterAddRows.scatterAdd_rows_apply _ rfl rfl rfl rfl, bcast_scalar, constant_apply, Ideal.ofBits_zero_f32, zero_add]
  unfold seg
  refine Finset.sum_congr rfl fun e _ => ?_
  rw [bcast_edgeCol]

/-- The first segment mean, entry by entry: the segment sum over the segment size floored at one. -/
theorem stS1_apply (d : (⟨S1000000, .i32⟩ : BufTy).Contents (Elt Ideal)) (g : (⟨S1000000x64, .f32⟩ : BufTy).Contents (Elt Ideal))
    (p : Fin 100000) (k : Fin 64) :
    stS1 (F := Ideal) d g (ix2 p k)
      = Ideal.div (seg (fun e => d (ix1 e)) (fun e k => g (ix2 e k)) p k) (max (cnt (fun e => d (ix1 e)) p) oneW) := by
  rw [stS1_split, hostDivf_apply, bcast_cols64, bcast_nodeCol, segSum64_apply, cntFloor_apply]

/-- The rows of a table over the edges summed into their destination segments, from the zero table (128 columns). -/
def segSum128 {F : FTy → Type} [FloatOps F] (d : (⟨S1000000, .i32⟩ : BufTy).Contents (Elt F)) (g : (⟨S1000000x128, .f32⟩ : BufTy).Contents (Elt F)) :
    (⟨S100000x128, .f32⟩ : BufTy).Contents (Elt F) :=
  Host.scatterAdd scatter_S100000x128_S1000000x1_S1000000x128_1_0_0_1 (broadcastInDim S100000x128 ![] bcast_S_S100000x128 (constant S_ .f32 0x00000000#32))
    (broadcastInDim S1000000x1 ![0] bcast_S1000000_S1000000x1_0 d) g

/-- The stretch is the segment sums over the floored segment sizes, whatever the float values. -/
theorem stS2_split {F : FTy → Type} [FloatOps F] (d : (⟨S1000000, .i32⟩ : BufTy).Contents (Elt F)) (g : (⟨S1000000x128, .f32⟩ : BufTy).Contents (Elt F)) :
    stS2 (F := F) d g
      = Host.divf (segSum128 d g)
          (broadcastInDim S100000x128 ![0, 1] bcast_S100000x1_S100000x128_0_1 (broadcastInDim S100000x1 ![0] bcast_S100000_S100000x1_0 (cntFloor d))) := rfl

/-- The segment sums, entry by entry. -/
theorem segSum128_apply (d : (⟨S1000000, .i32⟩ : BufTy).Contents (Elt Ideal)) (g : (⟨S1000000x128, .f32⟩ : BufTy).Contents (Elt Ideal))
    (p : Fin 100000) (k : Fin 128) :
    segSum128 (F := Ideal) d g (ix2 p k) = seg (fun e => d (ix1 e)) (fun e k => g (ix2 e k)) p k := by
  unfold segSum128
  rw [scat_eq, Cert.LibScatterAddRows.scatterAdd_rows_apply _ rfl rfl rfl rfl, bcast_scalar, constant_apply, Ideal.ofBits_zero_f32, zero_add]
  unfold seg
  refine Finset.sum_congr rfl fun e _ => ?_
  rw [bcast_edgeCol]

/-- The second segment mean, entry by entry: the segment sum over the segment size floored at one. -/
theorem stS2_apply (d : (⟨S1000000, .i32⟩ : BufTy).Contents (Elt Ideal)) (g : (⟨S1000000x128, .f32⟩ : BufTy).Contents (Elt Ideal))
    (p : Fin 100000) (k : Fin 128) :
    stS2 (F := Ideal) d g (ix2 p k)
      = Ideal.div (seg (fun e => d (ix1 e)) (fun e k => g (ix2 e k)) p k) (max (cnt (fun e => d (ix1 e)) p) oneW) := by
  rw [stS2_split, hostDivf_apply, bcast_cols128, bcast_nodeCol, segSum128_apply, cntFloor_apply]

end Cert.ReferenceIdeal.RefMathS

end
-- ==== Proof.RefMathL.lean ====
/-
  The reference program's two layers read at an entry: each is its two matrix products, as finite sums over the
  feature axis, plus the bias.
-/
import Mathlib
import proofs.«152036_j35828617183789_1_alg».proof.Proof.RefStage
import proofs.«152036_j35828617183789_1_alg».proof.Proof.Spec
import proofs.«152036_j35828617183789_1_alg».proof.Proof.RefMathBase
import proofs.«152036_j35828617183789_1_alg».proof.Proof.LibDot
import Idealize.ShloMosaic.Lib.Pipeline.Value
import Idealize.ShloMosaic.PureOps.Ideal.Laws

noncomputable section

open scoped BigOperators

namespace Cert.ReferenceIdeal.RefMathL

open Cert.ReferenceIdeal Cert.ReferenceIdeal.RefStage Idealize.ShloMosaic Idealize.ShloMosaic.ValueIdx Cert.Sage

variable [Facts]
open Facts₀ Facts
open Cert.ReferenceIdeal.RefMathBase

/-- The product's dimension numbers are those of rows times columns. -/
theorem plain1 : Cert.LibDot.Plain dot_S100000x64_S64x128_S100000x128_1_0_0_1_n_n where
  hrank := rfl
  hs := rfl
  hl0 := fun j k => by simp [DotDims.lhsIdx, dot_S100000x64_S64x128_S100000x128_1_0_0_1_n_n]; rfl
  hl1 := fun j k => DotDims.lhsIdx_val_of_single _ rfl j k
  hr0 := fun j k => DotDims.rhsIdx_val_of_single _ rfl j k
  hr1 := fun j k => by simp [DotDims.rhsIdx, dot_S100000x64_S64x128_S100000x128_1_0_0_1_n_n]; rfl

/-- The product's dimension numbers are those of rows times columns. -/
theorem plain2 : Cert.LibDot.Plain dot_S100000x128_S128x2_S100000x2_1_0_0_1_n_n where
  hrank := rfl
  hs := rfl
  hl0 := fun j k => by simp [DotDims.lhsIdx, dot_S100000x128_S128x2_S100000x2_1_0_0_1_n_n]; rfl
  hl1 := fun j k => DotDims.lhsIdx_val_of_single _ rfl j k
  hr0 := fun j k => DotDims.rhsIdx_val_of_single _ rfl j k
  hr1 := fun j k => by simp [DotDims.rhsIdx, dot_S100000x128_S128x2_S100000x2_1_0_0_1_n_n]; rfl

/-- The first layer, entry by entry: the two products and the bias. -/
theorem stL1_apply (a : (⟨S100000x64, .f32⟩ : BufTy).Contents (Elt Ideal)) (wl : (⟨S64x128, .f32⟩ : BufTy).Contents (Elt Ideal))
    (x : (⟨S100000x64, .f32⟩ : BufTy).Contents (Elt Ideal)) (wr : (⟨S64x128, .f32⟩ : BufTy).Contents (Elt Ideal))
    (b : (⟨S128, .f32⟩ : BufTy).Contents (Elt Ideal)) (i : Fin 100000) (j : Fin 128) :
    stL1 (F := Ideal) a wl x wr b (ix2 i j)
      = (∑ k : Fin 64, a (ix2 i k) * wl (ix2 k j)) + (∑ k : Fin 64, x (ix2 i k) * wr (ix2 k j)) + b (ix1 j) := by
  have hdot := fun (l : FVec Ideal S100000x64 .f32) (r : FVec Ideal S64x128 .f32) => Cert.LibDot.dotGeneral_ix2 plain1 none l r i j
  unfold stL1
  simp only [addf_apply, hdot, bcast_rows, bcast_row]

/-- The second layer, entry by entry: the two products and the bias. -/
theorem stL2_apply (a : (⟨S100000x128, .f32⟩ : BufTy).Contents (Elt Ideal)) (wl : (⟨S128x2, .f32⟩ : BufTy).Contents (Elt Ideal))
    (x : (⟨S100000x128, .f32⟩ : BufTy).Contents (Elt Ideal)) (wr : (⟨S128x2, .f32⟩ : BufTy).Contents (Elt Ideal))
    (b : (⟨S2, .f32⟩ : BufTy).Contents (Elt Ideal)) (i : Fin 100000) (j : Fin 2) :
    stL2 (F := Ideal) a wl x wr b (ix2 i j)
      = (∑ k : Fin 128, a (ix2 i k) * wl (ix2 k j)) + (∑ k : Fin 128, x (ix2 i k) * wr (ix2 k j)) + b (ix1 j) := by
  have hdot := fun (l : FVec Ideal S100000x128 .f32) (r : FVec Ideal S128x2 .f32) => Cert.LibDot.dotGeneral_ix2 plain2 none l r i j
  unfold stL2
  simp only [addf_apply, hdot, bcast_rows2, bcast_row2]

end Cert.ReferenceIdeal.RefMathL

end
-- ==== Proof.LibRealMask.lean ====
/-
  Masks as Booleans, and comparisons and roots of real numbers, on the extended reals.
  A one-bit mask built from comparisons is the bit of a Boolean: "and" of two such bits is the bit of the conjunction, "not" the bit
  of the negation, and a select on such a bit is an if on the Boolean. A comparison of two real numbers read on the extended reals is
  the bit of the real comparison. The square root of a non-negative real is its real square root; the inverse square root of a
  positive real is the inverse of its real square root, so a positive real times its inverse square root is its square root.
  Two natural numbers below 2^32, as 32-bit words, are equal exactly when the numbers are.
-/
import Mathlib
import Idealize.ShloMosaic.Lib.ValueIdx
import Idealize.ShloMosaic.PureOps.Ideal.Laws

noncomputable section

namespace Cert.LibRealMask

open Idealize.ShloMosaic

/-- A select on the bit of a Boolean is an if on the Boolean. -/
theorem sel_bool {α : Type} (a : Bool) (u v : α) : Scalar.select (BitVec.ofBool a) u v = if a = true then u else v := by
  cases a <;> rfl

/-- The "and" of two Booleans' bits is the bit of their conjunction. -/
theorem and_bool (a b : Bool) : IntOp.andi (BitVec.ofBool a) (BitVec.ofBool b) = BitVec.ofBool (a && b) := by
  cases a <;> cases b <;> rfl

/-- The complement of a Boolean's bit is the bit of its negation. -/
theorem not_bool (a : Bool) : ~~~(BitVec.ofBool a) = BitVec.ofBool (!a) := by cases a <;> rfl

/-- "Less than" between two reals, read on the extended reals. -/
theorem cmp_olt_coe (a b : ℝ) : Ideal.cmp .olt (a : EReal) (b : EReal) = BitVec.ofBool (decide (a < b)) := by
  simp only [Ideal.cmp, EReal.coe_lt_coe_iff]

/-- "Greater than" between two reals, read on the extended reals. -/
theorem cmp_ogt_coe (a b : ℝ) : Ideal.cmp .ogt (a : EReal) (b : EReal) = BitVec.ofBool (decide (b < a)) := by
  simp only [Ideal.cmp, EReal.coe_lt_coe_iff]

/-- The square root of a non-negative real. -/
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

/-- The inverse square root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its inverse square root is its square root. -/
theorem mul_rsqrt_coe (r : ℝ) (h : 0 < r) : ((r : ℝ) : EReal) * Ideal.rsqrt (r : EReal) = ((Real.sqrt r : ℝ) : EReal) := by
  rw [rsqrt_coe r h, ← EReal.coe_mul]
  congr 1
  have hpos : 0 < Real.sqrt r := Real.sqrt_pos.mpr h
  rw [mul_inv_eq_iff_eq_mul₀ hpos.ne']
  exact (Real.mul_self_sqrt h.le).symm

/-- Two naturals below 2^32, as 32-bit words, are equal exactly when the numbers are. -/
theorem word_eq_of_lt (i j : ℕ) (hi : i < 2 ^ 32) (hj : j < 2 ^ 32) :
    IntOp.cmpi .eq (BitVec.ofNat 32 i) (BitVec.ofNat 32 j) = BitVec.ofBool (decide (i = j)) := by
  simp only [IntOp.cmpi]
  congr 1
  rw [Bool.eq_iff_iff, beq_iff_eq, decide_eq_true_iff]
  constructor
  · intro h
    have := congrArg BitVec.toNat h
    simp only [BitVec.toNat_ofNat] at this
    omega
  · intro h; rw [h]

end Cert.LibRealMask

end
-- ==== Proof.RefMathN.lean ====
/-
  The reference program's normalisation stages read at an entry: the column means, the two-pass variances behind
  their guard (the number of rows is positive, so the guard holds), and the table normalised, scaled, shifted and
  clamped below at zero.
-/
import Mathlib
import proofs.«152036_j35828617183789_1_alg».proof.Proof.RefStage
import proofs.«152036_j35828617183789_1_alg».proof.Proof.Spec
import proofs.«152036_j35828617183789_1_alg».proof.Proof.RefMathBase
import proofs.«152036_j35828617183789_1_alg».proof.Proof.LibRealMask
import Idealize.ShloMosaic.Lib.Pipeline.Value
import Idealize.ShloMosaic.PureOps.Ideal.Laws

noncomputable section

open scoped BigOperators

namespace Cert.ReferenceIdeal.RefMathN

open Cert.ReferenceIdeal Cert.ReferenceIdeal.RefStage Idealize.ShloMosaic Idealize.ShloMosaic.ValueIdx Cert.Sage

variable [Facts]
open Facts₀ Facts
open Cert.ReferenceIdeal.RefMathBase

/-- The column means, entry by entry. -/
theorem stM_apply (h : (⟨S100000x128, .f32⟩ : BufTy).Contents (Elt Ideal)) (j : Fin 128) :
    RefStage.stM (F := Ideal) h (ix1 j) = colMean (mat h) j := by
  unfold RefStage.stM colMean colSum mat
  simp only [hostDivf_apply, colsum_apply, bcast_scalar, constant_apply, nW_word]

/-- The guard's number: the number of rows minus zero is the number of rows. -/
theorem guard_val : nW - (((0#32 : BitVec 32).toInt : ℝ) : EReal) = nW := by
  rw [BitVec.toInt_zero]; simp

/-- The guard holds: the number of rows is positive. -/
theorem guard_bit : Ideal.cmp .ogt nW 0 = 1#1 := by
  have hpos : decide ((0 : ℝ) < 100000) = true := by norm_num
  rw [nW_eq, ← EReal.coe_zero, Cert.LibRealMask.cmp_ogt_coe, hpos]
  rfl

/-- The two-pass variances behind their guard, entry by entry. -/
theorem stV_apply (h : (⟨S100000x128, .f32⟩ : BufTy).Contents (Elt Ideal)) (j : Fin 128) :
    stV (F := Ideal) h (ix1 j) = varR (mat h) j := by
  unfold stV varR colMean colSum mat
  simp only [select_apply, hostDivf_apply, colsum_apply, bcast_scalar, bcast_row, bcast_rows, constant_apply, nW_word,
    cmpf_apply, cmpf_eq, subf_apply, mulf_apply, sitofp_apply, sitofp_eq, constantI_apply, id_eq, guard_val,
    Ideal.ofBits_zero_f32, guard_bit, select_one]

/-- The normalised, scaled, shifted and clamped table, entry by entry. -/
theorem stN_apply (mu : (⟨S128, .f32⟩ : BufTy).Contents (Elt Ideal)) (h : (⟨S100000x128, .f32⟩ : BufTy).Contents (Elt Ideal))
    (v g be : (⟨S128, .f32⟩ : BufTy).Contents (Elt Ideal)) (i : Fin 100000) (j : Fin 128) :
    stN (F := Ideal) mu h v g be (ix2 i j)
      = max ((h (ix2 i j) - mu (ix1 j)) * Ideal.rsqrt (v (ix1 j) + epsW) * g (ix1 j) + be (ix1 j)) 0 := by
  unfold stN
  simp only [maximumf_apply, addf_apply, mulf_apply, subf_apply, hostRsqrt_apply, bcast_scalar, bcast_row, bcast_rows,
    constant_apply, epsW_word, Ideal.ofBits_zero_f32]

end Cert.ReferenceIdeal.RefMathN

end
-- ==== Proof.RefNet.lean ====
/-
  The reference program's composed function of the ten argument arrays is the specification's network with the
  two-pass variance: the first layer's result array is the layout of the hidden table, the normalised array the
  layout of the normalised table, and the result array the layout of the second layer over it.
-/
import Mathlib
import proofs.«152036_j35828617183789_1_alg».proof.Proof.RefStage
import proofs.«152036_j35828617183789_1_alg».proof.Proof.Spec
import proofs.«152036_j35828617183789_1_alg».proof.Proof.RefChain
import proofs.«152036_j35828617183789_1_alg».proof.Proof.RefMathA
import proofs.«152036_j35828617183789_1_alg».proof.Proof.RefMathS
import proofs.«152036_j35828617183789_1_alg».proof.Proof.RefMathL
import proofs.«152036_j35828617183789_1_alg».proof.Proof.RefMathN
import Idealize.ShloMosaic.Lib.Pipeline.Value
import Idealize.ShloMosaic.PureOps.Ideal.Laws

noncomputable section

open scoped BigOperators

namespace Cert.ReferenceIdeal.RefNet

open Cert.ReferenceIdeal Cert.ReferenceIdeal.RefStage Idealize.ShloMosaic Idealize.ShloMosaic.ValueIdx Cert.Sage

variable [Facts]
open Facts₀ Facts
open Cert.ReferenceIdeal.RefMathA Cert.ReferenceIdeal.RefMathS Cert.ReferenceIdeal.RefMathL Cert.ReferenceIdeal.RefMathN

/-- The first layer's result array is the layout of the specification's hidden table. -/
theorem hid_eq (x : (⟨S100000x64, .f32⟩ : BufTy).Contents (Elt Ideal)) (ei : (⟨S2x1000000, .i32⟩ : BufTy).Contents (Elt Ideal))
    (w1l w1r : (⟨S64x128, .f32⟩ : BufTy).Contents (Elt Ideal)) (b1 : (⟨S128, .f32⟩ : BufTy).Contents (Elt Ideal)) :
    hid (F := Ideal) x ei w1l w1r b1 = toArr (hidden (srcOf ei) (dstOf ei) (mat x) (mat w1l) (mat w1r) (vec b1)) := by
  refine arr_ext _ _ fun i j => ?_
  unfold hid
  rw [stL1_apply]
  unfold Cert.Sage.hidden layer agg
  simp only [stS1_apply, stG1_apply, stSrc_apply, stDst_apply]
  rfl

/-- The normalised table's array is the layout of the specification's, with the two-pass variance. -/
theorem nrm_eq (x : (⟨S100000x64, .f32⟩ : BufTy).Contents (Elt Ideal)) (ei : (⟨S2x1000000, .i32⟩ : BufTy).Contents (Elt Ideal))
    (w1l w1r : (⟨S64x128, .f32⟩ : BufTy).Contents (Elt Ideal)) (b1 g be : (⟨S128, .f32⟩ : BufTy).Contents (Elt Ideal)) :
    nrm (F := Ideal) x ei w1l w1r b1 g be
      = toArr (bnRelu (hidden (srcOf ei) (dstOf ei) (mat x) (mat w1l) (mat w1r) (vec b1))
          (varR (hidden (srcOf ei) (dstOf ei) (mat x) (mat w1l) (mat w1r) (vec b1))) (vec g) (vec be)) := by
  refine arr_ext _ _ fun i j => ?_
  unfold nrm
  rw [stN_apply, stM_apply, stV_apply, hid_eq]
  rfl

/-- The reference's result array is the specification's network with the two-pass variance. -/
theorem net_eq (x : (⟨S100000x64, .f32⟩ : BufTy).Contents (Elt Ideal)) (ei : (⟨S2x1000000, .i32⟩ : BufTy).Contents (Elt Ideal))
    (w1l w1r : (⟨S64x128, .f32⟩ : BufTy).Contents (Elt Ideal)) (b1 g be : (⟨S128, .f32⟩ : BufTy).Contents (Elt Ideal))
    (w2l w2r : (⟨S128x2, .f32⟩ : BufTy).Contents (Elt Ideal)) (b2 : (⟨S2, .f32⟩ : BufTy).Contents (Elt Ideal)) :
    net (F := Ideal) x ei w1l w1r b1 g be w2l w2r b2 = netR x ei w1l w1r b1 g be w2l w2r b2 := by
  unfold netR
  refine arr_ext _ _ fun i j => ?_
  unfold net
  rw [stL2_apply]
  unfold outR outOf layer agg
  simp only [stS2_apply, stG2_apply, stSrc_apply, stDst_apply, nrm_eq]
  rfl

end Cert.ReferenceIdeal.RefNet

end
-- ==== Proof.RefValue.lean ====
/-
  The reference program's run and value: from any memory with zero counters every weakly fair execution terminates,
  the result buffer holds the specification's network with the two-pass variance of the ten argument arrays, and the
  argument buffers are unchanged.
-/
import proofs.«152036_j35828617183789_1_alg».proof.Proof.RefChain
import proofs.«152036_j35828617183789_1_alg».proof.Proof.RefNet

noncomputable section

namespace Cert.ReferenceIdeal.RefValue

open Cert.ReferenceIdeal Cert.ReferenceIdeal.RefRun Cert.ReferenceIdeal.RefStage Cert.ReferenceIdeal.RefChain Cert.ReferenceIdeal.RefNet
open Idealize.ShloMosaic Idealize.ShloMosaic.TcCoe Idealize.SL.Sem Idealize.ShloMosaic.StableHlo

variable [Facts]

/-- The run and the value at the extended reals. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v73)
          = Cert.Sage.netR (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v73).trans ((out_eq _).trans (net_eq _ _ _ _ _ _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

end Cert.ReferenceIdeal.RefValue

end
-- ==== Proof.RefFrame.lean ====
/-
  The reference program's run, read at the argument buffers: from any memory with zero counters every weakly fair
  execution terminates and leaves the ten argument arrays as they were.
-/
import proofs.«152036_j35828617183789_1_alg».proof.Proof.RefChain

noncomputable section

namespace Cert.ReferenceIdeal.RefFrame

open Cert.ReferenceIdeal Cert.ReferenceIdeal.RefRun Cert.ReferenceIdeal.RefChain
open Idealize.ShloMosaic Idealize.ShloMosaic.TcCoe Idealize.SL.Sem Idealize.ShloMosaic.StableHlo

variable [Facts]

/-- Every execution terminates and leaves the ten arguments as they were. -/
theorem run_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

end Cert.ReferenceIdeal.RefFrame

end
-- ==== Proof.Law.lean ====
/-
  The law joining the two programs: over real entries the one-pass variance (mean of squares minus squared mean,
  clamped below at zero) and the two-pass variance (mean squared deviation) are the same number, because the
  divisor is exactly the number of rows. The first layer's result has real entries whenever the node features,
  the two first-layer weight tables and the first bias are real: every entry is built from those by finite sums,
  products and one division by a real that is at least one.
-/
import Mathlib
import proofs.«152036_j35828617183789_1_alg».proof.Proof.Spec

noncomputable section

namespace Cert.Sage

open Idealize.ShloMosaic Idealize.ShloMosaic.ValueIdx

/-! ## Finite sums of reals inside the extended reals -/

/-- A finite sum of coerced reals is the coercion of the real sum. -/
theorem coe_sum_real {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An extended real that is a real. -/
def IsR (a : EReal) : Prop := ∃ r : ℝ, a = (r : EReal)

theorem IsR.zero : IsR 0 := ⟨0, by simp⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.ite {p : Prop} [Decidable p] {a b : EReal} (ha : IsR a) (hb : IsR b) : IsR (if p then a else b) := by
  split_ifs <;> assumption

/-- A finite sum of reals is a real. -/
theorem IsR.sum {ι : Type*} [Fintype ι] {f : ι → EReal} (h : ∀ i, IsR (f i)) : IsR (∑ i, f i) := by
  choose g hg using h
  exact ⟨∑ i, g i, by rw [← coe_sum_real]; exact Finset.sum_congr rfl fun i _ => hg i⟩

/-- The quotient of two reals, the divisor not zero, is the real quotient. -/
theorem div_real (a b : ℝ) (hb : b ≠ 0) : Ideal.div (a : EReal) (b : EReal) = ((a / b : ℝ) : EReal) := by
  rw [Ideal.div_coe hb, ← EReal.coe_mul, mul_one_div]

/-! ## The first layer's result is real -/

/-- The word one is the real one. -/
theorem oneW_isR : IsR oneW := ⟨1, by rw [oneW_eq]; simp⟩

/-- A count is a real: a finite sum of ones and zeros. -/
theorem cnt_isR (dst : Fin NE → BitVec 32) (p : Fin NN) : IsR (cnt dst p) :=
  IsR.sum fun _ => IsR.ite oneW_isR IsR.zero

/-- A count floored at one is a real that is not zero. -/
theorem floor_real (dst : Fin NE → BitVec 32) (p : Fin NN) :
    ∃ m : ℝ, m ≠ 0 ∧ max (cnt dst p) oneW = (m : EReal) := by
  obtain ⟨c, hc⟩ := cnt_isR dst p
  refine ⟨max c 1, ?_, ?_⟩
  · have : (0 : ℝ) < max c 1 := lt_of_lt_of_le one_pos (le_max_right c 1)
    exact this.ne'
  · rw [hc, oneW_eq, ← EReal.coe_one]
    exact (EReal.coe_strictMono.monotone.map_max).symm

/-- A neighbour sum of a real table is real. -/
theorem agg_isR {D : ℕ} (src dst : Fin NE → BitVec 32) (X : Fin NN → Fin D → EReal) (hX : ∀ i k, IsR (X i k))
    (p : Fin NN) (k : Fin D) : IsR (agg src dst X p k) := by
  unfold agg seg
  exact IsR.sum fun _ => IsR.ite (hX _ _) IsR.zero

/-- One layer of real tables is real. -/
theorem layer_isR {D M : ℕ} (src dst : Fin NE → BitVec 32) (X : Fin NN → Fin D → EReal)
    (Wl Wr : Fin D → Fin M → EReal) (b : Fin M → EReal) (hX : ∀ i k, IsR (X i k)) (hWl : ∀ k j, IsR (Wl k j))
    (hWr : ∀ k j, IsR (Wr k j)) (hb : ∀ j, IsR (b j)) (i : Fin NN) (j : Fin M) :
    IsR (layer (agg src dst X) (cnt dst) X Wl Wr b i j) := by
  obtain ⟨m, hm0, hm⟩ := floor_real dst i
  refine IsR.add (IsR.add (IsR.sum fun k => IsR.mul ?_ (hWl k j)) (IsR.sum fun k => IsR.mul (hX i k) (hWr k j))) (hb j)
  obtain ⟨a, ha⟩ := agg_isR src dst X hX i k
  exact ⟨a / m, by rw [ha, hm, div_real a m hm0]⟩

/-! ## The two variances over the reals -/

/-- Over the reals, with n the number of terms: the mean squared deviation is the mean of the squares minus the
    squared mean. -/
theorem real_var_identity {ι : Type*} [Fintype ι] (h : ι → ℝ) (n : ℝ) (hn : (Fintype.card ι : ℝ) = n) (hn0 : n ≠ 0) :
    (∑ i, (h i - (∑ i, h i) / n) * (h i - (∑ i, h i) / n)) / n
      = (∑ i, h i * h i) / n - ((∑ i, h i) / n) * ((∑ i, h i) / n) := by
  set S : ℝ := ∑ i, h i with hS
  set μ : ℝ := S / n with hμ
  have hexp : ∀ i, (h i - μ) * (h i - μ) = h i * h i - (2 * μ) * h i + μ * μ := fun i => by ring
  have hsum : (∑ i, (h i - μ) * (h i - μ)) = (∑ i, h i * h i) - (2 * μ) * S + n * (μ * μ) := by
    simp_rw [hexp]
    rw [Finset.sum_add_distrib, Finset.sum_sub_distrib, ← Finset.mul_sum, Finset.sum_const, Finset.card_univ,
      nsmul_eq_mul, hn]
  rw [hsum, hμ]
  field_simp
  ring

/-- The mean squared deviation is not negative. -/
theorem real_var_nonneg {ι : Type*} [Fintype ι] (h : ι → ℝ) (n : ℝ) (hn0 : 0 < n) (μ : ℝ) :
    0 ≤ (∑ i, (h i - μ) * (h i - μ)) / n :=
  div_nonneg (Finset.sum_nonneg fun i _ => mul_self_nonneg _) hn0.le

/-! ## The two variances over the extended reals, on a table of reals -/

/-- On a table of reals the one-pass and the two-pass variance of a column agree. -/
theorem varK_eq_varR {M : ℕ} (H : Fin NN → Fin M → EReal) (hH : ∀ i j, IsR (H i j)) (j : Fin M) :
    varK H j = varR H j := by
  choose h hh using fun i => hH i j
  have hn0 : (100000 : ℝ) ≠ 0 := by norm_num
  have hcard : (Fintype.card (Fin NN) : ℝ) = 100000 := by
    rw [Fintype.card_fin]; norm_num [NN]
  have hS : colSum H j = ((∑ i, h i : ℝ) : EReal) := by
    unfold colSum; rw [← coe_sum_real]; exact Finset.sum_congr rfl fun i _ => hh i
  have hQ : colSumSq H j = ((∑ i, h i * h i : ℝ) : EReal) := by
    unfold colSumSq; rw [← coe_sum_real]
    exact Finset.sum_congr rfl fun i _ => by rw [hh i, ← EReal.coe_mul]
  have hμ : colMean H j = (((∑ i, h i) / 100000 : ℝ) : EReal) := by
    unfold colMean; rw [hS, nW_eq, div_real _ _ hn0]
  have hD : (∑ i : Fin NN, (H i j - colMean H j) * (H i j - colMean H j))
      = ((∑ i, (h i - (∑ i, h i) / 100000) * (h i - (∑ i, h i) / 100000) : ℝ) : EReal) := by
    rw [← coe_sum_real]
    exact Finset.sum_congr rfl fun i _ => by rw [hh i, hμ, ← EReal.coe_sub, ← EReal.coe_mul]
  have hid := real_var_identity h 100000 hcard hn0
  have hnn := real_var_nonneg h 100000 (by norm_num) ((∑ i, h i) / 100000)
  unfold varK varR
  rw [hD, hQ, hμ, nW_eq, div_real _ _ hn0, div_real _ _ hn0, ← EReal.coe_mul, ← EReal.coe_sub, ← hid]
  exact max_eq_left (by exact_mod_cast hnn)

/-! ## The two networks -/

theorem netK_eq_netR (x : (⟨2, ![NN, 64]⟩ : Shape).Idx → EReal) (ei : (⟨2, ![2, NE]⟩ : Shape).Idx → BitVec 32)
    (w1l w1r : (⟨2, ![64, 128]⟩ : Shape).Idx → EReal) (b1 g be : (⟨1, ![128]⟩ : Shape).Idx → EReal)
    (w2l w2r : (⟨2, ![128, 2]⟩ : Shape).Idx → EReal) (b2 : (⟨1, ![2]⟩ : Shape).Idx → EReal)
    (hx : ∀ y, ∃ r : ℝ, x y = (r : EReal)) (hw1l : ∀ y, ∃ r : ℝ, w1l y = (r : EReal))
    (hw1r : ∀ y, ∃ r : ℝ, w1r y = (r : EReal)) (hb1 : ∀ y, ∃ r : ℝ, b1 y = (r : EReal)) :
    netK x ei w1l w1r b1 g be w2l w2r b2 = netR x ei w1l w1r b1 g be w2l w2r b2 := by
  have hH : ∀ i j, IsR (hidden (srcOf ei) (dstOf ei) (mat x) (mat w1l) (mat w1r) (vec b1) i j) := fun i j =>
    layer_isR (srcOf ei) (dstOf ei) (mat x) (mat w1l) (mat w1r) (vec b1) (fun i k => hx (ix2 i k))
      (fun k j => hw1l (ix2 k j)) (fun k j => hw1r (ix2 k j)) (fun j => hb1 (ix1 j)) i j
  have hv : varK (hidden (srcOf ei) (dstOf ei) (mat x) (mat w1l) (mat w1r) (vec b1))
      = varR (hidden (srcOf ei) (dstOf ei) (mat x) (mat w1l) (mat w1r) (vec b1)) :=
    funext fun j => varK_eq_varR _ hH j
  unfold netK netR outK outR
  rw [hv]

end Cert.Sage

end
-- ==== Proof.PreReal.lean ====
/-
  The precondition says of each of the ten arguments that every entry has absolute value below plus infinity. Read
  back entry by entry this says every entry is a real: of the three kinds of extended real, minus infinity and plus
  infinity have absolute value plus infinity, which is not below itself. Only the node features, the two first-layer
  weight tables and the first bias are needed afterwards.
-/
import proofs.«152036_j35828617183789_1_alg».proof.Pre_finite_inputs
import proofs.«152036_j35828617183789_1_alg».proof.Proof.Gen.Pre_finite_inputs
import Idealize.ShloMosaic.Lib.ReduceAll
import Idealize.ShloMosaic.PureOps.Ideal
import Idealize.ShloMosaic.Lib.ValueIdx

noncomputable section

namespace Cert.Sage

open Idealize.ShloMosaic

/-- The word with every exponent bit set, no fraction bit and no sign is plus infinity. -/
theorem infW_eq : Ideal.ofBits .f32 0x7F800000#32 = (⊤ : EReal) := by
  simp [Ideal.ofBits, Ideal.ieee]

/-- An extended real whose absolute value is below plus infinity is a real. -/
theorem real_of_abs_lt_top (a : EReal) (h : max a (-a) < ⊤) : ∃ r : ℝ, a = (r : EReal) := by
  induction a using EReal.rec with
  | bot => simp at h
  | coe r => exact ⟨r, rfl⟩
  | top => simp at h

/-- The comparison "absolute value below the infinity word" answering one says the entry is a real. -/
theorem real_of_cmp (a : EReal) (h : Ideal.cmp .olt (max a (-a)) (Ideal.ofBits .f32 0x7F800000#32) = 1#1) :
    ∃ r : ℝ, a = (r : EReal) := by
  rw [infW_eq] at h
  refine real_of_abs_lt_top a ?_
  by_contra hn
  simp [Ideal.cmp, hn] at h

/-- A result with no axes has one index. -/
instance : Subsingleton Cert.Pre_finite_inputs.S_.Idx := ⟨fun a b => funext fun d => d.elim0⟩

/-- One conjunct of the precondition, read back: every entry of the array is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ValueIdx.ix0 = 1#1) :
    ∀ y, ∃ r : ℝ, x y = (r : EReal) := fun y =>
  real_of_cmp (x y) (Host.reduce_andi_all _ _ hr hu _ h y)

/-- The precondition gives real entries for the node features, the two first-layer weight tables and the first bias. -/
theorem real_of_pre [Cert.Pre_finite_inputs.Facts] (x : FVec Ideal Cert.Pre_finite_inputs.S100000x64 .f32)
    (ei : IVec Cert.Pre_finite_inputs.S2x1000000 32)
    (w1l w1r : FVec Ideal Cert.Pre_finite_inputs.S64x128 .f32) (b1 g be : FVec Ideal Cert.Pre_finite_inputs.S128 .f32)
    (w2l w2r : FVec Ideal Cert.Pre_finite_inputs.S128x2 .f32) (b2 : FVec Ideal Cert.Pre_finite_inputs.S2 .f32)
    (h : Cert.Pre_finite_inputs.fn (F := Ideal) x ei w1l w1r b1 g be w2l w2r b2 = fun _ => 1#1) :
    (∀ y, ∃ r : ℝ, x y = (r : EReal)) ∧ (∀ y, ∃ r : ℝ, w1l y = (r : EReal)) ∧ (∀ y, ∃ r : ℝ, w1r y = (r : EReal))
      ∧ (∀ y, ∃ r : ℝ, b1 y = (r : EReal)) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨h0, h2⟩, h3⟩, h4⟩, -⟩, -⟩, -⟩, -⟩, -⟩ := e
  exact ⟨all_real x _ _ _ h0, all_real w1l _ _ _ h2, all_real w1r _ _ _ h3, all_real b1 _ _ _ h4⟩

end Cert.Sage

end
-- ==== Proof.lean ====
/-
  The certificate: a two-layer GraphSAGE kernel (three pipelined regions among host gathers and segment sums) against its
  plain reference, on the extended reals.
  Both programs end with the same network of their ten argument arrays except for ONE step: the batch normalisation's
  variance, taken in one pass by the kernel (mean of squares minus squared mean, clamped at zero) and in two passes by
  the reference (mean squared deviation). Every float input being finite, every entry of the first layer's result is a
  real number (finite sums of reals, divided by a count floored at one), and over reals the two variances are one
  number because the divisor is exactly the number of rows; so the results agree entry by entry.
  The three programs' runs: the two kernel programs' are the launch theorem over their regions and host stretches; the
  reference's is its straight line of host operations. The kernel's idealization rewrote nothing, so it is preserved
  trivially.
-/
import proofs.«152036_j35828617183789_1_alg».proof.Defs
import proofs.«152036_j35828617183789_1_alg».proof.Proof.Gen.Kernel
import proofs.«152036_j35828617183789_1_alg».proof.Proof.Gen.Kernel.Frame
import proofs.«152036_j35828617183789_1_alg».proof.Proof.Gen.KernelIdeal
import proofs.«152036_j35828617183789_1_alg».proof.Proof.Gen.KernelIdeal.Frame
import proofs.«152036_j35828617183789_1_alg».proof.Proof.Gen.ReferenceIdeal
import proofs.«152036_j35828617183789_1_alg».proof.Proof.Gen.Pre_finite_inputs
import proofs.«152036_j35828617183789_1_alg».proof.Proof.KChainC
import proofs.«152036_j35828617183789_1_alg».proof.Proof.RefValue
import proofs.«152036_j35828617183789_1_alg».proof.Proof.RefFrame
import proofs.«152036_j35828617183789_1_alg».proof.Proof.Law
import proofs.«152036_j35828617183789_1_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefFrame.run_frame m ρ

/-- The kernel's result is the network with the one-pass variance, the reference's the network with the two-pass
    variance, of arguments that agree; the precondition makes the first layer's inputs real, where the two agree. -/
theorem algebraic : Cert.algebraic_KernelIdeal_ReferenceIdeal := by
  intro m ρ m' ρ' hpre hagree
  refine ⟨fun c => Cert.Sage.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.kernel_value m ρ, ?_⟩
  refine (θ_run Cert.ReferenceIdeal.defs _ _).mono (fun r h c => ⟨(h c).1.trans ?_, (h c).2⟩)
    (Cert.ReferenceIdeal.RefValue.run_value m' ρ')
  obtain ⟨h0, h1, h2, h3, h4, h5, h6, h7, h8, h9⟩ := hagree c
  rw [h0, h1, h2, h3, h4, h5, h6, h7, h8, h9]
  obtain ⟨hx, hl, hr, hb⟩ := Cert.Sage.real_of_pre _ _ _ _ _ _ _ _ _ _ (hpre c)
  exact (Cert.Sage.netK_eq_netR _ _ _ _ _ _ _ _ _ _ hx hl hr hb).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
